-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S1024x256 : Shape := ⟨2, ![1024, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256 .f32) (main_arg5 : FVec F S256x1 .f32) (main_arg6 : FVec F S1 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S16x4096x1024 .f32) (main_arg1 : FVec F S1024x256 .f32) (main_arg2 : FVec F S256 .f32) (main_arg3 : FVec F S1024x256 .f32) (main_arg4 : FVec F S256 .f32) (main_arg5 : FVec F S256x1 .f32) (main_arg6 : FVec F S1 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_arg5 main_arg6 main_v13 main_v16
-- ==== Kernel.lean ====
abbrev S16x4096x1024 : Shape := ⟨3, ![16, 4096, 1024]⟩
abbrev S1024x256 : Shape := ⟨2, ![1024, 256]⟩
abbrev S256 : Shape := ⟨1, ![256]⟩
abbrev S256x1 : Shape := ⟨2, ![256, 1]⟩
abbrev S1 : Shape := ⟨1, ![1]⟩
abbrev S1x256 : Shape := ⟨2, ![1, 256]⟩
abbrev S1x1 : Shape := ⟨2, ![1, 1]⟩
abbrev S16x1x1024 : Shape := ⟨3, ![16, 1, 1024]⟩
abbrev S16x1x4096 : Shape := ⟨3, ![16, 1, 4096]⟩
abbrev S1x1024x1024 : Shape := ⟨3, ![1, 1024, 1024]⟩
abbrev S1x1x1024 : Shape := ⟨3, ![1, 1, 1024]⟩
abbrev S1x1x4096 : Shape := ⟨3, ![1, 1, 4096]⟩
abbrev S1x1024 : Shape := ⟨2, ![1, 1024]⟩
abbrev S1x4096 : Shape := ⟨2, ![1, 4096]⟩
abbrev S1024x1024 : Shape := ⟨2, ![1024, 1024]⟩
abbrev S16x1024 : Shape := ⟨2, ![16, 1024]⟩
abbrev S16x4096 : Shape := ⟨2, ![16, 4096]⟩

abbrev nBuf : Space → Nat
  | .hbm => 18
  | .vmem => 16
  | .smem => 0
  | _ => 0

abbrev bufTy : (tb : Table) → Fin (tcTables nBuf tb) → BufTy
  | .hbm, ⟨0, _⟩ => ⟨S16x4096x1024, .f32⟩
  | .hbm, ⟨1, _⟩ => ⟨S1024x256, .f32⟩
  | .hbm, ⟨2, _⟩ => ⟨S256, .f32⟩
  | .hbm, ⟨3, _⟩ => ⟨S1024x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S1024x256, .bf16⟩
  | .hbm, ⟨8, _⟩ => ⟨S1024x256, .bf16⟩
  | .hbm, ⟨9, _⟩ => ⟨S1x256, .f32⟩
  | .hbm, ⟨10, _⟩ => ⟨S1x256, .bf16⟩
  | .hbm, ⟨11, _⟩ => ⟨S1x256, .f32⟩
  | .hbm, ⟨12, _⟩ => ⟨S1x256, .f32⟩
  | .hbm, ⟨13, _⟩ => ⟨S1x1, .f32⟩
  | .hbm, ⟨14, _⟩ => ⟨S16x1x1024, .f32⟩
  | .hbm, ⟨15, _⟩ => ⟨S16x1x4096, .f32⟩
  | .hbm, ⟨16, _⟩ => ⟨S16x1024, .f32⟩
  | .hbm, ⟨17, _⟩ => ⟨S16x4096, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x256, .bf16⟩
  | .local _ .vmem, ⟨3, _⟩ => ⟨S1x256, .f32⟩
  | .local _ .vmem, ⟨4, _⟩ => ⟨S1024x256, .bf16⟩
  | .local _ .vmem, ⟨5, _⟩ => ⟨S1x256, .f32⟩
  | .local _ .vmem, ⟨6, _⟩ => ⟨S1x256, .bf16⟩
  | .local _ .vmem, ⟨7, _⟩ => ⟨S1x1, .f32⟩
  | .local _ .vmem, ⟨8, _⟩ => ⟨S1x1x1024, .f32⟩
  | .local _ .vmem, ⟨9, _⟩ => ⟨S1x1x1024, .f32⟩
  | .local _ .vmem, ⟨10, _⟩ => ⟨S1x1x4096, .f32⟩
  | .local _ .vmem, ⟨11, _⟩ => ⟨S1x1x4096, .f32⟩
  | .local _ .vmem, ⟨12, _⟩ => ⟨S1x1, .f32⟩
  | .local _ .vmem, ⟨13, _⟩ => ⟨S1x1, .f32⟩
  | .local _ .vmem, ⟨14, _⟩ => ⟨S1x1024, .f32⟩
  | .local _ .vmem, ⟨15, _⟩ => ⟨S1x4096, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c1024_i32 : BitVec 32 := 1024#32
  let v31 : BitVec 32 := Scalar.muli arg1 c1024_i32
  v31
def k0_off1 (i : grid0.Coords) : Fin 2 → Nat :=
  let c0_17 : Index := 0#32
  let arg1 : BitVec 32 := BitVec.ofNat 32 (i 1).val
  let c1024_i32 : BitVec 32 := 1024#32
  let v31 : BitVec 32 := Scalar.muli arg1 c1024_i32
  let v32 : BitVec 32 := v31
  let v33 : Index := Scalar.indexCast v32
  ![0, v33.toNat]
def k0_cond2 (i : grid0.Coords) : BitVec 1 :=
  let arg1 : BitVec 32 := BitVec.ofNat 32 (i 1).val
  let c3_i32 : BitVec 32 := 3#32
  let v65 : BitVec 1 := Scalar.cmpi .eq arg1 c3_i32
  let v66 : BitVec 32 := Scalar.extui v65
  let c0_i32_33 : BitVec 32 := 0#32
  let v67 : BitVec 1 := Scalar.cmpi .ne v66 c0_i32_33
  v67

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  bitsLt_bf16_f32 : FTy.bits .bf16 < FTy.bits .f32
  transposes_S256x1_S1x256_1_0 : S256x1.Transposes [1, 0] S1x256
  shapeCasts_S256_S1x256 : S256.ShapeCasts S1x256
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  broadcasts_S1x1_S1x1024 : S1x1.Broadcasts S1x1024
  reduces_S1x1024_S1 : S1x1024.Reduces [1] S1
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  inb_S1x4096_S1x4096_0_0 : ∀ a, (![0, 0] : Fin 2 → Nat) a + S1x4096.size a ≤ S1x4096.size a
  h_S1x4096 : 0 < S1x4096.numel
  broadcasts_S1x1_S1x4096 : S1x1.Broadcasts S1x4096
  shapeCasts_S1x4096_S1x1x4096 : S1x4096.ShapeCasts S1x1x4096
  inb_S1x1x4096_S1x1x4096_0_0_0 : ∀ a, (![0, 0, 0] : Fin 3 → Nat) a + S1x1x4096.size a ≤ S1x1x4096.size a
  h_S1x1x4096 : 0 < S1x1x4096.numel
  shapeCasts_S16x1x1024_S16x1024 : S16x1x1024.ShapeCasts S16x1024
  shapeCasts_S16x1x4096_S16x4096 : S16x1x4096.ShapeCasts S16x4096
  dot_S1024x1024_S1024x256_S1024x256_1_0_0_1_n_n_wf : DotDims.WF S1024x1024 S1024x256 S1024x256 [1] [0] [0] [1] [] []
  dot_S1x256_S1024x256_S1x1024_1_1_0_0_n_n_wf : DotDims.WF S1x256 S1024x256 S1x1024 [1] [1] [0] [0] [] []
  dot_S1x1024_S1024x1024_S1x1024_1_0_0_1_n_n_wf : DotDims.WF S1x1024 S1024x1024 S1x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x4096x1024.size a
  hwx0_0 : ∀ i : grid0.Coords, EltTy.bits .f32 = 32 ∨ (Rect.block (s := S16x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .bf16 = 32 ∨ (Rect.block (s := S1024x256) S1024x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .bf16 = 32 ∨ (Rect.block (s := S1x256) S1x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1024.size a ≤ S16x1x1024.size a
  hwx0_7 : ∀ i : grid0.Coords, EltTy.bits .f32 = 32 ∨ (Rect.block (s := S16x1x1024) S1x1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x4096.size a ≤ S16x1x4096.size a
  hwx0_8 : ∀ i : grid0.Coords, EltTy.bits .f32 = 32 ∨ (Rect.block (s := S16x1x4096) S1x1x4096.size (cc0_transform_8 i) (hinb0_8 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1x256_S1024x256_S1x1024_1_1_0_0_n_n : DotDims S1x256 S1024x256 S1x1024 where
  lhsContracting := [1]
  rhsContracting := [1]
  lhsNonContracting := [0]
  rhsNonContracting := [0]
  lhsBatch := []
  rhsBatch := []
  wf := dot_S1x256_S1024x256_S1x1024_1_1_0_0_n_n_wf
def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S1x1x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S1x1x4096.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

class Facts : Prop extends Facts₀ where

variable [Facts]
-- ==== ReferenceIdeal.lean ====
abbrev S16x4096x1024 : Shape := ⟨3, ![16, 4096, 1024]⟩
abbrev S1024x256 : Shape := ⟨2, ![1024, 256]⟩
abbrev S256 : Shape := ⟨1, ![256]⟩
abbrev S256x1 : Shape := ⟨2, ![256, 1]⟩
abbrev S1 : Shape := ⟨1, ![1]⟩
abbrev S16x4096x256 : Shape := ⟨3, ![16, 4096, 256]⟩
abbrev S1x1x256 : Shape := ⟨3, ![1, 1, 256]⟩
abbrev S_ : Shape := ⟨0, ![]⟩
abbrev S16x4096x1 : Shape := ⟨3, ![16, 4096, 1]⟩
abbrev S1x1x1 : Shape := ⟨3, ![1, 1, 1]⟩
abbrev S16x1 : Shape := ⟨2, ![16, 1]⟩
abbrev S16x1x1 : Shape := ⟨3, ![16, 1, 1]⟩
abbrev S16x1024 : Shape := ⟨2, ![16, 1024]⟩
abbrev S16x4096 : Shape := ⟨2, ![16, 4096]⟩

abbrev nBuf : Space → Nat
  | .hbm => 48
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024x256, .f32⟩
  | .hbm, ⟨2, _⟩ => ⟨S256, .f32⟩
  | .hbm, ⟨3, _⟩ => ⟨S1024x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S16x4096x256, .f32⟩
  | .hbm, ⟨8, _⟩ => ⟨S1x1x256, .f32⟩
  | .hbm, ⟨9, _⟩ => ⟨S16x4096x256, .f32⟩
  | .hbm, ⟨10, _⟩ => ⟨S16x4096x256, .f32⟩
  | .hbm, ⟨11, _⟩ => ⟨S16x4096x256, .f32⟩
  | .hbm, ⟨12, _⟩ => ⟨S16x4096x256, .f32⟩
  | .hbm, ⟨13, _⟩ => ⟨S1x1x256, .f32⟩
  | .hbm, ⟨14, _⟩ => ⟨S16x4096x256, .f32⟩
  | .hbm, ⟨15, _⟩ => ⟨S16x4096x256, .f32⟩
  | .hbm, ⟨16, _⟩ => ⟨S16x4096x256, .f32⟩
  | .hbm, ⟨17, _⟩ => ⟨S16x4096x256, .f32⟩
  | .hbm, ⟨18, _⟩ => ⟨S_, .f32⟩
  | .hbm, ⟨19, _⟩ => ⟨S16x4096x256, .f32⟩
  | .hbm, ⟨20, _⟩ => ⟨S16x4096x256, .f32⟩
  | .hbm, ⟨21, _⟩ => ⟨S_, .f32⟩
  | .hbm, ⟨22, _⟩ => ⟨S16x4096x256, .f32⟩
  | .hbm, ⟨23, _⟩ => ⟨S16x4096x256, .f32⟩
  | .hbm, ⟨24, _⟩ => ⟨S16x4096x256, .f32⟩
  | .hbm, ⟨25, _⟩ => ⟨S16x4096x1, .f32⟩
  | .hbm, ⟨26, _⟩ => ⟨S1x1x1, .f32⟩
  | .hbm, ⟨27, _⟩ => ⟨S16x4096x1, .f32⟩
  | .hbm, ⟨28, _⟩ => ⟨S16x4096x1, .f32⟩
  | .hbm, ⟨29, _⟩ => ⟨S_, .f32⟩
  | .hbm, ⟨30, _⟩ => ⟨S16x1, .f32⟩
  | .hbm, ⟨31, _⟩ => ⟨S_, .f32⟩
  | .hbm, ⟨32, _⟩ => ⟨S16x1, .f32⟩
  | .hbm, ⟨33, _⟩ => ⟨S16x1, .f32⟩
  | .hbm, ⟨34, _⟩ => ⟨S16x1x1, .f32⟩
  | .hbm, ⟨35, _⟩ => ⟨S16x4096x1, .f32⟩
  | .hbm, ⟨36, _⟩ => ⟨S16x4096x1, .f32⟩
  | .hbm, ⟨37, _⟩ => ⟨S16x4096x1, .f32⟩
  | .hbm, ⟨38, _⟩ => ⟨S_, .f32⟩
  | .hbm, ⟨39, _⟩ => ⟨S16x1, .f32⟩
  | .hbm, ⟨40, _⟩ => ⟨S16x1x1, .f32⟩
  | .hbm, ⟨41, _⟩ => ⟨S16x4096x1, .f32⟩
  | .hbm, ⟨42, _⟩ => ⟨S16x4096x1, .f32⟩
  | .hbm, ⟨43, _⟩ => ⟨S16x4096x1024, .f32⟩
  | .hbm, ⟨44, _⟩ => ⟨S16x4096x1024, .f32⟩
  | .hbm, ⟨45, _⟩ => ⟨S_, .f32⟩
  | .hbm, ⟨46, _⟩ => ⟨S16x1024, .f32⟩
  | .hbm, ⟨47, _⟩ => ⟨S16x4096, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S16x4096x256_0_1_2 : S1x1x256.BroadcastsInDim S16x4096x256 (![0, 1, 2] : Fin 3 → Fin S16x4096x256.rank)
  bcast_S_S16x4096x256 : S_.BroadcastsInDim S16x4096x256 (![] : Fin 0 → Fin S16x4096x256.rank)
  bcast_S1_S1x1x1_2 : S1.BroadcastsInDim S1x1x1 (![2] : Fin 1 → Fin S1x1x1.rank)
  bcast_S1x1x1_S16x4096x1_0_1_2 : S1x1x1.BroadcastsInDim S16x4096x1 (![0, 1, 2] : Fin 3 → Fin S16x4096x1.rank)
  reducesTo_S16x4096x1_S16x1_d1 : S16x4096x1.ReducesTo [1] S16x1
  h_S_ : 0 < S_.numel
  bcast_S_S16x1 : S_.BroadcastsInDim S16x1 (![] : Fin 0 → Fin S16x1.rank)
  bcast_S16x1_S16x1x1_0_2 : S16x1.BroadcastsInDim S16x1x1 (![0, 2] : Fin 2 → Fin S16x1x1.rank)
  bcast_S16x1x1_S16x4096x1_0_1_2 : S16x1x1.BroadcastsInDim S16x4096x1 (![0, 1, 2] : Fin 3 → Fin S16x4096x1.rank)
  bcast_S16x4096x1_S16x4096x1024_0_1_2 : S16x4096x1.BroadcastsInDim S16x4096x1024 (![0, 1, 2] : Fin 3 → Fin S16x4096x1024.rank)
  reducesTo_S16x4096x1024_S16x1024_d1 : S16x4096x1024.ReducesTo [1] S16x1024
  shapeCasts_S16x4096x1_S16x4096 : S16x4096x1.ShapeCasts S16x4096
  dot_S16x4096x1024_S1024x256_S16x4096x256_2_0_01_1_n_n_wf : DotDims.WF S16x4096x1024 S1024x256 S16x4096x256 [2] [0] [0, 1] [1] [] []
  dot_S16x4096x256_S256x1_S16x4096x1_2_0_01_1_n_n_wf : DotDims.WF S16x4096x256 S256x1 S16x4096x1 [2] [0] [0, 1] [1] [] []

variable [Facts₀]

def dot_S16x4096x1024_S1024x256_S16x4096x256_2_0_01_1_n_n : DotDims S16x4096x1024 S1024x256 S16x4096x256 where
  lhsContracting := [2]
  rhsContracting := [0]
  lhsNonContracting := [0, 1]
  rhsNonContracting := [1]
  lhsBatch := []
  rhsBatch := []
  wf := dot_S16x4096x1024_S1024x256_S16x4096x256_2_0_01_1_n_n_wf
def dot_S16x4096x256_S256x1_S16x4096x1_2_0_01_1_n_n : DotDims S16x4096x256 S256x1 S16x4096x1 where
  lhsContracting := [2]
  rhsContracting := [0]
  lhsNonContracting := [0, 1]
  rhsNonContracting := [1]
  lhsBatch := []
  rhsBatch := []
  wf := dot_S16x4096x256_S256x1_S16x4096x1_2_0_01_1_n_n_wf

class Facts : Prop extends Facts₀ where

variable [Facts]
-- ==== Proof.WordCases.lean ====
/-
  The grid of the pooling kernel is 16 bags × 4 tiles; point t is tile t mod 4 of bag t / 4. The body resets its running
  maximum, denominator and weighted sum at a bag's first tile and emits the bag's outputs at its last. This module states
  those two branch conditions in closed form over the points, where the two output windows are idle (everywhere but a
  bag's last tile), names the staging and scratch buffers the body is called with, and opens the region's invariant at
  the four scratch buffers.
-/
import proofs.«129396_j54546084659650_2_alg».proof.Proof.Gen.Kernel.Frame
import proofs.«129396_j54546084659650_2_alg».proof.Proof.Gen.Kernel.Skeleton
import proofs.«129396_j54546084659650_2_alg».proof.Proof.Gen.Kernel.Launch
import proofs.«129396_j54546084659650_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- The body's first branch: this is a bag's first tile. -/
abbrev isFirst (i : grid0.Coords) : Prop := (Scalar.cmpi .ne (Scalar.extui (Scalar.cmpi .eq (BitVec.ofNat 32 (i 1).val) 0#32)) 0#32) = 1#1
/-- It holds exactly at the points ≡ 0 (mod 4). -/
theorem isFirst_iff : ∀ t : Fin cfg0.N, isFirst (grid0.coords t) ↔ t.val % 4 = 0 :=
  (by decide +kernel : ∀ t : Fin grid0.N, isFirst (grid0.coords t) ↔ t.val % 4 = 0)

/-- The body's second branch: this is a bag's last tile. -/
abbrev isLast (i : grid0.Coords) : Prop := k0_cond2 i = 1#1
/-- It holds exactly at the points ≡ 3 (mod 4). -/
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
/-- The two output windows are idle exactly off a bag's last tile. -/
theorem idle_7 : ∀ t : Fin cfg0.N, cfg0.idle 7 (grid0.coords t) = !decide (t.val % 4 = 3) := by decide +kernel
theorem idle_8 : ∀ t : Fin cfg0.N, cfg0.idle 8 (grid0.coords t) = !decide (t.val % 4 = 3) := by decide +kernel

/-! ## The buffers the body is called with -/

abbrev ms0 (t : Fin cfg0.N) : Memref sig .tc .vmem S1x1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1x4096 .f32 := win0_8.stage (cfg0.slots t 8)
abbrev hs8 (t : Fin cfg0.N) : (ms8 t).IsWhole := hstage0_8 ((cfg0.slots t 8).cast nbuf0_8)
/-- The running maximum, the running denominator, the running weighted sum and the bag's logits: scratch buffers of the
    kernel's own. -/
abbrev sc0 : Memref sig .tc .vmem S1x1 .f32 := Memref.whole cc0_scratch0
abbrev sc1 : Memref sig .tc .vmem S1x1 .f32 := Memref.whole cc0_scratch1
abbrev sc2 : Memref sig .tc .vmem S1x1024 .f32 := Memref.whole cc0_scratch2
abbrev sc3 : Memref sig .tc .vmem S1x4096 .f32 := Memref.whole cc0_scratch3

/-- The region's invariant with the four scratch buffers owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

end Cert.Kernel.Hand

end
-- ==== Proof.LibOverlay.lean ====
/-
  One store over known contents.

  A buffer that holds `X` and then takes one store of payload `w` through rectangle `r` holds `X` overlaid with `w` on
  `r`: the payload at the local index under the rectangle, `X` elsewhere. Two stores through the same rectangle leave
  what the later one wrote.
-/
import Idealize.ShloMosaic.Lib.Pipeline.Value

noncomputable section

namespace Cert.LibOverlay

open Idealize.ShloMosaic

variable {Val : EltTy → Type} {sig : RefSig} {κ : Kind} {sp : Space} {s : Shape} {e : EltTy}

/-- The contents after one store over `f`, read through the view: the old reading overlaid with the payload. -/
theorem read_writes_single (v : View sig κ sp s e) (f : v.ty.Contents Val) (r : Rect s) (w : r.shape.Idx → Val e) :
    v.read Val (v.writes Val f [(⟨r, w⟩ : View.Piece Val s e)]) = r.overlay (v.read Val f) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', View.writes_nil, Rect.overlay_of_not_mem _ _ _ hy]

/-- Overlaying the WHOLE shape (the rectangle at zero offsets of the shape's own sizes) leaves just the payload. -/
theorem overlay_unit_zero {S : Shape} {α : Type} {off : Fin S.rank → Nat} (h : off = fun _ => 0)
    (inb : ∀ a, off a + S.size a ≤ S.size a) (X : S.Idx → α) (w : S.Idx → α) :
    (Rect.unit off S.size inb).overlay X w = w := by
  subst h; funext y
  have e := Rect.overlay_emb (Rect.whole S) X w y
  rw [Rect.emb_whole_apply] at e
  exact e

end Cert.LibOverlay

end
-- ==== Proof.WordPut.lean ====
/-
  A tile's store into the logits buffer, as a function of what the buffer held: the 1024 new logits laid over columns
  1024·k … 1024·k + 1023 (k the point's tile), everything else unchanged.
-/
import proofs.«129396_j54546084659650_2_alg».proof.Proof.WordCases
import proofs.«129396_j54546084659650_2_alg».proof.Proof.LibOverlay
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The logits buffer `buf` with the tile's 1024 logits `w` written at the tile's slice. -/
def putTile (i : grid0.Coords) (buf : Vec F S1x4096 .f32) (w : FVec F S1x1024 .f32) : Vec F S1x4096 .f32 :=
  (Rect.unit (s := S1x4096) (k0_off1 i) S1x1024.size (k0_off1_inb i)).overlay buf w

theorem hz2 : (![0, 0] : Fin 2 → Nat) = fun _ => 0 := by funext a; fin_cases a <;> rfl
theorem hz3 : (![0, 0, 0] : Fin 3 → Nat) = fun _ => 0 := by funext a; fin_cases a <;> rfl

end Cert.Kernel.Hand

end
-- ==== Proof.WordState.lean ====
/-
  The pooling kernel point by point. Point t is tile t mod 4 of bag t / 4. After each point the running maximum,
  denominator and weighted sum hold the body's update of what the point before left (of the reset values at a bag's first
  tile) by the tile's logits and features. The logits buffer is known only on the slices the current bag has written so
  far: there it holds those tiles' logits, so after a bag's last tile it holds the bag's 4096 logits side by side. The
  two outputs of a bag are the body's final expressions of the running triple and of those logits.
-/
import proofs.«129396_j54546084659650_2_alg».proof.Proof.WordPut
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N64 : cfg0.N = 64 := N_0

/-- The logits of the tile visited at point `t`, from the point's input blocks. -/
def logitsAt (c : Dev nD) (t : Fin cfg0.N) : FVec F S1x1024 .f32 :=
  k0_pay15 (iblk m c 0 t) (iblk m c 1 t) (iblk m c 2 t) (iblk m c 3 t) (iblk m c 4 t) (iblk m c 5 t) (iblk m c 6 t)

/-- The features of the tile visited at point `t`, as a 1024 × 1024 matrix. -/
def featAt (c : Dev nD) (t : Fin cfg0.N) : FVec F S1024x1024 .f32 := k0_pay14 (iblk m c 0 t)

/-! ## The running triple -/

/-- The running maximum, denominator and weighted sum after the body at position `n`. -/
def tripAt (c : Dev nD) : (n : ℕ) → n < cfg0.N → Vec F S1x1 .f32 × Vec F S1x1 .f32 × Vec F S1x1024 .f32
  | 0, hn =>
    (k0_pay5 (logitsAt m c ⟨0, hn⟩) (k0_pay11 (F := F)),
     k0_pay6 (logitsAt m c ⟨0, hn⟩) (k0_pay11 (F := F)) (k0_pay12 (F := F)),
     k0_pay7 (featAt m c ⟨0, hn⟩) (logitsAt m c ⟨0, hn⟩) (k0_pay11 (F := F)) (k0_pay13 (F := F)))
  | n + 1, hn =>
    if (n + 1) % 4 = 0 then
      (k0_pay5 (logitsAt m c ⟨n + 1, hn⟩) (k0_pay11 (F := F)),
       k0_pay6 (logitsAt m c ⟨n + 1, hn⟩) (k0_pay11 (F := F)) (k0_pay12 (F := F)),
       k0_pay7 (featAt m c ⟨n + 1, hn⟩) (logitsAt m c ⟨n + 1, hn⟩) (k0_pay11 (F := F)) (k0_pay13 (F := F)))
    else
      (k0_pay5 (logitsAt m c ⟨n + 1, hn⟩) (tripAt c n (Nat.lt_of_succ_lt hn)).1,
       k0_pay6 (logitsAt m c ⟨n + 1, hn⟩) (tripAt c n (Nat.lt_of_succ_lt hn)).1 (tripAt c n (Nat.lt_of_succ_lt hn)).2.1,
       k0_pay7 (featAt m c ⟨n + 1, hn⟩) (logitsAt m c ⟨n + 1, hn⟩) (tripAt c n (Nat.lt_of_succ_lt hn)).1 (tripAt c n (Nat.lt_of_succ_lt hn)).2.2)

/-- At a bag's first tile the triple is the update of the reset values. -/
theorem tripAt_first (c : Dev nD) (t : Fin cfg0.N) (h : t.val % 4 = 0) :
    tripAt m c t.val t.isLt =
      (k0_pay5 (logitsAt m c t) (k0_pay11 (F := F)),
       k0_pay6 (logitsAt m c t) (k0_pay11 (F := F)) (k0_pay12 (F := F)),
       k0_pay7 (featAt m c t) (logitsAt m c t) (k0_pay11 (F := F)) (k0_pay13 (F := F))) := by
  obtain ⟨n, hn⟩ := t
  cases n with
  | zero => rfl
  | succ n => exact (if_pos h)

/-- At any other tile it is the update of what the point before left. -/
theorem tripAt_next (c : Dev nD) (t : Fin cfg0.N) (h : ¬ t.val % 4 = 0) :
    tripAt m c t.val t.isLt =
      (k0_pay5 (logitsAt m c t) (tripAt m c (t.val - 1) (Nat.lt_of_le_of_lt (Nat.sub_le _ _) t.isLt)).1,
       k0_pay6 (logitsAt m c t) (tripAt m c (t.val - 1) (Nat.lt_of_le_of_lt (Nat.sub_le _ _) t.isLt)).1 (tripAt m c (t.val - 1) (Nat.lt_of_le_of_lt (Nat.sub_le _ _) t.isLt)).2.1,
       k0_pay7 (featAt m c t) (logitsAt m c t) (tripAt m c (t.val - 1) (Nat.lt_of_le_of_lt (Nat.sub_le _ _) t.isLt)).1 (tripAt m c (t.val - 1) (Nat.lt_of_le_of_lt (Nat.sub_le _ _) t.isLt)).2.2) := by
  obtain ⟨n, hn⟩ := t
  cases n with
  | zero => exact absurd (Nat.zero_mod _) h
  | succ n => exact (if_neg h)

/-! ## The logits buffer -/

/-- The 4096 logits of the bag point `t` belongs to, tile after tile. -/
def bagLogits (c : Dev nD) (t : Fin cfg0.N) : Vec F S1x4096 .f32 := fun y =>
  logitsAt m c ⟨4 * (t.val / 4) + (y 1).val / 1024, by
      have h1 : (y 1).val < 4096 := (y 1).isLt
      have h2 : t.val < 64 := lt_of_lt_of_eq t.isLt N64
      exact lt_of_lt_of_eq (by omega : 4 * (t.val / 4) + (y 1).val / 1024 < 64) N64.symm⟩
    (ValueIdx.ix2 (0 : Fin 1) (⟨(y 1).val % 1024, Nat.mod_lt _ (by norm_num)⟩ : Fin 1024))

/-- The buffer `d` holds the bag's logits on the slices written up to point `t`. -/
def BufOk (c : Dev nD) (t : Fin cfg0.N) (d : Vec F S1x4096 .f32) : Prop :=
  ∀ y : S1x4096.Idx, (y 1).val < 1024 * (t.val % 4 + 1) → d y = bagLogits m c t y

/-- The slice a point's store addresses: columns 1024·(t mod 4) onwards. -/
theorem off_eq : ∀ t : Fin cfg0.N, k0_off1 (grid0.coords t) = ![0, 1024 * (t.val % 4)] :=
  (by decide +kernel : ∀ t : Fin grid0.N, k0_off1 (grid0.coords t) = ![0, 1024 * (t.val % 4)])

/-- The store's payload is the tile's logits themselves. -/
theorem pay1_eq (v : FVec F S1x1024 .f32) : k0_pay1 v = v := by
  unfold k0_pay1; exact shapeCast_self v _

/-- Equal points and equal slots give equal logits. -/
theorem logitsAt_congr (c : Dev nD) {t t' : Fin cfg0.N} (ht : t = t') {x x' : S1x1024.Idx} (hx : x = x') :
    logitsAt m c t x = logitsAt m c t' x' := by subst ht; subst hx; rfl

/-- After the store at point `t` the buffer is known one slice further: on the tile's own slice it now holds the
    tile's logits, to the left of it what it held. -/
theorem bufOk_put (c : Dev nD) (t : Fin cfg0.N) (d : Vec F S1x4096 .f32)
    (h : t.val % 4 = 0 ∨ BufOk m c ⟨t.val - 1, Nat.lt_of_le_of_lt (Nat.sub_le _ _) t.isLt⟩ d) :
    BufOk m c t (putTile (grid0.coords t) d (k0_pay1 (logitsAt m c t))) := by
  intro y hy
  have hy1 : (y 1).val < 4096 := (y 1).isLt
  have hy0 : (y 0).val = 0 := by have : (y 0).val < 1 := (y 0).isLt; omega
  have ht : t.val < 64 := lt_of_lt_of_eq t.isLt N64
  have ho0 : k0_off1 (grid0.coords t) (0 : Fin 2) = 0 := congrFun (off_eq t) 0
  have ho1 : k0_off1 (grid0.coords t) (1 : Fin 2) = 1024 * (t.val % 4) := congrFun (off_eq t) 1
  unfold putTile
  by_cases hin : 1024 * (t.val % 4) ≤ (y 1).val
  · have e : y = (Rect.unit (s := S1x4096) (k0_off1 (grid0.coords t)) S1x1024.size (k0_off1_inb (grid0.coords t))).emb
        (ValueIdx.ix2 (0 : Fin 1) (⟨(y 1).val - 1024 * (t.val % 4), by omega⟩ : Fin 1024)) := by
      funext a; apply Fin.ext; rw [Rect.emb_apply]; simp only [Rect.off_unit, Rect.stride_unit, Nat.one_mul]
      match a with
      | ⟨0, _⟩ => show (y 0).val = k0_off1 (grid0.coords t) 0 + 0; omega
      | ⟨1, _⟩ => show (y 1).val = k0_off1 (grid0.coords t) 1 + ((y 1).val - 1024 * (t.val % 4)); omega
    rw [e, Rect.overlay_emb, pay1_eq, ← e]
    unfold bagLogits
    exact logitsAt_congr m c (Fin.ext (by show t.val = 4 * (t.val / 4) + (y 1).val / 1024; omega))
      (funext fun a => Fin.ext (by
        match a with
        | ⟨0, _⟩ => rfl
        | ⟨1, _⟩ => show (y 1).val - 1024 * (t.val % 4) = (y 1).val % 1024; omega))
  · have hnot : y ∉ (Rect.unit (s := S1x4096) (k0_off1 (grid0.coords t)) S1x1024.size (k0_off1_inb (grid0.coords t))).set := by
      rw [Rect.mem_set_unit]; intro hall
      have h1 := (hall 1).1
      omega
    rw [Rect.overlay_of_not_mem _ _ _ hnot]
    rcases h with h0 | hprev
    · exfalso; omega
    · rw [hprev y (by show (y 1).val < 1024 * ((t.val - 1) % 4 + 1); omega)]
      unfold bagLogits
      exact logitsAt_congr m c (Fin.ext (by show 4 * ((t.val - 1) / 4) + (y 1).val / 1024 = 4 * (t.val / 4) + (y 1).val / 1024; omega)) rfl

/-- Known on all four slices, the buffer is the bag's logits. -/
theorem bufOk_full (c : Dev nD) (t : Fin cfg0.N) (h3 : t.val % 4 = 3) (d : Vec F S1x4096 .f32) (h : BufOk m c t d) :
    d = bagLogits m c t :=
  funext fun y => h y (by have : (y 1).val < 4096 := (y 1).isLt; omega)

/-! ## The tracked invariant and the proof data -/

/-- The region's invariant before position `n`: before the first point the class's (every scratch at anything);
    afterwards the three running quantities at what the point before left, the logits buffer at contents known on the
    slices written so far, and the generator register at some state. -/
def PhiS (c : Dev nD) : (n : ℕ) → n ≤ cfg0.N → sProp 𝕄
  | 0, _ => Pipeline.ΦA spec0 c
  | n + 1, hn => iprop(iprop(owns (c : Thread nD τ) sc0 fullShare ((tripAt m c n hn).1) ∗ owns (c : Thread nD τ) sc1 fullShare ((tripAt m c n hn).2.1) ∗ owns (c : Thread nD τ) sc2 fullShare ((tripAt m c n hn).2.2) ∗ (∃ d, ⌜BufOk m c ⟨n, hn⟩ d⌝ ∗ owns (c : Thread nD τ) sc3 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc0 fullShare ((tripAt m c n hn).1) ∗ owns (c : Thread nD τ) sc1 fullShare ((tripAt m c n hn).2.1) ∗ owns (c : Thread nD τ) sc2 fullShare ((tripAt m c n hn).2.2) ∗ (∃ d, ⌜BufOk m c ⟨n, hn⟩ d⌝ ∗ owns (c : Thread nD τ) sc3 fullShare d)) ∗ (∃ r, prngReg c r)) := rfl

theorem PhiS_pos (c : Dev nD) (n : ℕ) (h : n ≤ cfg0.N) (hz : n ≠ 0) :
    PhiS m c n h = iprop(iprop(owns (c : Thread nD τ) sc0 fullShare ((tripAt m c (n - 1) (by omega)).1) ∗ owns (c : Thread nD τ) sc1 fullShare ((tripAt m c (n - 1) (by omega)).2.1) ∗ owns (c : Thread nD τ) sc2 fullShare ((tripAt m c (n - 1) (by omega)).2.2) ∗ (∃ d, ⌜BufOk m c ⟨n - 1, by omega⟩ d⌝ ∗ owns (c : Thread nD τ) sc3 fullShare d)) ∗ (∃ r, prngReg c r)) := by
  cases n with
  | zero => exact absurd rfl hz
  | succ n => rfl

/-- The proof data of the pipeline on core `c`: the arrays as the region finds them; after the body at point `t` each
    input's buffer at its block, the pooled-vector buffer at the triple's weighted sum over its denominator, the
    attention-weights buffer at the bag's softmax numerators over the denominator (both matter at a bag's last tile
    only, where they are written back). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay9 (tripAt m c t.val t.isLt).2.1 (tripAt m c t.val t.isLt).2.2
    | ⟨8, _⟩ => k0_pay10 (tripAt m c t.val t.isLt).2.1 (bagLogits m c t) (tripAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = k0_pay9 (tripAt m c t.val t.isLt).2.1 (tripAt m c t.val t.isLt).2.2 := by dsimp only [dats]
theorem after_8 (c : Dev nD) (t : Fin cfg0.N) : (dats m 0 c).after 8 t = k0_pay10 (tripAt m c t.val t.isLt).2.1 (bagLogits m c t) (tripAt m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

end Cert.Kernel.Hand

end
-- ==== Proof.WordRunFirst.lean ====
/-
  The body of the pooling kernel run at a bag's FIRST tile: the three running quantities are reset, then updated by the tile; the outputs are not touched. The run is symbolic: each input buffer holds a
  given block, the logits buffer given contents; each buffer the body writes ends owned at the value the body computes
  for it from those, as one pure term over the body's named arithmetic.
-/
import proofs.«129396_j54546084659650_2_alg».proof.Proof.WordPut

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- From whole buffers at the given contents the body runs to the continuation holding the inputs as they were and each
    written buffer at its new value. -/
theorem runFirst (c : Dev nD) (i : grid0.Coords) (arg2 : Memref sig .tc .vmem S1x1024x1024 .f32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .bf16) (harg5 : arg5.IsWhole) (arg6 : Memref sig .tc .vmem S1x256 .f32) (harg6 : arg6.IsWhole) (arg7 : Memref sig .tc .vmem S1x256 .bf16) (harg7 : arg7.IsWhole) (arg8 : Memref sig .tc .vmem S1x1 .f32) (harg8 : arg8.IsWhole) (arg9 : Memref sig .tc .vmem S1x1x1024 .f32) (harg9 : arg9.IsWhole) (arg10 : Memref sig .tc .vmem S1x1x4096 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1024 .f32) (harg13 : arg13.IsWhole) (arg14 : Memref sig .tc .vmem S1x4096 .f32) (harg14 : arg14.IsWhole) (hc0 : isFirst i) (hc1 : ¬isLast i)
    (x0 : Vec F S1x1024x1024 .f32) (x1 : Vec F S1024x256 .bf16) (x2 : Vec F S1x256 .f32) (x3 : Vec F S1024x256 .bf16) (x4 : Vec F S1x256 .f32) (x5 : Vec F S1x256 .bf16) (x6 : Vec F S1x1 .f32) (y7 : Vec F S1x1x1024 .f32) (y8 : Vec F S1x1x4096 .f32) (xs3 : Vec F S1x4096 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare (k0_pay5 (k0_pay15 x0 x1 x2 x3 x4 x5 x6) (k0_pay11 (F := F))) ∗ owns (c : Thread nD τ) arg12 fullShare (k0_pay6 (k0_pay15 x0 x1 x2 x3 x4 x5 x6) (k0_pay11 (F := F)) (k0_pay12 (F := F))) ∗ owns (c : Thread nD τ) arg13 fullShare (k0_pay7 (k0_pay14 x0) (k0_pay15 x0 x1 x2 x3 x4 x5 x6) (k0_pay11 (F := F)) (k0_pay13 (F := F))) ∗ owns (c : Thread nD τ) arg14 fullShare (putTile i xs3 (k0_pay1 (k0_pay15 x0 x1 x2 x3 x4 x5 x6)))) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, ⟨%ds2, %fs2, -, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hfs3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HS0]
  · iexists _; isplitr; swap; · iexact HS0
    ipureintro
    sl_unfold_words
    simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1x1024x1024) hz3, View.ld_unit_zero (S := S1024x256) hz2, View.ld_unit_zero (S := S1x256) hz2, View.ld_unit_zero (S := S1x1) hz2, View.ld_unit_zero (S := S1x1024) hz2, View.ld_unit_zero (S := S1x4096) hz2, View.readCov_unit_zero _ (S := S1x1) hz2, View.readCov_unit_zero _ (S := S1x1024) hz2, View.readCov_unit_zero _ (S := S1x4096) hz2]
    rw [View.read_writes_eq_canon _ _ _ (fun y => ⟨_, List.mem_cons.mpr (Or.inl rfl), View.mem_set_unit_zero (S := S1x1) hz2 inb_S1x1_S1x1_0_0 y⟩), View.canon_cons_unit_zero (S := S1x1) hz2]
  isplitl [HS1]
  · iexists _; isplitr; swap; · iexact HS1
    ipureintro
    sl_unfold_words
    simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1x1024x1024) hz3, View.ld_unit_zero (S := S1024x256) hz2, View.ld_unit_zero (S := S1x256) hz2, View.ld_unit_zero (S := S1x1) hz2, View.ld_unit_zero (S := S1x1024) hz2, View.ld_unit_zero (S := S1x4096) hz2, View.readCov_unit_zero _ (S := S1x1) hz2, View.readCov_unit_zero _ (S := S1x1024) hz2, View.readCov_unit_zero _ (S := S1x4096) hz2]
    rw [View.read_writes_eq_canon _ _ _ (fun y => ⟨_, List.mem_cons.mpr (Or.inl rfl), View.mem_set_unit_zero (S := S1x1) hz2 inb_S1x1_S1x1_0_0 y⟩), View.canon_cons_unit_zero (S := S1x1) hz2]
  isplitl [HS2]
  · iexists _; isplitr; swap; · iexact HS2
    ipureintro
    sl_unfold_words
    simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1x1024x1024) hz3, View.ld_unit_zero (S := S1024x256) hz2, View.ld_unit_zero (S := S1x256) hz2, View.ld_unit_zero (S := S1x1) hz2, View.ld_unit_zero (S := S1x1024) hz2, View.ld_unit_zero (S := S1x4096) hz2, View.readCov_unit_zero _ (S := S1x1) hz2, View.readCov_unit_zero _ (S := S1x1024) hz2, View.readCov_unit_zero _ (S := S1x4096) hz2]
    rw [View.read_writes_eq_canon _ _ _ (fun y => ⟨_, List.mem_cons.mpr (Or.inl rfl), View.mem_set_unit_zero (S := S1x1024) hz2 inb_S1x1024_S1x1024_0_0 y⟩), View.canon_cons_unit_zero (S := S1x1024) hz2]
  iexists _; isplitr; swap; · iexact HS3
  ipureintro
  sl_unfold_words
  simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1x1024x1024) hz3, View.ld_unit_zero (S := S1024x256) hz2, View.ld_unit_zero (S := S1x256) hz2, View.ld_unit_zero (S := S1x1) hz2, View.ld_unit_zero (S := S1x1024) hz2, View.ld_unit_zero (S := S1x4096) hz2, View.readCov_unit_zero _ (S := S1x1) hz2, View.readCov_unit_zero _ (S := S1x1024) hz2, View.readCov_unit_zero _ (S := S1x4096) hz2]
  rw [Cert.LibOverlay.read_writes_single, harg14.read_unread]
  rfl

end Cert.Kernel.Hand

end
-- ==== Proof.WordRunMiddle.lean ====
/-
  The body of the pooling kernel run at a tile that is neither a bag's first nor its last: the three running quantities are updated by the tile; the outputs are not touched. The run is symbolic: each input buffer holds a
  given block, the logits buffer given contents; each buffer the body writes ends owned at the value the body computes
  for it from those, as one pure term over the body's named arithmetic.
-/
import proofs.«129396_j54546084659650_2_alg».proof.Proof.WordRunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- From whole buffers at the given contents the body runs to the continuation holding the inputs as they were and each
    written buffer at its new value. -/
theorem runMiddle (c : Dev nD) (i : grid0.Coords) (arg2 : Memref sig .tc .vmem S1x1024x1024 .f32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .bf16) (harg5 : arg5.IsWhole) (arg6 : Memref sig .tc .vmem S1x256 .f32) (harg6 : arg6.IsWhole) (arg7 : Memref sig .tc .vmem S1x256 .bf16) (harg7 : arg7.IsWhole) (arg8 : Memref sig .tc .vmem S1x1 .f32) (harg8 : arg8.IsWhole) (arg9 : Memref sig .tc .vmem S1x1x1024 .f32) (harg9 : arg9.IsWhole) (arg10 : Memref sig .tc .vmem S1x1x4096 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1024 .f32) (harg13 : arg13.IsWhole) (arg14 : Memref sig .tc .vmem S1x4096 .f32) (harg14 : arg14.IsWhole) (hc0 : ¬isFirst i) (hc1 : ¬isLast i)
    (x0 : Vec F S1x1024x1024 .f32) (x1 : Vec F S1024x256 .bf16) (x2 : Vec F S1x256 .f32) (x3 : Vec F S1024x256 .bf16) (x4 : Vec F S1x256 .f32) (x5 : Vec F S1x256 .bf16) (x6 : Vec F S1x1 .f32) (y7 : Vec F S1x1x1024 .f32) (y8 : Vec F S1x1x4096 .f32) (xs0 : Vec F S1x1 .f32) (xs1 : Vec F S1x1 .f32) (xs2 : Vec F S1x1024 .f32) (xs3 : Vec F S1x4096 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare xs0 ∗ owns (c : Thread nD τ) arg12 fullShare xs1 ∗ owns (c : Thread nD τ) arg13 fullShare xs2 ∗ owns (c : Thread nD τ) arg14 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare (k0_pay5 (k0_pay15 x0 x1 x2 x3 x4 x5 x6) xs0) ∗ owns (c : Thread nD τ) arg12 fullShare (k0_pay6 (k0_pay15 x0 x1 x2 x3 x4 x5 x6) xs0 xs1) ∗ owns (c : Thread nD τ) arg13 fullShare (k0_pay7 (k0_pay14 x0) (k0_pay15 x0 x1 x2 x3 x4 x5 x6) xs0 xs2) ∗ owns (c : Thread nD τ) arg14 fullShare (putTile i xs3 (k0_pay1 (k0_pay15 x0 x1 x2 x3 x4 x5 x6)))) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1; obtain rfl := harg13.eq_unread hfs2; obtain rfl := harg14.eq_unread hfs3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HS0]
  · iexists _; isplitr; swap; · iexact HS0
    ipureintro
    sl_unfold_words
    simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1x1024x1024) hz3, View.ld_unit_zero (S := S1024x256) hz2, View.ld_unit_zero (S := S1x256) hz2, View.ld_unit_zero (S := S1x1) hz2, View.ld_unit_zero (S := S1x1024) hz2, View.ld_unit_zero (S := S1x4096) hz2, View.readCov_unit_zero _ (S := S1x1) hz2, View.readCov_unit_zero _ (S := S1x1024) hz2, View.readCov_unit_zero _ (S := S1x4096) hz2]
    rw [View.read_writes_eq_canon _ _ _ (fun y => ⟨_, List.mem_singleton_self _, View.mem_set_unit_zero (S := S1x1) hz2 inb_S1x1_S1x1_0_0 y⟩), View.canon_unit_zero (S := S1x1) hz2]
  isplitl [HS1]
  · iexists _; isplitr; swap; · iexact HS1
    ipureintro
    sl_unfold_words
    simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1x1024x1024) hz3, View.ld_unit_zero (S := S1024x256) hz2, View.ld_unit_zero (S := S1x256) hz2, View.ld_unit_zero (S := S1x1) hz2, View.ld_unit_zero (S := S1x1024) hz2, View.ld_unit_zero (S := S1x4096) hz2, View.readCov_unit_zero _ (S := S1x1) hz2, View.readCov_unit_zero _ (S := S1x1024) hz2, View.readCov_unit_zero _ (S := S1x4096) hz2]
    rw [View.read_writes_eq_canon _ _ _ (fun y => ⟨_, List.mem_singleton_self _, View.mem_set_unit_zero (S := S1x1) hz2 inb_S1x1_S1x1_0_0 y⟩), View.canon_unit_zero (S := S1x1) hz2]
  isplitl [HS2]
  · iexists _; isplitr; swap; · iexact HS2
    ipureintro
    sl_unfold_words
    simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1x1024x1024) hz3, View.ld_unit_zero (S := S1024x256) hz2, View.ld_unit_zero (S := S1x256) hz2, View.ld_unit_zero (S := S1x1) hz2, View.ld_unit_zero (S := S1x1024) hz2, View.ld_unit_zero (S := S1x4096) hz2, View.readCov_unit_zero _ (S := S1x1) hz2, View.readCov_unit_zero _ (S := S1x1024) hz2, View.readCov_unit_zero _ (S := S1x4096) hz2]
    rw [View.read_writes_eq_canon _ _ _ (fun y => ⟨_, List.mem_singleton_self _, View.mem_set_unit_zero (S := S1x1024) hz2 inb_S1x1024_S1x1024_0_0 y⟩), View.canon_unit_zero (S := S1x1024) hz2]
  iexists _; isplitr; swap; · iexact HS3
  ipureintro
  sl_unfold_words
  simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1x1024x1024) hz3, View.ld_unit_zero (S := S1024x256) hz2, View.ld_unit_zero (S := S1x256) hz2, View.ld_unit_zero (S := S1x1) hz2, View.ld_unit_zero (S := S1x1024) hz2, View.ld_unit_zero (S := S1x4096) hz2, View.readCov_unit_zero _ (S := S1x1) hz2, View.readCov_unit_zero _ (S := S1x1024) hz2, View.readCov_unit_zero _ (S := S1x4096) hz2]
  rw [Cert.LibOverlay.read_writes_single, harg14.read_unread]
  rfl

end Cert.Kernel.Hand

end
-- ==== Proof.WordRunLast.lean ====
/-
  The body of the pooling kernel run at a bag's LAST tile: the three running quantities are updated by the tile, then the pooled vector and the attention weights are stored into the two output buffers. The run is symbolic: each input buffer holds a
  given block, the logits buffer given contents; each buffer the body writes ends owned at the value the body computes
  for it from those, as one pure term over the body's named arithmetic.
-/
import proofs.«129396_j54546084659650_2_alg».proof.Proof.WordRunMiddle

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- From whole buffers at the given contents the body runs to the continuation holding the inputs as they were and each
    written buffer at its new value. -/
theorem runLast (c : Dev nD) (i : grid0.Coords) (arg2 : Memref sig .tc .vmem S1x1024x1024 .f32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .bf16) (harg5 : arg5.IsWhole) (arg6 : Memref sig .tc .vmem S1x256 .f32) (harg6 : arg6.IsWhole) (arg7 : Memref sig .tc .vmem S1x256 .bf16) (harg7 : arg7.IsWhole) (arg8 : Memref sig .tc .vmem S1x1 .f32) (harg8 : arg8.IsWhole) (arg9 : Memref sig .tc .vmem S1x1x1024 .f32) (harg9 : arg9.IsWhole) (arg10 : Memref sig .tc .vmem S1x1x4096 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1024 .f32) (harg13 : arg13.IsWhole) (arg14 : Memref sig .tc .vmem S1x4096 .f32) (harg14 : arg14.IsWhole) (hc0 : ¬isFirst i) (hc1 : isLast i)
    (x0 : Vec F S1x1024x1024 .f32) (x1 : Vec F S1024x256 .bf16) (x2 : Vec F S1x256 .f32) (x3 : Vec F S1024x256 .bf16) (x4 : Vec F S1x256 .f32) (x5 : Vec F S1x256 .bf16) (x6 : Vec F S1x1 .f32) (xs0 : Vec F S1x1 .f32) (xs1 : Vec F S1x1 .f32) (xs2 : Vec F S1x1024 .f32) (xs3 : Vec F S1x4096 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ owns (c : Thread nD τ) arg13 fullShare xs2 ∗ owns (c : Thread nD τ) arg14 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay9 (k0_pay6 (k0_pay15 x0 x1 x2 x3 x4 x5 x6) xs0 xs1) (k0_pay7 (k0_pay14 x0) (k0_pay15 x0 x1 x2 x3 x4 x5 x6) xs0 xs2)) ∗ owns (c : Thread nD τ) arg10 fullShare (k0_pay10 (k0_pay6 (k0_pay15 x0 x1 x2 x3 x4 x5 x6) xs0 xs1) (putTile i xs3 (k0_pay1 (k0_pay15 x0 x1 x2 x3 x4 x5 x6))) (k0_pay5 (k0_pay15 x0 x1 x2 x3 x4 x5 x6) xs0)) ∗ owns (c : Thread nD τ) arg11 fullShare (k0_pay5 (k0_pay15 x0 x1 x2 x3 x4 x5 x6) xs0) ∗ owns (c : Thread nD τ) arg12 fullShare (k0_pay6 (k0_pay15 x0 x1 x2 x3 x4 x5 x6) xs0 xs1) ∗ owns (c : Thread nD τ) arg13 fullShare (k0_pay7 (k0_pay14 x0) (k0_pay15 x0 x1 x2 x3 x4 x5 x6) xs0 xs2) ∗ owns (c : Thread nD τ) arg14 fullShare (putTile i xs3 (k0_pay1 (k0_pay15 x0 x1 x2 x3 x4 x5 x6)))) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0; obtain rfl := harg12.eq_unread hfs1; obtain rfl := harg13.eq_unread hfs2; obtain rfl := harg14.eq_unread hfs3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    sl_unfold_words
    simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1x1024x1024) hz3, View.ld_unit_zero (S := S1024x256) hz2, View.ld_unit_zero (S := S1x256) hz2, View.ld_unit_zero (S := S1x1) hz2, View.ld_unit_zero (S := S1x1024) hz2, View.ld_unit_zero (S := S1x4096) hz2, View.readCov_unit_zero _ (S := S1x1) hz2, View.readCov_unit_zero _ (S := S1x1024) hz2, View.readCov_unit_zero _ (S := S1x4096) hz2, Cert.LibOverlay.read_writes_single, Cert.LibOverlay.overlay_unit_zero (S := S1x1x1024) hz3, Cert.LibOverlay.overlay_unit_zero (S := S1x1x4096) hz3]
    all_goals rfl
  isplitl [H8]
  · iexists _; isplitr; swap; · iexact H8
    ipureintro
    sl_unfold_words
    simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1x1024x1024) hz3, View.ld_unit_zero (S := S1024x256) hz2, View.ld_unit_zero (S := S1x256) hz2, View.ld_unit_zero (S := S1x1) hz2, View.ld_unit_zero (S := S1x1024) hz2, View.ld_unit_zero (S := S1x4096) hz2, View.readCov_unit_zero _ (S := S1x1) hz2, View.readCov_unit_zero _ (S := S1x1024) hz2, View.readCov_unit_zero _ (S := S1x4096) hz2, Cert.LibOverlay.read_writes_single, Cert.LibOverlay.overlay_unit_zero (S := S1x1x1024) hz3, Cert.LibOverlay.overlay_unit_zero (S := S1x1x4096) hz3]
    all_goals rfl
  isplitl [HS0]
  · iexists _; isplitr; swap; · iexact HS0
    ipureintro
    sl_unfold_words
    simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1x1024x1024) hz3, View.ld_unit_zero (S := S1024x256) hz2, View.ld_unit_zero (S := S1x256) hz2, View.ld_unit_zero (S := S1x1) hz2, View.ld_unit_zero (S := S1x1024) hz2, View.ld_unit_zero (S := S1x4096) hz2, View.readCov_unit_zero _ (S := S1x1) hz2, View.readCov_unit_zero _ (S := S1x1024) hz2, View.readCov_unit_zero _ (S := S1x4096) hz2]
    rw [View.read_writes_eq_canon _ _ _ (fun y => ⟨_, List.mem_singleton_self _, View.mem_set_unit_zero (S := S1x1) hz2 inb_S1x1_S1x1_0_0 y⟩), View.canon_unit_zero (S := S1x1) hz2]
  isplitl [HS1]
  · iexists _; isplitr; swap; · iexact HS1
    ipureintro
    sl_unfold_words
    simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1x1024x1024) hz3, View.ld_unit_zero (S := S1024x256) hz2, View.ld_unit_zero (S := S1x256) hz2, View.ld_unit_zero (S := S1x1) hz2, View.ld_unit_zero (S := S1x1024) hz2, View.ld_unit_zero (S := S1x4096) hz2, View.readCov_unit_zero _ (S := S1x1) hz2, View.readCov_unit_zero _ (S := S1x1024) hz2, View.readCov_unit_zero _ (S := S1x4096) hz2]
    rw [View.read_writes_eq_canon _ _ _ (fun y => ⟨_, List.mem_singleton_self _, View.mem_set_unit_zero (S := S1x1) hz2 inb_S1x1_S1x1_0_0 y⟩), View.canon_unit_zero (S := S1x1) hz2]
  isplitl [HS2]
  · iexists _; isplitr; swap; · iexact HS2
    ipureintro
    sl_unfold_words
    simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1x1024x1024) hz3, View.ld_unit_zero (S := S1024x256) hz2, View.ld_unit_zero (S := S1x256) hz2, View.ld_unit_zero (S := S1x1) hz2, View.ld_unit_zero (S := S1x1024) hz2, View.ld_unit_zero (S := S1x4096) hz2, View.readCov_unit_zero _ (S := S1x1) hz2, View.readCov_unit_zero _ (S := S1x1024) hz2, View.readCov_unit_zero _ (S := S1x4096) hz2]
    rw [View.read_writes_eq_canon _ _ _ (fun y => ⟨_, List.mem_singleton_self _, View.mem_set_unit_zero (S := S1x1024) hz2 inb_S1x1024_S1x1024_0_0 y⟩), View.canon_unit_zero (S := S1x1024) hz2]
  iexists _; isplitr; swap; · iexact HS3
  ipureintro
  sl_unfold_words
  simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1x1024x1024) hz3, View.ld_unit_zero (S := S1024x256) hz2, View.ld_unit_zero (S := S1x256) hz2, View.ld_unit_zero (S := S1x1) hz2, View.ld_unit_zero (S := S1x1024) hz2, View.ld_unit_zero (S := S1x4096) hz2, View.readCov_unit_zero _ (S := S1x1) hz2, View.readCov_unit_zero _ (S := S1x1024) hz2, View.readCov_unit_zero _ (S := S1x4096) hz2]
  rw [Cert.LibOverlay.read_writes_single, harg14.read_unread]
  rfl

end Cert.Kernel.Hand

end
-- ==== Proof.WordBody.lean ====
/-
  The pooling kernel's body meets the pipeline's obligation at every point, with the running triple and the logits
  buffer tracked from point to point; hence every weakly fair execution of the program terminates without a fault,
  with each array the pipeline stages at the contents the write-backs of the proof data leave there.
-/
import proofs.«129396_j54546084659650_2_alg».proof.Proof.WordState
import proofs.«129396_j54546084659650_2_alg».proof.Proof.WordRunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 16000000 in
/-- The body at any point, by the point's case: the inputs' buffers hold their blocks; the invariant hands the body the
    running triple at what the point before left (at anything at the very first point) and the logits buffer at
    contents known on the slices written so far, and takes them back updated; the outputs are handed back as found off
    a bag's last tile, and at the bag's pooled vector and attention weights at it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt N64
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  rw [show (dats m 0 c).leavesExact 2 t = owns (c : Thread nD τ) (ms2 t) fullShare ((dats m 0 c).after 2 t) from by
    unfold Dat.leavesExact; rw [live_2 t], after_2]
  rw [show (dats m 0 c).leavesExact 3 t = owns (c : Thread nD τ) (ms3 t) fullShare ((dats m 0 c).after 3 t) from by
    unfold Dat.leavesExact; rw [live_3 t], after_3]
  rw [show (dats m 0 c).leavesExact 4 t = owns (c : Thread nD τ) (ms4 t) fullShare ((dats m 0 c).after 4 t) from by
    unfold Dat.leavesExact; rw [live_4 t], after_4]
  rw [show (dats m 0 c).leavesExact 5 t = owns (c : Thread nD τ) (ms5 t) fullShare ((dats m 0 c).after 5 t) from by
    unfold Dat.leavesExact; rw [live_5 t], after_5]
  rw [show (dats m 0 c).leavesExact 6 t = owns (c : Thread nD τ) (ms6 t) fullShare ((dats m 0 c).after 6 t) from by
    unfold Dat.leavesExact; rw [live_6 t], after_6]
  by_cases h0 : t.val % 4 = 0
  · have h3 : ¬ t.val % 4 = 3 := by omega
    ·
      rw [(dats m 0 c).leavesExact_idle 7 t (by rw [idle_7 t]; simp [h3]) (Bool.eq_false_iff.mpr fun h => h3 ((flush0_7 t).mp h))]
      rw [(dats m 0 c).leavesExact_idle 8 t (by rw [idle_8 t]; simp [h3]) (Bool.eq_false_iff.mpr fun h => h3 ((flush0_8 t).mp h))]
      rw [tripAt_first m c t h0]; dsimp only; unfold logitsAt featAt
      by_cases hz : t.val = 0
      · rw [PhiS_castSucc m c t, PhiS_zero m c _ _ hz, PhiA_eq]
        iintro ⟨⟨⟨HS0, HS1, HS2, ⟨%d3, HS3⟩⟩, Hg⟩, Ho, ⟨%d0, H0⟩, ⟨%d1, H1⟩, ⟨%d2, H2⟩, ⟨%d3', H3⟩, ⟨%d4, H4⟩, ⟨%d5, H5⟩, ⟨%d6, H6⟩, ⟨%d7, H7⟩, ⟨%d8, H8⟩⟩
        iapply (runFirst c (grid0.coords t) _ _ _ _ _ _ _ _ _ _ _ _ _ _ _ _ _ _ _ _ _ _ _ _ _ _ ((isFirst_iff t).mpr h0) (fun h => h3 ((isLast_iff t).mp h)) (iblk m c 0 t) (iblk m c 1 t) (iblk m c 2 t) (iblk m c 3 t) (iblk m c 4 t) (iblk m c 5 t) (iblk m c 6 t) ((dats m 0 c).before 7 t d7) ((dats m 0 c).before 8 t d8) d3 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        isplitl [HS2]; · iexact HS2
        isplitl [HS3]; · iexact HS3
        iintro ⟨H0, H1, H2, H3, H4, H5, H6, H7, H8, HS0, HS1, HS2, HS3⟩
        isplitl [HS0 HS1 HS2 HS3 Hg]
        · isplitl [HS0 HS1 HS2 HS3]
          · isplitl [HS0]; · iexact HS0
            isplitl [HS1]; · iexact HS1
            isplitl [HS2]; · iexact HS2
            iexists _; isplitr; · ipureintro; exact bufOk_put m c t d3 (Or.inl h0)
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists d7; iexact H7
        iexists d8; iexact H8
      · rw [PhiS_castSucc m c t, PhiS_pos m c _ _ hz]
        iintro ⟨⟨⟨HS0, HS1, HS2, ⟨%d3, %hd3, HS3⟩⟩, Hg⟩, Ho, ⟨%d0, H0⟩, ⟨%d1, H1⟩, ⟨%d2, H2⟩, ⟨%d3', H3⟩, ⟨%d4, H4⟩, ⟨%d5, H5⟩, ⟨%d6, H6⟩, ⟨%d7, H7⟩, ⟨%d8, H8⟩⟩
        iapply (runFirst c (grid0.coords t) _ _ _ _ _ _ _ _ _ _ _ _ _ _ _ _ _ _ _ _ _ _ _ _ _ _ ((isFirst_iff t).mpr h0) (fun h => h3 ((isLast_iff t).mp h)) (iblk m c 0 t) (iblk m c 1 t) (iblk m c 2 t) (iblk m c 3 t) (iblk m c 4 t) (iblk m c 5 t) (iblk m c 6 t) ((dats m 0 c).before 7 t d7) ((dats m 0 c).before 8 t d8) d3 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        isplitl [HS1]; · iexists _; iexact HS1
        isplitl [HS2]; · iexists _; iexact HS2
        isplitl [HS3]; · iexact HS3
        iintro ⟨H0, H1, H2, H3, H4, H5, H6, H7, H8, HS0, HS1, HS2, HS3⟩
        isplitl [HS0 HS1 HS2 HS3 Hg]
        · isplitl [HS0 HS1 HS2 HS3]
          · isplitl [HS0]; · iexact HS0
            isplitl [HS1]; · iexact HS1
            isplitl [HS2]; · iexact HS2
            iexists _; isplitr; · ipureintro; exact bufOk_put m c t d3 (Or.inl h0)
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists d7; iexact H7
        iexists d8; iexact H8
  · by_cases h3 : t.val % 4 = 3
    ·
      rw [show (dats m 0 c).leavesExact 7 t = owns (c : Thread nD τ) (ms7 t) fullShare ((dats m 0 c).after 7 t) from by
        unfold Dat.leavesExact; rw [show cfg0.idle 7 (grid0.coords t) = false from by rw [idle_7 t]; simp [h3]], after_7]
      rw [show (dats m 0 c).leavesExact 8 t = owns (c : Thread nD τ) (ms8 t) fullShare ((dats m 0 c).after 8 t) from by
        unfold Dat.leavesExact; rw [show cfg0.idle 8 (grid0.coords t) = false from by rw [idle_8 t]; simp [h3]], after_8]
      rw [tripAt_next m c t h0]; dsimp only
      have hz : t.val ≠ 0 := fun hz => h0 (by rw [hz])
      · rw [PhiS_castSucc m c t, PhiS_pos m c _ _ hz]
        iintro ⟨⟨⟨HS0, HS1, HS2, ⟨%d3, %hd3, HS3⟩⟩, Hg⟩, Ho, ⟨%d0, H0⟩, ⟨%d1, H1⟩, ⟨%d2, H2⟩, ⟨%d3', H3⟩, ⟨%d4, H4⟩, ⟨%d5, H5⟩, ⟨%d6, H6⟩, ⟨%d7, H7⟩, ⟨%d8, H8⟩⟩
        have hb : putTile (grid0.coords t) d3 (k0_pay1 (logitsAt m c t)) = bagLogits m c t :=
          bufOk_full m c t h3 _ (bufOk_put m c t d3 (Or.inr hd3))
        rw [← hb]; unfold logitsAt featAt
        iapply (runLast c (grid0.coords t) _ _ _ _ _ _ _ _ _ _ _ _ _ _ _ _ _ _ _ _ _ _ _ _ _ _ (fun h => h0 ((isFirst_iff t).mp h)) ((isLast_iff t).mpr h3) (iblk m c 0 t) (iblk m c 1 t) (iblk m c 2 t) (iblk m c 3 t) (iblk m c 4 t) (iblk m c 5 t) (iblk m c 6 t) _ _ _ d3 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        isplitl [HS1]; · iexact HS1
        isplitl [HS2]; · iexact HS2
        isplitl [HS3]; · iexact HS3
        iintro ⟨H0, H1, H2, H3, H4, H5, H6, H7, H8, HS0, HS1, HS2, HS3⟩
        isplitl [HS0 HS1 HS2 HS3 Hg]
        · isplitl [HS0 HS1 HS2 HS3]
          · isplitl [HS0]; · iexact HS0
            isplitl [HS1]; · iexact HS1
            isplitl [HS2]; · iexact HS2
            iexists _; isplitr; · ipureintro; exact bufOk_put m c t d3 (Or.inr hd3)
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
    ·
      rw [(dats m 0 c).leavesExact_idle 7 t (by rw [idle_7 t]; simp [h3]) (Bool.eq_false_iff.mpr fun h => h3 ((flush0_7 t).mp h))]
      rw [(dats m 0 c).leavesExact_idle 8 t (by rw [idle_8 t]; simp [h3]) (Bool.eq_false_iff.mpr fun h => h3 ((flush0_8 t).mp h))]
      rw [tripAt_next m c t h0]; dsimp only; unfold logitsAt featAt
      have hz : t.val ≠ 0 := fun hz => h0 (by rw [hz])
      · rw [PhiS_castSucc m c t, PhiS_pos m c _ _ hz]
        iintro ⟨⟨⟨HS0, HS1, HS2, ⟨%d3, %hd3, HS3⟩⟩, Hg⟩, Ho, ⟨%d0, H0⟩, ⟨%d1, H1⟩, ⟨%d2, H2⟩, ⟨%d3', H3⟩, ⟨%d4, H4⟩, ⟨%d5, H5⟩, ⟨%d6, H6⟩, ⟨%d7, H7⟩, ⟨%d8, H8⟩⟩
        iapply (runMiddle c (grid0.coords t) _ _ _ _ _ _ _ _ _ _ _ _ _ _ _ _ _ _ _ _ _ _ _ _ _ _ (fun h => h0 ((isFirst_iff t).mp h)) (fun h => h3 ((isLast_iff t).mp h)) (iblk m c 0 t) (iblk m c 1 t) (iblk m c 2 t) (iblk m c 3 t) (iblk m c 4 t) (iblk m c 5 t) (iblk m c 6 t) ((dats m 0 c).before 7 t d7) ((dats m 0 c).before 8 t d8) _ _ _ d3 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        isplitl [HS2]; · iexact HS2
        isplitl [HS3]; · iexact HS3
        iintro ⟨H0, H1, H2, H3, H4, H5, H6, H7, H8, HS0, HS1, HS2, HS3⟩
        isplitl [HS0 HS1 HS2 HS3 Hg]
        · isplitl [HS0 HS1 HS2 HS3]
          · isplitl [HS0]; · iexact HS0
            isplitl [HS1]; · iexact HS1
            isplitl [HS2]; · iexact HS2
            iexists _; isplitr; · ipureintro; exact bufOk_put m c t d3 (Or.inr hd3)
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists d7; iexact H7
        iexists d8; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: what the scratch buffers hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2, ⟨%d3, %hd3, HS3⟩⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 64 := N64; omega)

set_option backward.isDefEq.respectTransparency.types false in
/-- Every weakly fair execution of @main terminates, and every final state has each staged array at what the proof
    data's write-backs leave and every other unscoped buffer at what the host operations after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c w => (dats m 0 c).share_full (fun _ => rfl) w)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Hand

end
-- ==== Proof.IdealCases.lean ====
/-
  The grid of the pooling kernel is 16 bags × 4 tiles; point t is tile t mod 4 of bag t / 4. The body resets its running
  maximum, denominator and weighted sum at a bag's first tile and emits the bag's outputs at its last. This module states
  those two branch conditions in closed form over the points, where the two output windows are idle (everywhere but a
  bag's last tile), names the staging and scratch buffers the body is called with, and opens the region's invariant at
  the four scratch buffers.
-/
import proofs.«129396_j54546084659650_2_alg».proof.Proof.Gen.KernelIdeal.Frame
import proofs.«129396_j54546084659650_2_alg».proof.Proof.Gen.KernelIdeal.Skeleton
import proofs.«129396_j54546084659650_2_alg».proof.Proof.Gen.KernelIdeal.Launch
import proofs.«129396_j54546084659650_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- The body's first branch: this is a bag's first tile. -/
abbrev isFirst (i : grid0.Coords) : Prop := (Scalar.cmpi .ne (Scalar.extui (Scalar.cmpi .eq (BitVec.ofNat 32 (i 1).val) 0#32)) 0#32) = 1#1
/-- It holds exactly at the points ≡ 0 (mod 4). -/
theorem isFirst_iff : ∀ t : Fin cfg0.N, isFirst (grid0.coords t) ↔ t.val % 4 = 0 :=
  (by decide +kernel : ∀ t : Fin grid0.N, isFirst (grid0.coords t) ↔ t.val % 4 = 0)

/-- The body's second branch: this is a bag's last tile. -/
abbrev isLast (i : grid0.Coords) : Prop := k0_cond2 i = 1#1
/-- It holds exactly at the points ≡ 3 (mod 4). -/
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
/-- The two output windows are idle exactly off a bag's last tile. -/
theorem idle_7 : ∀ t : Fin cfg0.N, cfg0.idle 7 (grid0.coords t) = !decide (t.val % 4 = 3) := by decide +kernel
theorem idle_8 : ∀ t : Fin cfg0.N, cfg0.idle 8 (grid0.coords t) = !decide (t.val % 4 = 3) := by decide +kernel

/-! ## The buffers the body is called with -/

abbrev ms0 (t : Fin cfg0.N) : Memref sig .tc .vmem S1x1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1x4096 .f32 := win0_8.stage (cfg0.slots t 8)
abbrev hs8 (t : Fin cfg0.N) : (ms8 t).IsWhole := hstage0_8 ((cfg0.slots t 8).cast nbuf0_8)
/-- The running maximum, the running denominator, the running weighted sum and the bag's logits: scratch buffers of the
    kernel's own. -/
abbrev sc0 : Memref sig .tc .vmem S1x1 .f32 := Memref.whole cc0_scratch0
abbrev sc1 : Memref sig .tc .vmem S1x1 .f32 := Memref.whole cc0_scratch1
abbrev sc2 : Memref sig .tc .vmem S1x1024 .f32 := Memref.whole cc0_scratch2
abbrev sc3 : Memref sig .tc .vmem S1x4096 .f32 := Memref.whole cc0_scratch3

/-- The region's invariant with the four scratch buffers owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

end Cert.KernelIdeal.Hand

end
-- ==== Proof.IdealPut.lean ====
/-
  A tile's store into the logits buffer, as a function of what the buffer held: the 1024 new logits laid over columns
  1024·k … 1024·k + 1023 (k the point's tile), everything else unchanged.
-/
import proofs.«129396_j54546084659650_2_alg».proof.Proof.IdealCases
import proofs.«129396_j54546084659650_2_alg».proof.Proof.LibOverlay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The logits buffer `buf` with the tile's 1024 logits `w` written at the tile's slice. -/
def putTile (i : grid0.Coords) (buf : Vec F S1x4096 .f32) (w : FVec F S1x1024 .f32) : Vec F S1x4096 .f32 :=
  (Rect.unit (s := S1x4096) (k0_off1 i) S1x1024.size (k0_off1_inb i)).overlay buf w

theorem hz2 : (![0, 0] : Fin 2 → Nat) = fun _ => 0 := by funext a; fin_cases a <;> rfl
theorem hz3 : (![0, 0, 0] : Fin 3 → Nat) = fun _ => 0 := by funext a; fin_cases a <;> rfl

end Cert.KernelIdeal.Hand

end
-- ==== Proof.IdealState.lean ====
/-
  The pooling kernel point by point. Point t is tile t mod 4 of bag t / 4. After each point the running maximum,
  denominator and weighted sum hold the body's update of what the point before left (of the reset values at a bag's first
  tile) by the tile's logits and features. The logits buffer is known only on the slices the current bag has written so
  far: there it holds those tiles' logits, so after a bag's last tile it holds the bag's 4096 logits side by side. The
  two outputs of a bag are the body's final expressions of the running triple and of those logits.
-/
import proofs.«129396_j54546084659650_2_alg».proof.Proof.IdealPut
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N64 : cfg0.N = 64 := N_0

/-- The logits of the tile visited at point `t`, from the point's input blocks. -/
def logitsAt (c : Dev nD) (t : Fin cfg0.N) : FVec F S1x1024 .f32 :=
  k0_pay15 (iblk m c 0 t) (iblk m c 1 t) (iblk m c 2 t) (iblk m c 3 t) (iblk m c 4 t) (iblk m c 5 t) (iblk m c 6 t)

/-- The features of the tile visited at point `t`, as a 1024 × 1024 matrix. -/
def featAt (c : Dev nD) (t : Fin cfg0.N) : FVec F S1024x1024 .f32 := k0_pay14 (iblk m c 0 t)

/-! ## The running triple -/

/-- The running maximum, denominator and weighted sum after the body at position `n`. -/
def tripAt (c : Dev nD) : (n : ℕ) → n < cfg0.N → Vec F S1x1 .f32 × Vec F S1x1 .f32 × Vec F S1x1024 .f32
  | 0, hn =>
    (k0_pay5 (logitsAt m c ⟨0, hn⟩) (k0_pay11 (F := F)),
     k0_pay6 (logitsAt m c ⟨0, hn⟩) (k0_pay11 (F := F)) (k0_pay12 (F := F)),
     k0_pay7 (featAt m c ⟨0, hn⟩) (logitsAt m c ⟨0, hn⟩) (k0_pay11 (F := F)) (k0_pay13 (F := F)))
  | n + 1, hn =>
    if (n + 1) % 4 = 0 then
      (k0_pay5 (logitsAt m c ⟨n + 1, hn⟩) (k0_pay11 (F := F)),
       k0_pay6 (logitsAt m c ⟨n + 1, hn⟩) (k0_pay11 (F := F)) (k0_pay12 (F := F)),
       k0_pay7 (featAt m c ⟨n + 1, hn⟩) (logitsAt m c ⟨n + 1, hn⟩) (k0_pay11 (F := F)) (k0_pay13 (F := F)))
    else
      (k0_pay5 (logitsAt m c ⟨n + 1, hn⟩) (tripAt c n (Nat.lt_of_succ_lt hn)).1,
       k0_pay6 (logitsAt m c ⟨n + 1, hn⟩) (tripAt c n (Nat.lt_of_succ_lt hn)).1 (tripAt c n (Nat.lt_of_succ_lt hn)).2.1,
       k0_pay7 (featAt m c ⟨n + 1, hn⟩) (logitsAt m c ⟨n + 1, hn⟩) (tripAt c n (Nat.lt_of_succ_lt hn)).1 (tripAt c n (Nat.lt_of_succ_lt hn)).2.2)

/-- At a bag's first tile the triple is the update of the reset values. -/
theorem tripAt_first (c : Dev nD) (t : Fin cfg0.N) (h : t.val % 4 = 0) :
    tripAt m c t.val t.isLt =
      (k0_pay5 (logitsAt m c t) (k0_pay11 (F := F)),
       k0_pay6 (logitsAt m c t) (k0_pay11 (F := F)) (k0_pay12 (F := F)),
       k0_pay7 (featAt m c t) (logitsAt m c t) (k0_pay11 (F := F)) (k0_pay13 (F := F))) := by
  obtain ⟨n, hn⟩ := t
  cases n with
  | zero => rfl
  | succ n => exact (if_pos h)

/-- At any other tile it is the update of what the point before left. -/
theorem tripAt_next (c : Dev nD) (t : Fin cfg0.N) (h : ¬ t.val % 4 = 0) :
    tripAt m c t.val t.isLt =
      (k0_pay5 (logitsAt m c t) (tripAt m c (t.val - 1) (Nat.lt_of_le_of_lt (Nat.sub_le _ _) t.isLt)).1,
       k0_pay6 (logitsAt m c t) (tripAt m c (t.val - 1) (Nat.lt_of_le_of_lt (Nat.sub_le _ _) t.isLt)).1 (tripAt m c (t.val - 1) (Nat.lt_of_le_of_lt (Nat.sub_le _ _) t.isLt)).2.1,
       k0_pay7 (featAt m c t) (logitsAt m c t) (tripAt m c (t.val - 1) (Nat.lt_of_le_of_lt (Nat.sub_le _ _) t.isLt)).1 (tripAt m c (t.val - 1) (Nat.lt_of_le_of_lt (Nat.sub_le _ _) t.isLt)).2.2) := by
  obtain ⟨n, hn⟩ := t
  cases n with
  | zero => exact absurd (Nat.zero_mod _) h
  | succ n => exact (if_neg h)

/-! ## The logits buffer -/

/-- The 4096 logits of the bag point `t` belongs to, tile after tile. -/
def bagLogits (c : Dev nD) (t : Fin cfg0.N) : Vec F S1x4096 .f32 := fun y =>
  logitsAt m c ⟨4 * (t.val / 4) + (y 1).val / 1024, by
      have h1 : (y 1).val < 4096 := (y 1).isLt
      have h2 : t.val < 64 := lt_of_lt_of_eq t.isLt N64
      exact lt_of_lt_of_eq (by omega : 4 * (t.val / 4) + (y 1).val / 1024 < 64) N64.symm⟩
    (ValueIdx.ix2 (0 : Fin 1) (⟨(y 1).val % 1024, Nat.mod_lt _ (by norm_num)⟩ : Fin 1024))

/-- The buffer `d` holds the bag's logits on the slices written up to point `t`. -/
def BufOk (c : Dev nD) (t : Fin cfg0.N) (d : Vec F S1x4096 .f32) : Prop :=
  ∀ y : S1x4096.Idx, (y 1).val < 1024 * (t.val % 4 + 1) → d y = bagLogits m c t y

/-- The slice a point's store addresses: columns 1024·(t mod 4) onwards. -/
theorem off_eq : ∀ t : Fin cfg0.N, k0_off1 (grid0.coords t) = ![0, 1024 * (t.val % 4)] :=
  (by decide +kernel : ∀ t : Fin grid0.N, k0_off1 (grid0.coords t) = ![0, 1024 * (t.val % 4)])

/-- The store's payload is the tile's logits themselves. -/
theorem pay1_eq (v : FVec F S1x1024 .f32) : k0_pay1 v = v := by
  unfold k0_pay1; exact shapeCast_self v _

/-- Equal points and equal slots give equal logits. -/
theorem logitsAt_congr (c : Dev nD) {t t' : Fin cfg0.N} (ht : t = t') {x x' : S1x1024.Idx} (hx : x = x') :
    logitsAt m c t x = logitsAt m c t' x' := by subst ht; subst hx; rfl

/-- After the store at point `t` the buffer is known one slice further: on the tile's own slice it now holds the
    tile's logits, to the left of it what it held. -/
theorem bufOk_put (c : Dev nD) (t : Fin cfg0.N) (d : Vec F S1x4096 .f32)
    (h : t.val % 4 = 0 ∨ BufOk m c ⟨t.val - 1, Nat.lt_of_le_of_lt (Nat.sub_le _ _) t.isLt⟩ d) :
    BufOk m c t (putTile (grid0.coords t) d (k0_pay1 (logitsAt m c t))) := by
  intro y hy
  have hy1 : (y 1).val < 4096 := (y 1).isLt
  have hy0 : (y 0).val = 0 := by have : (y 0).val < 1 := (y 0).isLt; omega
  have ht : t.val < 64 := lt_of_lt_of_eq t.isLt N64
  have ho0 : k0_off1 (grid0.coords t) (0 : Fin 2) = 0 := congrFun (off_eq t) 0
  have ho1 : k0_off1 (grid0.coords t) (1 : Fin 2) = 1024 * (t.val % 4) := congrFun (off_eq t) 1
  unfold putTile
  by_cases hin : 1024 * (t.val % 4) ≤ (y 1).val
  · have e : y = (Rect.unit (s := S1x4096) (k0_off1 (grid0.coords t)) S1x1024.size (k0_off1_inb (grid0.coords t))).emb
        (ValueIdx.ix2 (0 : Fin 1) (⟨(y 1).val - 1024 * (t.val % 4), by omega⟩ : Fin 1024)) := by
      funext a; apply Fin.ext; rw [Rect.emb_apply]; simp only [Rect.off_unit, Rect.stride_unit, Nat.one_mul]
      match a with
      | ⟨0, _⟩ => show (y 0).val = k0_off1 (grid0.coords t) 0 + 0; omega
      | ⟨1, _⟩ => show (y 1).val = k0_off1 (grid0.coords t) 1 + ((y 1).val - 1024 * (t.val % 4)); omega
    rw [e, Rect.overlay_emb, pay1_eq, ← e]
    unfold bagLogits
    exact logitsAt_congr m c (Fin.ext (by show t.val = 4 * (t.val / 4) + (y 1).val / 1024; omega))
      (funext fun a => Fin.ext (by
        match a with
        | ⟨0, _⟩ => rfl
        | ⟨1, _⟩ => show (y 1).val - 1024 * (t.val % 4) = (y 1).val % 1024; omega))
  · have hnot : y ∉ (Rect.unit (s := S1x4096) (k0_off1 (grid0.coords t)) S1x1024.size (k0_off1_inb (grid0.coords t))).set := by
      rw [Rect.mem_set_unit]; intro hall
      have h1 := (hall 1).1
      omega
    rw [Rect.overlay_of_not_mem _ _ _ hnot]
    rcases h with h0 | hprev
    · exfalso; omega
    · rw [hprev y (by show (y 1).val < 1024 * ((t.val - 1) % 4 + 1); omega)]
      unfold bagLogits
      exact logitsAt_congr m c (Fin.ext (by show 4 * ((t.val - 1) / 4) + (y 1).val / 1024 = 4 * (t.val / 4) + (y 1).val / 1024; omega)) rfl

/-- Known on all four slices, the buffer is the bag's logits. -/
theorem bufOk_full (c : Dev nD) (t : Fin cfg0.N) (h3 : t.val % 4 = 3) (d : Vec F S1x4096 .f32) (h : BufOk m c t d) :
    d = bagLogits m c t :=
  funext fun y => h y (by have : (y 1).val < 4096 := (y 1).isLt; omega)

/-! ## The tracked invariant and the proof data -/

/-- The region's invariant before position `n`: before the first point the class's (every scratch at anything);
    afterwards the three running quantities at what the point before left, the logits buffer at contents known on the
    slices written so far, and the generator register at some state. -/
def PhiS (c : Dev nD) : (n : ℕ) → n ≤ cfg0.N → sProp 𝕄
  | 0, _ => Pipeline.ΦA spec0 c
  | n + 1, hn => iprop(iprop(owns (c : Thread nD τ) sc0 fullShare ((tripAt m c n hn).1) ∗ owns (c : Thread nD τ) sc1 fullShare ((tripAt m c n hn).2.1) ∗ owns (c : Thread nD τ) sc2 fullShare ((tripAt m c n hn).2.2) ∗ (∃ d, ⌜BufOk m c ⟨n, hn⟩ d⌝ ∗ owns (c : Thread nD τ) sc3 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc0 fullShare ((tripAt m c n hn).1) ∗ owns (c : Thread nD τ) sc1 fullShare ((tripAt m c n hn).2.1) ∗ owns (c : Thread nD τ) sc2 fullShare ((tripAt m c n hn).2.2) ∗ (∃ d, ⌜BufOk m c ⟨n, hn⟩ d⌝ ∗ owns (c : Thread nD τ) sc3 fullShare d)) ∗ (∃ r, prngReg c r)) := rfl

theorem PhiS_pos (c : Dev nD) (n : ℕ) (h : n ≤ cfg0.N) (hz : n ≠ 0) :
    PhiS m c n h = iprop(iprop(owns (c : Thread nD τ) sc0 fullShare ((tripAt m c (n - 1) (by omega)).1) ∗ owns (c : Thread nD τ) sc1 fullShare ((tripAt m c (n - 1) (by omega)).2.1) ∗ owns (c : Thread nD τ) sc2 fullShare ((tripAt m c (n - 1) (by omega)).2.2) ∗ (∃ d, ⌜BufOk m c ⟨n - 1, by omega⟩ d⌝ ∗ owns (c : Thread nD τ) sc3 fullShare d)) ∗ (∃ r, prngReg c r)) := by
  cases n with
  | zero => exact absurd rfl hz
  | succ n => rfl

/-- The proof data of the pipeline on core `c`: the arrays as the region finds them; after the body at point `t` each
    input's buffer at its block, the pooled-vector buffer at the triple's weighted sum over its denominator, the
    attention-weights buffer at the bag's softmax numerators over the denominator (both matter at a bag's last tile
    only, where they are written back). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay9 (tripAt m c t.val t.isLt).2.1 (tripAt m c t.val t.isLt).2.2
    | ⟨8, _⟩ => k0_pay10 (tripAt m c t.val t.isLt).2.1 (bagLogits m c t) (tripAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = k0_pay9 (tripAt m c t.val t.isLt).2.1 (tripAt m c t.val t.isLt).2.2 := by dsimp only [dats]
theorem after_8 (c : Dev nD) (t : Fin cfg0.N) : (dats m 0 c).after 8 t = k0_pay10 (tripAt m c t.val t.isLt).2.1 (bagLogits m c t) (tripAt m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

end Cert.KernelIdeal.Hand

end
-- ==== Proof.IdealRunFirst.lean ====
/-
  The body of the pooling kernel run at a bag's FIRST tile: the three running quantities are reset, then updated by the tile; the outputs are not touched. The run is symbolic: each input buffer holds a
  given block, the logits buffer given contents; each buffer the body writes ends owned at the value the body computes
  for it from those, as one pure term over the body's named arithmetic.
-/
import proofs.«129396_j54546084659650_2_alg».proof.Proof.IdealPut

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- From whole buffers at the given contents the body runs to the continuation holding the inputs as they were and each
    written buffer at its new value. -/
theorem runFirst (c : Dev nD) (i : grid0.Coords) (arg2 : Memref sig .tc .vmem S1x1024x1024 .f32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .bf16) (harg5 : arg5.IsWhole) (arg6 : Memref sig .tc .vmem S1x256 .f32) (harg6 : arg6.IsWhole) (arg7 : Memref sig .tc .vmem S1x256 .bf16) (harg7 : arg7.IsWhole) (arg8 : Memref sig .tc .vmem S1x1 .f32) (harg8 : arg8.IsWhole) (arg9 : Memref sig .tc .vmem S1x1x1024 .f32) (harg9 : arg9.IsWhole) (arg10 : Memref sig .tc .vmem S1x1x4096 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1024 .f32) (harg13 : arg13.IsWhole) (arg14 : Memref sig .tc .vmem S1x4096 .f32) (harg14 : arg14.IsWhole) (hc0 : isFirst i) (hc1 : ¬isLast i)
    (x0 : Vec F S1x1024x1024 .f32) (x1 : Vec F S1024x256 .bf16) (x2 : Vec F S1x256 .f32) (x3 : Vec F S1024x256 .bf16) (x4 : Vec F S1x256 .f32) (x5 : Vec F S1x256 .bf16) (x6 : Vec F S1x1 .f32) (y7 : Vec F S1x1x1024 .f32) (y8 : Vec F S1x1x4096 .f32) (xs3 : Vec F S1x4096 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare (k0_pay5 (k0_pay15 x0 x1 x2 x3 x4 x5 x6) (k0_pay11 (F := F))) ∗ owns (c : Thread nD τ) arg12 fullShare (k0_pay6 (k0_pay15 x0 x1 x2 x3 x4 x5 x6) (k0_pay11 (F := F)) (k0_pay12 (F := F))) ∗ owns (c : Thread nD τ) arg13 fullShare (k0_pay7 (k0_pay14 x0) (k0_pay15 x0 x1 x2 x3 x4 x5 x6) (k0_pay11 (F := F)) (k0_pay13 (F := F))) ∗ owns (c : Thread nD τ) arg14 fullShare (putTile i xs3 (k0_pay1 (k0_pay15 x0 x1 x2 x3 x4 x5 x6)))) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, ⟨%ds2, %fs2, -, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hfs3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HS0]
  · iexists _; isplitr; swap; · iexact HS0
    ipureintro
    sl_unfold_words
    simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1x1024x1024) hz3, View.ld_unit_zero (S := S1024x256) hz2, View.ld_unit_zero (S := S1x256) hz2, View.ld_unit_zero (S := S1x1) hz2, View.ld_unit_zero (S := S1x1024) hz2, View.ld_unit_zero (S := S1x4096) hz2, View.readCov_unit_zero _ (S := S1x1) hz2, View.readCov_unit_zero _ (S := S1x1024) hz2, View.readCov_unit_zero _ (S := S1x4096) hz2]
    rw [View.read_writes_eq_canon _ _ _ (fun y => ⟨_, List.mem_cons.mpr (Or.inl rfl), View.mem_set_unit_zero (S := S1x1) hz2 inb_S1x1_S1x1_0_0 y⟩), View.canon_cons_unit_zero (S := S1x1) hz2]
  isplitl [HS1]
  · iexists _; isplitr; swap; · iexact HS1
    ipureintro
    sl_unfold_words
    simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1x1024x1024) hz3, View.ld_unit_zero (S := S1024x256) hz2, View.ld_unit_zero (S := S1x256) hz2, View.ld_unit_zero (S := S1x1) hz2, View.ld_unit_zero (S := S1x1024) hz2, View.ld_unit_zero (S := S1x4096) hz2, View.readCov_unit_zero _ (S := S1x1) hz2, View.readCov_unit_zero _ (S := S1x1024) hz2, View.readCov_unit_zero _ (S := S1x4096) hz2]
    rw [View.read_writes_eq_canon _ _ _ (fun y => ⟨_, List.mem_cons.mpr (Or.inl rfl), View.mem_set_unit_zero (S := S1x1) hz2 inb_S1x1_S1x1_0_0 y⟩), View.canon_cons_unit_zero (S := S1x1) hz2]
  isplitl [HS2]
  · iexists _; isplitr; swap; · iexact HS2
    ipureintro
    sl_unfold_words
    simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1x1024x1024) hz3, View.ld_unit_zero (S := S1024x256) hz2, View.ld_unit_zero (S := S1x256) hz2, View.ld_unit_zero (S := S1x1) hz2, View.ld_unit_zero (S := S1x1024) hz2, View.ld_unit_zero (S := S1x4096) hz2, View.readCov_unit_zero _ (S := S1x1) hz2, View.readCov_unit_zero _ (S := S1x1024) hz2, View.readCov_unit_zero _ (S := S1x4096) hz2]
    rw [View.read_writes_eq_canon _ _ _ (fun y => ⟨_, List.mem_cons.mpr (Or.inl rfl), View.mem_set_unit_zero (S := S1x1024) hz2 inb_S1x1024_S1x1024_0_0 y⟩), View.canon_cons_unit_zero (S := S1x1024) hz2]
  iexists _; isplitr; swap; · iexact HS3
  ipureintro
  sl_unfold_words
  simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1x1024x1024) hz3, View.ld_unit_zero (S := S1024x256) hz2, View.ld_unit_zero (S := S1x256) hz2, View.ld_unit_zero (S := S1x1) hz2, View.ld_unit_zero (S := S1x1024) hz2, View.ld_unit_zero (S := S1x4096) hz2, View.readCov_unit_zero _ (S := S1x1) hz2, View.readCov_unit_zero _ (S := S1x1024) hz2, View.readCov_unit_zero _ (S := S1x4096) hz2]
  rw [Cert.LibOverlay.read_writes_single, harg14.read_unread]
  rfl

end Cert.KernelIdeal.Hand

end
-- ==== Proof.IdealRunMiddle.lean ====
/-
  The body of the pooling kernel run at a tile that is neither a bag's first nor its last: the three running quantities are updated by the tile; the outputs are not touched. The run is symbolic: each input buffer holds a
  given block, the logits buffer given contents; each buffer the body writes ends owned at the value the body computes
  for it from those, as one pure term over the body's named arithmetic.
-/
import proofs.«129396_j54546084659650_2_alg».proof.Proof.IdealRunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- From whole buffers at the given contents the body runs to the continuation holding the inputs as they were and each
    written buffer at its new value. -/
theorem runMiddle (c : Dev nD) (i : grid0.Coords) (arg2 : Memref sig .tc .vmem S1x1024x1024 .f32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .bf16) (harg5 : arg5.IsWhole) (arg6 : Memref sig .tc .vmem S1x256 .f32) (harg6 : arg6.IsWhole) (arg7 : Memref sig .tc .vmem S1x256 .bf16) (harg7 : arg7.IsWhole) (arg8 : Memref sig .tc .vmem S1x1 .f32) (harg8 : arg8.IsWhole) (arg9 : Memref sig .tc .vmem S1x1x1024 .f32) (harg9 : arg9.IsWhole) (arg10 : Memref sig .tc .vmem S1x1x4096 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1024 .f32) (harg13 : arg13.IsWhole) (arg14 : Memref sig .tc .vmem S1x4096 .f32) (harg14 : arg14.IsWhole) (hc0 : ¬isFirst i) (hc1 : ¬isLast i)
    (x0 : Vec F S1x1024x1024 .f32) (x1 : Vec F S1024x256 .bf16) (x2 : Vec F S1x256 .f32) (x3 : Vec F S1024x256 .bf16) (x4 : Vec F S1x256 .f32) (x5 : Vec F S1x256 .bf16) (x6 : Vec F S1x1 .f32) (y7 : Vec F S1x1x1024 .f32) (y8 : Vec F S1x1x4096 .f32) (xs0 : Vec F S1x1 .f32) (xs1 : Vec F S1x1 .f32) (xs2 : Vec F S1x1024 .f32) (xs3 : Vec F S1x4096 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare xs0 ∗ owns (c : Thread nD τ) arg12 fullShare xs1 ∗ owns (c : Thread nD τ) arg13 fullShare xs2 ∗ owns (c : Thread nD τ) arg14 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare (k0_pay5 (k0_pay15 x0 x1 x2 x3 x4 x5 x6) xs0) ∗ owns (c : Thread nD τ) arg12 fullShare (k0_pay6 (k0_pay15 x0 x1 x2 x3 x4 x5 x6) xs0 xs1) ∗ owns (c : Thread nD τ) arg13 fullShare (k0_pay7 (k0_pay14 x0) (k0_pay15 x0 x1 x2 x3 x4 x5 x6) xs0 xs2) ∗ owns (c : Thread nD τ) arg14 fullShare (putTile i xs3 (k0_pay1 (k0_pay15 x0 x1 x2 x3 x4 x5 x6)))) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1; obtain rfl := harg13.eq_unread hfs2; obtain rfl := harg14.eq_unread hfs3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HS0]
  · iexists _; isplitr; swap; · iexact HS0
    ipureintro
    sl_unfold_words
    simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1x1024x1024) hz3, View.ld_unit_zero (S := S1024x256) hz2, View.ld_unit_zero (S := S1x256) hz2, View.ld_unit_zero (S := S1x1) hz2, View.ld_unit_zero (S := S1x1024) hz2, View.ld_unit_zero (S := S1x4096) hz2, View.readCov_unit_zero _ (S := S1x1) hz2, View.readCov_unit_zero _ (S := S1x1024) hz2, View.readCov_unit_zero _ (S := S1x4096) hz2]
    rw [View.read_writes_eq_canon _ _ _ (fun y => ⟨_, List.mem_singleton_self _, View.mem_set_unit_zero (S := S1x1) hz2 inb_S1x1_S1x1_0_0 y⟩), View.canon_unit_zero (S := S1x1) hz2]
  isplitl [HS1]
  · iexists _; isplitr; swap; · iexact HS1
    ipureintro
    sl_unfold_words
    simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1x1024x1024) hz3, View.ld_unit_zero (S := S1024x256) hz2, View.ld_unit_zero (S := S1x256) hz2, View.ld_unit_zero (S := S1x1) hz2, View.ld_unit_zero (S := S1x1024) hz2, View.ld_unit_zero (S := S1x4096) hz2, View.readCov_unit_zero _ (S := S1x1) hz2, View.readCov_unit_zero _ (S := S1x1024) hz2, View.readCov_unit_zero _ (S := S1x4096) hz2]
    rw [View.read_writes_eq_canon _ _ _ (fun y => ⟨_, List.mem_singleton_self _, View.mem_set_unit_zero (S := S1x1) hz2 inb_S1x1_S1x1_0_0 y⟩), View.canon_unit_zero (S := S1x1) hz2]
  isplitl [HS2]
  · iexists _; isplitr; swap; · iexact HS2
    ipureintro
    sl_unfold_words
    simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1x1024x1024) hz3, View.ld_unit_zero (S := S1024x256) hz2, View.ld_unit_zero (S := S1x256) hz2, View.ld_unit_zero (S := S1x1) hz2, View.ld_unit_zero (S := S1x1024) hz2, View.ld_unit_zero (S := S1x4096) hz2, View.readCov_unit_zero _ (S := S1x1) hz2, View.readCov_unit_zero _ (S := S1x1024) hz2, View.readCov_unit_zero _ (S := S1x4096) hz2]
    rw [View.read_writes_eq_canon _ _ _ (fun y => ⟨_, List.mem_singleton_self _, View.mem_set_unit_zero (S := S1x1024) hz2 inb_S1x1024_S1x1024_0_0 y⟩), View.canon_unit_zero (S := S1x1024) hz2]
  iexists _; isplitr; swap; · iexact HS3
  ipureintro
  sl_unfold_words
  simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1x1024x1024) hz3, View.ld_unit_zero (S := S1024x256) hz2, View.ld_unit_zero (S := S1x256) hz2, View.ld_unit_zero (S := S1x1) hz2, View.ld_unit_zero (S := S1x1024) hz2, View.ld_unit_zero (S := S1x4096) hz2, View.readCov_unit_zero _ (S := S1x1) hz2, View.readCov_unit_zero _ (S := S1x1024) hz2, View.readCov_unit_zero _ (S := S1x4096) hz2]
  rw [Cert.LibOverlay.read_writes_single, harg14.read_unread]
  rfl

end Cert.KernelIdeal.Hand

end
-- ==== Proof.IdealRunLast.lean ====
/-
  The body of the pooling kernel run at a bag's LAST tile: the three running quantities are updated by the tile, then the pooled vector and the attention weights are stored into the two output buffers. The run is symbolic: each input buffer holds a
  given block, the logits buffer given contents; each buffer the body writes ends owned at the value the body computes
  for it from those, as one pure term over the body's named arithmetic.
-/
import proofs.«129396_j54546084659650_2_alg».proof.Proof.IdealRunMiddle

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- From whole buffers at the given contents the body runs to the continuation holding the inputs as they were and each
    written buffer at its new value. -/
theorem runLast (c : Dev nD) (i : grid0.Coords) (arg2 : Memref sig .tc .vmem S1x1024x1024 .f32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .bf16) (harg5 : arg5.IsWhole) (arg6 : Memref sig .tc .vmem S1x256 .f32) (harg6 : arg6.IsWhole) (arg7 : Memref sig .tc .vmem S1x256 .bf16) (harg7 : arg7.IsWhole) (arg8 : Memref sig .tc .vmem S1x1 .f32) (harg8 : arg8.IsWhole) (arg9 : Memref sig .tc .vmem S1x1x1024 .f32) (harg9 : arg9.IsWhole) (arg10 : Memref sig .tc .vmem S1x1x4096 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1024 .f32) (harg13 : arg13.IsWhole) (arg14 : Memref sig .tc .vmem S1x4096 .f32) (harg14 : arg14.IsWhole) (hc0 : ¬isFirst i) (hc1 : isLast i)
    (x0 : Vec F S1x1024x1024 .f32) (x1 : Vec F S1024x256 .bf16) (x2 : Vec F S1x256 .f32) (x3 : Vec F S1024x256 .bf16) (x4 : Vec F S1x256 .f32) (x5 : Vec F S1x256 .bf16) (x6 : Vec F S1x1 .f32) (xs0 : Vec F S1x1 .f32) (xs1 : Vec F S1x1 .f32) (xs2 : Vec F S1x1024 .f32) (xs3 : Vec F S1x4096 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ owns (c : Thread nD τ) arg13 fullShare xs2 ∗ owns (c : Thread nD τ) arg14 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay9 (k0_pay6 (k0_pay15 x0 x1 x2 x3 x4 x5 x6) xs0 xs1) (k0_pay7 (k0_pay14 x0) (k0_pay15 x0 x1 x2 x3 x4 x5 x6) xs0 xs2)) ∗ owns (c : Thread nD τ) arg10 fullShare (k0_pay10 (k0_pay6 (k0_pay15 x0 x1 x2 x3 x4 x5 x6) xs0 xs1) (putTile i xs3 (k0_pay1 (k0_pay15 x0 x1 x2 x3 x4 x5 x6))) (k0_pay5 (k0_pay15 x0 x1 x2 x3 x4 x5 x6) xs0)) ∗ owns (c : Thread nD τ) arg11 fullShare (k0_pay5 (k0_pay15 x0 x1 x2 x3 x4 x5 x6) xs0) ∗ owns (c : Thread nD τ) arg12 fullShare (k0_pay6 (k0_pay15 x0 x1 x2 x3 x4 x5 x6) xs0 xs1) ∗ owns (c : Thread nD τ) arg13 fullShare (k0_pay7 (k0_pay14 x0) (k0_pay15 x0 x1 x2 x3 x4 x5 x6) xs0 xs2) ∗ owns (c : Thread nD τ) arg14 fullShare (putTile i xs3 (k0_pay1 (k0_pay15 x0 x1 x2 x3 x4 x5 x6)))) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0; obtain rfl := harg12.eq_unread hfs1; obtain rfl := harg13.eq_unread hfs2; obtain rfl := harg14.eq_unread hfs3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    sl_unfold_words
    simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1x1024x1024) hz3, View.ld_unit_zero (S := S1024x256) hz2, View.ld_unit_zero (S := S1x256) hz2, View.ld_unit_zero (S := S1x1) hz2, View.ld_unit_zero (S := S1x1024) hz2, View.ld_unit_zero (S := S1x4096) hz2, View.readCov_unit_zero _ (S := S1x1) hz2, View.readCov_unit_zero _ (S := S1x1024) hz2, View.readCov_unit_zero _ (S := S1x4096) hz2, Cert.LibOverlay.read_writes_single, Cert.LibOverlay.overlay_unit_zero (S := S1x1x1024) hz3, Cert.LibOverlay.overlay_unit_zero (S := S1x1x4096) hz3]
    all_goals rfl
  isplitl [H8]
  · iexists _; isplitr; swap; · iexact H8
    ipureintro
    sl_unfold_words
    simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1x1024x1024) hz3, View.ld_unit_zero (S := S1024x256) hz2, View.ld_unit_zero (S := S1x256) hz2, View.ld_unit_zero (S := S1x1) hz2, View.ld_unit_zero (S := S1x1024) hz2, View.ld_unit_zero (S := S1x4096) hz2, View.readCov_unit_zero _ (S := S1x1) hz2, View.readCov_unit_zero _ (S := S1x1024) hz2, View.readCov_unit_zero _ (S := S1x4096) hz2, Cert.LibOverlay.read_writes_single, Cert.LibOverlay.overlay_unit_zero (S := S1x1x1024) hz3, Cert.LibOverlay.overlay_unit_zero (S := S1x1x4096) hz3]
    all_goals rfl
  isplitl [HS0]
  · iexists _; isplitr; swap; · iexact HS0
    ipureintro
    sl_unfold_words
    simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1x1024x1024) hz3, View.ld_unit_zero (S := S1024x256) hz2, View.ld_unit_zero (S := S1x256) hz2, View.ld_unit_zero (S := S1x1) hz2, View.ld_unit_zero (S := S1x1024) hz2, View.ld_unit_zero (S := S1x4096) hz2, View.readCov_unit_zero _ (S := S1x1) hz2, View.readCov_unit_zero _ (S := S1x1024) hz2, View.readCov_unit_zero _ (S := S1x4096) hz2]
    rw [View.read_writes_eq_canon _ _ _ (fun y => ⟨_, List.mem_singleton_self _, View.mem_set_unit_zero (S := S1x1) hz2 inb_S1x1_S1x1_0_0 y⟩), View.canon_unit_zero (S := S1x1) hz2]
  isplitl [HS1]
  · iexists _; isplitr; swap; · iexact HS1
    ipureintro
    sl_unfold_words
    simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1x1024x1024) hz3, View.ld_unit_zero (S := S1024x256) hz2, View.ld_unit_zero (S := S1x256) hz2, View.ld_unit_zero (S := S1x1) hz2, View.ld_unit_zero (S := S1x1024) hz2, View.ld_unit_zero (S := S1x4096) hz2, View.readCov_unit_zero _ (S := S1x1) hz2, View.readCov_unit_zero _ (S := S1x1024) hz2, View.readCov_unit_zero _ (S := S1x4096) hz2]
    rw [View.read_writes_eq_canon _ _ _ (fun y => ⟨_, List.mem_singleton_self _, View.mem_set_unit_zero (S := S1x1) hz2 inb_S1x1_S1x1_0_0 y⟩), View.canon_unit_zero (S := S1x1) hz2]
  isplitl [HS2]
  · iexists _; isplitr; swap; · iexact HS2
    ipureintro
    sl_unfold_words
    simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1x1024x1024) hz3, View.ld_unit_zero (S := S1024x256) hz2, View.ld_unit_zero (S := S1x256) hz2, View.ld_unit_zero (S := S1x1) hz2, View.ld_unit_zero (S := S1x1024) hz2, View.ld_unit_zero (S := S1x4096) hz2, View.readCov_unit_zero _ (S := S1x1) hz2, View.readCov_unit_zero _ (S := S1x1024) hz2, View.readCov_unit_zero _ (S := S1x4096) hz2]
    rw [View.read_writes_eq_canon _ _ _ (fun y => ⟨_, List.mem_singleton_self _, View.mem_set_unit_zero (S := S1x1024) hz2 inb_S1x1024_S1x1024_0_0 y⟩), View.canon_unit_zero (S := S1x1024) hz2]
  iexists _; isplitr; swap; · iexact HS3
  ipureintro
  sl_unfold_words
  simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1x1024x1024) hz3, View.ld_unit_zero (S := S1024x256) hz2, View.ld_unit_zero (S := S1x256) hz2, View.ld_unit_zero (S := S1x1) hz2, View.ld_unit_zero (S := S1x1024) hz2, View.ld_unit_zero (S := S1x4096) hz2, View.readCov_unit_zero _ (S := S1x1) hz2, View.readCov_unit_zero _ (S := S1x1024) hz2, View.readCov_unit_zero _ (S := S1x4096) hz2]
  rw [Cert.LibOverlay.read_writes_single, harg14.read_unread]
  rfl

end Cert.KernelIdeal.Hand

end
-- ==== Proof.IdealBody.lean ====
/-
  The pooling kernel's body meets the pipeline's obligation at every point, with the running triple and the logits
  buffer tracked from point to point; hence every weakly fair execution of the program terminates without a fault,
  with each array the pipeline stages at the contents the write-backs of the proof data leave there.
-/
import proofs.«129396_j54546084659650_2_alg».proof.Proof.IdealState
import proofs.«129396_j54546084659650_2_alg».proof.Proof.IdealRunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 16000000 in
/-- The body at any point, by the point's case: the inputs' buffers hold their blocks; the invariant hands the body the
    running triple at what the point before left (at anything at the very first point) and the logits buffer at
    contents known on the slices written so far, and takes them back updated; the outputs are handed back as found off
    a bag's last tile, and at the bag's pooled vector and attention weights at it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt N64
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  rw [show (dats m 0 c).leavesExact 2 t = owns (c : Thread nD τ) (ms2 t) fullShare ((dats m 0 c).after 2 t) from by
    unfold Dat.leavesExact; rw [live_2 t], after_2]
  rw [show (dats m 0 c).leavesExact 3 t = owns (c : Thread nD τ) (ms3 t) fullShare ((dats m 0 c).after 3 t) from by
    unfold Dat.leavesExact; rw [live_3 t], after_3]
  rw [show (dats m 0 c).leavesExact 4 t = owns (c : Thread nD τ) (ms4 t) fullShare ((dats m 0 c).after 4 t) from by
    unfold Dat.leavesExact; rw [live_4 t], after_4]
  rw [show (dats m 0 c).leavesExact 5 t = owns (c : Thread nD τ) (ms5 t) fullShare ((dats m 0 c).after 5 t) from by
    unfold Dat.leavesExact; rw [live_5 t], after_5]
  rw [show (dats m 0 c).leavesExact 6 t = owns (c : Thread nD τ) (ms6 t) fullShare ((dats m 0 c).after 6 t) from by
    unfold Dat.leavesExact; rw [live_6 t], after_6]
  by_cases h0 : t.val % 4 = 0
  · have h3 : ¬ t.val % 4 = 3 := by omega
    ·
      rw [(dats m 0 c).leavesExact_idle 7 t (by rw [idle_7 t]; simp [h3]) (Bool.eq_false_iff.mpr fun h => h3 ((flush0_7 t).mp h))]
      rw [(dats m 0 c).leavesExact_idle 8 t (by rw [idle_8 t]; simp [h3]) (Bool.eq_false_iff.mpr fun h => h3 ((flush0_8 t).mp h))]
      rw [tripAt_first m c t h0]; dsimp only; unfold logitsAt featAt
      by_cases hz : t.val = 0
      · rw [PhiS_castSucc m c t, PhiS_zero m c _ _ hz, PhiA_eq]
        iintro ⟨⟨⟨HS0, HS1, HS2, ⟨%d3, HS3⟩⟩, Hg⟩, Ho, ⟨%d0, H0⟩, ⟨%d1, H1⟩, ⟨%d2, H2⟩, ⟨%d3', H3⟩, ⟨%d4, H4⟩, ⟨%d5, H5⟩, ⟨%d6, H6⟩, ⟨%d7, H7⟩, ⟨%d8, H8⟩⟩
        iapply (runFirst c (grid0.coords t) _ _ _ _ _ _ _ _ _ _ _ _ _ _ _ _ _ _ _ _ _ _ _ _ _ _ ((isFirst_iff t).mpr h0) (fun h => h3 ((isLast_iff t).mp h)) (iblk m c 0 t) (iblk m c 1 t) (iblk m c 2 t) (iblk m c 3 t) (iblk m c 4 t) (iblk m c 5 t) (iblk m c 6 t) ((dats m 0 c).before 7 t d7) ((dats m 0 c).before 8 t d8) d3 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        isplitl [HS2]; · iexact HS2
        isplitl [HS3]; · iexact HS3
        iintro ⟨H0, H1, H2, H3, H4, H5, H6, H7, H8, HS0, HS1, HS2, HS3⟩
        isplitl [HS0 HS1 HS2 HS3 Hg]
        · isplitl [HS0 HS1 HS2 HS3]
          · isplitl [HS0]; · iexact HS0
            isplitl [HS1]; · iexact HS1
            isplitl [HS2]; · iexact HS2
            iexists _; isplitr; · ipureintro; exact bufOk_put m c t d3 (Or.inl h0)
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists d7; iexact H7
        iexists d8; iexact H8
      · rw [PhiS_castSucc m c t, PhiS_pos m c _ _ hz]
        iintro ⟨⟨⟨HS0, HS1, HS2, ⟨%d3, %hd3, HS3⟩⟩, Hg⟩, Ho, ⟨%d0, H0⟩, ⟨%d1, H1⟩, ⟨%d2, H2⟩, ⟨%d3', H3⟩, ⟨%d4, H4⟩, ⟨%d5, H5⟩, ⟨%d6, H6⟩, ⟨%d7, H7⟩, ⟨%d8, H8⟩⟩
        iapply (runFirst c (grid0.coords t) _ _ _ _ _ _ _ _ _ _ _ _ _ _ _ _ _ _ _ _ _ _ _ _ _ _ ((isFirst_iff t).mpr h0) (fun h => h3 ((isLast_iff t).mp h)) (iblk m c 0 t) (iblk m c 1 t) (iblk m c 2 t) (iblk m c 3 t) (iblk m c 4 t) (iblk m c 5 t) (iblk m c 6 t) ((dats m 0 c).before 7 t d7) ((dats m 0 c).before 8 t d8) d3 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        isplitl [HS1]; · iexists _; iexact HS1
        isplitl [HS2]; · iexists _; iexact HS2
        isplitl [HS3]; · iexact HS3
        iintro ⟨H0, H1, H2, H3, H4, H5, H6, H7, H8, HS0, HS1, HS2, HS3⟩
        isplitl [HS0 HS1 HS2 HS3 Hg]
        · isplitl [HS0 HS1 HS2 HS3]
          · isplitl [HS0]; · iexact HS0
            isplitl [HS1]; · iexact HS1
            isplitl [HS2]; · iexact HS2
            iexists _; isplitr; · ipureintro; exact bufOk_put m c t d3 (Or.inl h0)
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists d7; iexact H7
        iexists d8; iexact H8
  · by_cases h3 : t.val % 4 = 3
    ·
      rw [show (dats m 0 c).leavesExact 7 t = owns (c : Thread nD τ) (ms7 t) fullShare ((dats m 0 c).after 7 t) from by
        unfold Dat.leavesExact; rw [show cfg0.idle 7 (grid0.coords t) = false from by rw [idle_7 t]; simp [h3]], after_7]
      rw [show (dats m 0 c).leavesExact 8 t = owns (c : Thread nD τ) (ms8 t) fullShare ((dats m 0 c).after 8 t) from by
        unfold Dat.leavesExact; rw [show cfg0.idle 8 (grid0.coords t) = false from by rw [idle_8 t]; simp [h3]], after_8]
      rw [tripAt_next m c t h0]; dsimp only
      have hz : t.val ≠ 0 := fun hz => h0 (by rw [hz])
      · rw [PhiS_castSucc m c t, PhiS_pos m c _ _ hz]
        iintro ⟨⟨⟨HS0, HS1, HS2, ⟨%d3, %hd3, HS3⟩⟩, Hg⟩, Ho, ⟨%d0, H0⟩, ⟨%d1, H1⟩, ⟨%d2, H2⟩, ⟨%d3', H3⟩, ⟨%d4, H4⟩, ⟨%d5, H5⟩, ⟨%d6, H6⟩, ⟨%d7, H7⟩, ⟨%d8, H8⟩⟩
        have hb : putTile (grid0.coords t) d3 (k0_pay1 (logitsAt m c t)) = bagLogits m c t :=
          bufOk_full m c t h3 _ (bufOk_put m c t d3 (Or.inr hd3))
        rw [← hb]; unfold logitsAt featAt
        iapply (runLast c (grid0.coords t) _ _ _ _ _ _ _ _ _ _ _ _ _ _ _ _ _ _ _ _ _ _ _ _ _ _ (fun h => h0 ((isFirst_iff t).mp h)) ((isLast_iff t).mpr h3) (iblk m c 0 t) (iblk m c 1 t) (iblk m c 2 t) (iblk m c 3 t) (iblk m c 4 t) (iblk m c 5 t) (iblk m c 6 t) _ _ _ d3 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        isplitl [HS1]; · iexact HS1
        isplitl [HS2]; · iexact HS2
        isplitl [HS3]; · iexact HS3
        iintro ⟨H0, H1, H2, H3, H4, H5, H6, H7, H8, HS0, HS1, HS2, HS3⟩
        isplitl [HS0 HS1 HS2 HS3 Hg]
        · isplitl [HS0 HS1 HS2 HS3]
          · isplitl [HS0]; · iexact HS0
            isplitl [HS1]; · iexact HS1
            isplitl [HS2]; · iexact HS2
            iexists _; isplitr; · ipureintro; exact bufOk_put m c t d3 (Or.inr hd3)
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
    ·
      rw [(dats m 0 c).leavesExact_idle 7 t (by rw [idle_7 t]; simp [h3]) (Bool.eq_false_iff.mpr fun h => h3 ((flush0_7 t).mp h))]
      rw [(dats m 0 c).leavesExact_idle 8 t (by rw [idle_8 t]; simp [h3]) (Bool.eq_false_iff.mpr fun h => h3 ((flush0_8 t).mp h))]
      rw [tripAt_next m c t h0]; dsimp only; unfold logitsAt featAt
      have hz : t.val ≠ 0 := fun hz => h0 (by rw [hz])
      · rw [PhiS_castSucc m c t, PhiS_pos m c _ _ hz]
        iintro ⟨⟨⟨HS0, HS1, HS2, ⟨%d3, %hd3, HS3⟩⟩, Hg⟩, Ho, ⟨%d0, H0⟩, ⟨%d1, H1⟩, ⟨%d2, H2⟩, ⟨%d3', H3⟩, ⟨%d4, H4⟩, ⟨%d5, H5⟩, ⟨%d6, H6⟩, ⟨%d7, H7⟩, ⟨%d8, H8⟩⟩
        iapply (runMiddle c (grid0.coords t) _ _ _ _ _ _ _ _ _ _ _ _ _ _ _ _ _ _ _ _ _ _ _ _ _ _ (fun h => h0 ((isFirst_iff t).mp h)) (fun h => h3 ((isLast_iff t).mp h)) (iblk m c 0 t) (iblk m c 1 t) (iblk m c 2 t) (iblk m c 3 t) (iblk m c 4 t) (iblk m c 5 t) (iblk m c 6 t) ((dats m 0 c).before 7 t d7) ((dats m 0 c).before 8 t d8) _ _ _ d3 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        isplitl [HS2]; · iexact HS2
        isplitl [HS3]; · iexact HS3
        iintro ⟨H0, H1, H2, H3, H4, H5, H6, H7, H8, HS0, HS1, HS2, HS3⟩
        isplitl [HS0 HS1 HS2 HS3 Hg]
        · isplitl [HS0 HS1 HS2 HS3]
          · isplitl [HS0]; · iexact HS0
            isplitl [HS1]; · iexact HS1
            isplitl [HS2]; · iexact HS2
            iexists _; isplitr; · ipureintro; exact bufOk_put m c t d3 (Or.inr hd3)
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists d7; iexact H7
        iexists d8; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: what the scratch buffers hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2, ⟨%d3, %hd3, HS3⟩⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 64 := N64; omega)

set_option backward.isDefEq.respectTransparency.types false in
/-- Every weakly fair execution of @main terminates, and every final state has each staged array at what the proof
    data's write-backs leave and every other unscoped buffer at what the host operations after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c w => (dats m 0 c).share_full (fun _ => rfl) w)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Hand

end
-- ==== Proof.PoolArrays.lean ====
/-
  From the blocks the pooling kernel writes back to its two result arrays.

  The grid has 64 points: point t is tile t mod 4 of bag t / 4. Each of the two output windows has one block per bag
  (the pooled vector: 1 × 1 × 1024 at block index (bag, 0, 0) of a 16 × 1 × 1024 array; the attention weights:
  1 × 1 × 4096 at (bag, 0, 0) of 16 × 1 × 4096), and the block is written back exactly at the bag's last tile, the
  points congruent to 3 modulo 4. So whatever the body leaves in a window's buffer point by point, the array ends
  holding, in row b, what the body left at point 4b + 3: the sixteen written blocks tile the array, and each is the
  corresponding block of that one function of the index. The two reshapes after the region drop the unit middle axis,
  so the results at (b, d) and (b, j) are those entries at (0, 0, d) and (0, 0, j) of point 4b + 3's buffers.
  Nothing here depends on what the body computes: every statement is for arbitrary data over the kernel's windows.
-/
import proofs.«129396_j54546084659650_2_alg».proof.Proof.Gen.KernelIdeal.Frame
import proofs.«129396_j54546084659650_2_alg».proof.Proof.Gen.KernelIdeal.Points
import proofs.«129396_j54546084659650_2_alg».proof.Proof.IdealState
import Idealize.ShloMosaic.Lib.Pipeline.Value
import Idealize.ShloMosaic.Lib.ValueIdx

set_option maxRecDepth 16384

noncomputable section

namespace Cert.KernelIdeal.PoolArrays

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-- The grid has 64 points. -/
theorem N64 : cfg0.N = 64 := N_0

/-- The last of bag b's four points. -/
def lastPt (b : Fin 16) : Fin cfg0.N := ⟨4 * b.val + 3, by rw [N64]; have := b.isLt; omega⟩

theorem lastPt_val (b : Fin 16) : (lastPt b).val = 4 * b.val + 3 := rfl

section Generic

variable {c : Dev nD} (dat : Dat τ (Elt F) Unit ℕ (UR sig nD τ) ℕ cfg0 c)

/-- Equal points and equal slots read equal entries of a window's buffer. -/
theorem after_congr (w : Fin cfg0.W) {t t' : Fin cfg0.N} (ht : t = t') {x x' : (cfg0.win w).block.Idx} (hx : x = x') :
    dat.after w t x = dat.after w t' x' := by subst ht; subst hx; rfl

/-! ## The pooled vectors (window 7) -/

/-- The window's block index at point t is (t / 4, 0, 0): decided over the 64 points. -/
theorem idx7 : ∀ t : Fin cfg0.N, win0_7.index t (0 : Fin 3) = t.val / 4 ∧ win0_7.index t (1 : Fin 3) = 0
    ∧ win0_7.index t (2 : Fin 3) = 0 :=
  (by decide +kernel : ∀ t : Fin grid0.N, win0_7.index t (0 : Fin 3) = t.val / 4 ∧ win0_7.index t (1 : Fin 3) = 0
    ∧ win0_7.index t (2 : Fin 3) = 0)

/-- What the array ends holding: row b is what the body left at bag b's last point. -/
def G7of : S16x1x1024.Idx → Elt F .f32 := fun i =>
  dat.after 7 (lastPt ⟨(i 0).val, (i 0).isLt⟩) (ix3 (0 : Fin 1) (0 : Fin 1) (⟨(i 2).val, (i 2).isLt⟩ : Fin 1024))

/-- WHAT A WRITING POINT WRITES BACK is its block of that function. -/
theorem flushed7_eq (t : Fin cfg0.N) (hf : (cfg0.win 7).flush t = true) :
    dat.flushed 7 t = ((cfg0.win 7).blk t).view.read (Elt F) (G7of dat) := by
  have h3 : t.val % 4 = 3 := (flush0_7 t).mp hf
  have ht : t.val < 64 := lt_of_lt_of_eq t.isLt N64
  obtain ⟨e0, e1, e2⟩ := idx7 t
  funext j
  have hj0 : (j 0).val = 0 := by have : (j 0).val < 1 := (j 0).isLt; omega
  have hj1 : (j 1).val = 0 := by have : (j 1).val < 1 := (j 1).isLt; omega
  rw [View.read_apply]
  unfold G7of
  refine after_congr dat 7 (Fin.ext ?_) (funext fun a => Fin.ext ?_)
  · show t.val = 4 * (win0_7.index t (0 : Fin 3) * 1 + 1 * (j 0).val) + 3
    omega
  · match a with
    | ⟨0, _⟩ => show (j 0).val = 0; exact hj0
    | ⟨1, _⟩ => show (j 1).val = 0; exact hj1
    | ⟨2, _⟩ => show (j 2).val = win0_7.index t (2 : Fin 3) * 1024 + 1 * (j 2).val; omega

/-- An index of the array is in point t's block iff each coordinate is in the block's range on its axis. -/
theorem mem_blk7 (t : Fin cfg0.N) (i : S16x1x1024.Idx) :
    i ∈ ((cfg0.win 7).blk t).view.set ↔ ∀ a : Fin 3, win0_7.index t a * S1x1x1024.size a ≤ (i a).val
      ∧ (i a).val < win0_7.index t a * S1x1x1024.size a + S1x1x1024.size a := by
  show i ∈ ((View.whole main_v7_0).slice (win0_7.rect t)).set ↔ _
  rw [View.set_slice_whole, Rect.mem_set_unit]
  exact Iff.rfl

/-- Row b of the array is covered by the block bag b's last point writes. -/
theorem cover7 (i : S16x1x1024.Idx) :
    ∃ t : Fin cfg0.N, (cfg0.win 7).flush t = true ∧ i ∈ ((cfg0.win 7).blk t).view.set := by
  have hi0 : (i 0).val < 16 := (i 0).isLt
  have hi1 : (i 1).val < 1 := (i 1).isLt
  have hi2 : (i 2).val < 1024 := (i 2).isLt
  refine ⟨lastPt ⟨(i 0).val, hi0⟩, (flush0_7 _).mpr (by show (4 * (i 0).val + 3) % 4 = 3; omega), ?_⟩
  rw [mem_blk7]
  obtain ⟨e0, e1, e2⟩ := idx7 (lastPt ⟨(i 0).val, hi0⟩)
  have e0' : win0_7.index (lastPt ⟨(i 0).val, hi0⟩) (0 : Fin 3) = (i 0).val := by
    rw [e0]; show (4 * (i 0).val + 3) / 4 = (i 0).val; omega
  intro a
  match a with
  | ⟨0, _⟩ =>
    show win0_7.index (lastPt ⟨(i 0).val, hi0⟩) (0 : Fin 3) * 1 ≤ (i 0).val
      ∧ (i 0).val < win0_7.index (lastPt ⟨(i 0).val, hi0⟩) (0 : Fin 3) * 1 + 1
    omega
  | ⟨1, _⟩ =>
    show win0_7.index (lastPt ⟨(i 0).val, hi0⟩) (1 : Fin 3) * 1 ≤ (i 1).val
      ∧ (i 1).val < win0_7.index (lastPt ⟨(i 0).val, hi0⟩) (1 : Fin 3) * 1 + 1
    omega
  | ⟨2, _⟩ =>
    show win0_7.index (lastPt ⟨(i 0).val, hi0⟩) (2 : Fin 3) * 1024 ≤ (i 2).val
      ∧ (i 2).val < win0_7.index (lastPt ⟨(i 0).val, hi0⟩) (2 : Fin 3) * 1024 + 1024
    omega

/-- THE ARRAY after the run: row b is what the body left at bag b's last point. -/
theorem final7 : dat.arrAt 7 cfg0.N = G7of dat :=
  dat.arrAt_eq_of_cover 7 (G7of dat) (fun t hf => flushed7_eq dat t hf) cover7

/-! ## The attention weights (window 8) -/

/-- The window's block index at point t is (t / 4, 0, 0): decided over the 64 points. -/
theorem idx8 : ∀ t : Fin cfg0.N, win0_8.index t (0 : Fin 3) = t.val / 4 ∧ win0_8.index t (1 : Fin 3) = 0
    ∧ win0_8.index t (2 : Fin 3) = 0 :=
  (by decide +kernel : ∀ t : Fin grid0.N, win0_8.index t (0 : Fin 3) = t.val / 4 ∧ win0_8.index t (1 : Fin 3) = 0
    ∧ win0_8.index t (2 : Fin 3) = 0)

/-- What the array ends holding: row b is what the body left at bag b's last point. -/
def G8of : S16x1x4096.Idx → Elt F .f32 := fun i =>
  dat.after 8 (lastPt ⟨(i 0).val, (i 0).isLt⟩) (ix3 (0 : Fin 1) (0 : Fin 1) (⟨(i 2).val, (i 2).isLt⟩ : Fin 4096))

/-- WHAT A WRITING POINT WRITES BACK is its block of that function. -/
theorem flushed8_eq (t : Fin cfg0.N) (hf : (cfg0.win 8).flush t = true) :
    dat.flushed 8 t = ((cfg0.win 8).blk t).view.read (Elt F) (G8of dat) := by
  have h3 : t.val % 4 = 3 := (flush0_8 t).mp hf
  have ht : t.val < 64 := lt_of_lt_of_eq t.isLt N64
  obtain ⟨e0, e1, e2⟩ := idx8 t
  funext j
  have hj0 : (j 0).val = 0 := by have : (j 0).val < 1 := (j 0).isLt; omega
  have hj1 : (j 1).val = 0 := by have : (j 1).val < 1 := (j 1).isLt; omega
  rw [View.read_apply]
  unfold G8of
  refine after_congr dat 8 (Fin.ext ?_) (funext fun a => Fin.ext ?_)
  · show t.val = 4 * (win0_8.index t (0 : Fin 3) * 1 + 1 * (j 0).val) + 3
    omega
  · match a with
    | ⟨0, _⟩ => show (j 0).val = 0; exact hj0
    | ⟨1, _⟩ => show (j 1).val = 0; exact hj1
    | ⟨2, _⟩ => show (j 2).val = win0_8.index t (2 : Fin 3) * 4096 + 1 * (j 2).val; omega

/-- An index of the array is in point t's block iff each coordinate is in the block's range on its axis. -/
theorem mem_blk8 (t : Fin cfg0.N) (i : S16x1x4096.Idx) :
    i ∈ ((cfg0.win 8).blk t).view.set ↔ ∀ a : Fin 3, win0_8.index t a * S1x1x4096.size a ≤ (i a).val
      ∧ (i a).val < win0_8.index t a * S1x1x4096.size a + S1x1x4096.size a := by
  show i ∈ ((View.whole main_v7_1).slice (win0_8.rect t)).set ↔ _
  rw [View.set_slice_whole, Rect.mem_set_unit]
  exact Iff.rfl

/-- Row b of the array is covered by the block bag b's last point writes. -/
theorem cover8 (i : S16x1x4096.Idx) :
    ∃ t : Fin cfg0.N, (cfg0.win 8).flush t = true ∧ i ∈ ((cfg0.win 8).blk t).view.set := by
  have hi0 : (i 0).val < 16 := (i 0).isLt
  have hi1 : (i 1).val < 1 := (i 1).isLt
  have hi2 : (i 2).val < 4096 := (i 2).isLt
  refine ⟨lastPt ⟨(i 0).val, hi0⟩, (flush0_8 _).mpr (by show (4 * (i 0).val + 3) % 4 = 3; omega), ?_⟩
  rw [mem_blk8]
  obtain ⟨e0, e1, e2⟩ := idx8 (lastPt ⟨(i 0).val, hi0⟩)
  have e0' : win0_8.index (lastPt ⟨(i 0).val, hi0⟩) (0 : Fin 3) = (i 0).val := by
    rw [e0]; show (4 * (i 0).val + 3) / 4 = (i 0).val; omega
  intro a
  match a with
  | ⟨0, _⟩ =>
    show win0_8.index (lastPt ⟨(i 0).val, hi0⟩) (0 : Fin 3) * 1 ≤ (i 0).val
      ∧ (i 0).val < win0_8.index (lastPt ⟨(i 0).val, hi0⟩) (0 : Fin 3) * 1 + 1
    omega
  | ⟨1, _⟩ =>
    show win0_8.index (lastPt ⟨(i 0).val, hi0⟩) (1 : Fin 3) * 1 ≤ (i 1).val
      ∧ (i 1).val < win0_8.index (lastPt ⟨(i 0).val, hi0⟩) (1 : Fin 3) * 1 + 1
    omega
  | ⟨2, _⟩ =>
    show win0_8.index (lastPt ⟨(i 0).val, hi0⟩) (2 : Fin 3) * 4096 ≤ (i 2).val
      ∧ (i 2).val < win0_8.index (lastPt ⟨(i 0).val, hi0⟩) (2 : Fin 3) * 4096 + 4096
    omega

/-- THE ARRAY after the run: row b is what the body left at bag b's last point. -/
theorem final8 : dat.arrAt 8 cfg0.N = G8of dat :=
  dat.arrAt_eq_of_cover 8 (G8of dat) (fun t hf => flushed8_eq dat t hf) cover8

end Generic

/-! ## The two reshapes after the region -/

section Tail

variable (m : (ℓ : Loc nD τ sig) → Buf (Elt F) ℓ)
variable (dats : (p : Fin 1) → (c : Dev nD) → Dat τ (Elt F) Unit ℕ (UR sig nD τ) ℕ (cfgs p) c)

/-- The first result is the pooled-vector array with its unit middle axis dropped. -/
theorem res8_of (c : Dev nD) :
    Pipeline.afterTail₀ cfgs dats 0 (V0 m) [hostOps1] c main_v8
      = shapeCast S16x1024 ((dats 0 c).arrAt 7 cfg0.N) shapeCasts_S16x1x1024_S16x1024 := by
  unfold Pipeline.afterTail₀
  show StableHlo.after hostOps1 _ (Proc.devRef .tc main_v8) = _
  after_results
  have e : Pipeline.withArrays (cfgs 0).spec c (V0 m c) (fun w => (dats 0 c).arrAt w (cfgs 0).N) (Proc.devRef .tc main_v7_0)
      = (dats 0 c).arrAt 7 cfg0.N :=
    Pipeline.withArrays_arr spec0 launch0.win.arr_inj c (V0 m c) _ 7
  rw [e]
  rfl

/-- The second result is the attention-weights array with its unit middle axis dropped. -/
theorem res9_of (c : Dev nD) :
    Pipeline.afterTail₀ cfgs dats 0 (V0 m) [hostOps1] c main_v9
      = shapeCast S16x4096 ((dats 0 c).arrAt 8 cfg0.N) shapeCasts_S16x1x4096_S16x4096 := by
  unfold Pipeline.afterTail₀
  show StableHlo.after hostOps1 _ (Proc.devRef .tc main_v9) = _
  after_results
  have e : Pipeline.withArrays (cfgs 0).spec c (V0 m c) (fun w => (dats 0 c).arrAt w (cfgs 0).N) (Proc.devRef .tc main_v7_1)
      = (dats 0 c).arrAt 8 cfg0.N :=
    Pipeline.withArrays_arr spec0 launch0.win.arr_inj c (V0 m c) _ 8
  rw [e]
  rfl

/-- Entry (b, d) of the first result is entry (0, 0, d) of what the body left in the pooled-vector buffer at bag b's
    last point. -/
theorem res8_apply_of (c : Dev nD) (b : Fin 16) (d : Fin 1024) :
    Pipeline.afterTail₀ cfgs dats 0 (V0 m) [hostOps1] c main_v8 (ix2 b d)
      = (dats 0 c).after 7 (lastPt b) (ix3 (0 : Fin 1) (0 : Fin 1) d) := by
  rw [res8_of, final7,
    shapeCast_apply _ shapeCasts_S16x1x1024_S16x1024 (ix2 b d) (ix3 b (0 : Fin 1) d) (by
      rw [Shape.rowMajor_val_three, Shape.rowMajor_val_two]
      show (b.val * 1 + 0) * 1024 + d.val = b.val * 1024 + d.val
      omega)]
  rfl

/-- Entry (b, j) of the second result is entry (0, 0, j) of what the body left in the attention-weights buffer at bag
    b's last point. -/
theorem res9_apply_of (c : Dev nD) (b : Fin 16) (j : Fin 4096) :
    Pipeline.afterTail₀ cfgs dats 0 (V0 m) [hostOps1] c main_v9 (ix2 b j)
      = (dats 0 c).after 8 (lastPt b) (ix3 (0 : Fin 1) (0 : Fin 1) j) := by
  rw [res9_of, final8,
    shapeCast_apply _ shapeCasts_S16x1x4096_S16x4096 (ix2 b j) (ix3 b (0 : Fin 1) j) (by
      rw [Shape.rowMajor_val_three, Shape.rowMajor_val_two]
      show (b.val * 1 + 0) * 4096 + j.val = b.val * 4096 + j.val
      omega)]
  rfl

/-- The first result as one function of its index. -/
def R8of (c : Dev nD) : S16x1024.Idx → Elt F .f32 := fun i =>
  (dats 0 c).after 7 (lastPt ⟨(i 0).val, (i 0).isLt⟩) (ix3 (0 : Fin 1) (0 : Fin 1) (⟨(i 1).val, (i 1).isLt⟩ : Fin 1024))

/-- The second result as one function of its index. -/
def R9of (c : Dev nD) : S16x4096.Idx → Elt F .f32 := fun i =>
  (dats 0 c).after 8 (lastPt ⟨(i 0).val, (i 0).isLt⟩) (ix3 (0 : Fin 1) (0 : Fin 1) (⟨(i 1).val, (i 1).isLt⟩ : Fin 4096))

theorem res8_eq_of (c : Dev nD) : Pipeline.afterTail₀ cfgs dats 0 (V0 m) [hostOps1] c main_v8 = R8of dats c := by
  funext i
  obtain ⟨b, d, rfl⟩ : ∃ (b : Fin 16) (d : Fin 1024), i = ix2 b d := ⟨i 0, i 1, eq_ix2 i⟩
  exact res8_apply_of m dats c b d

theorem res9_eq_of (c : Dev nD) : Pipeline.afterTail₀ cfgs dats 0 (V0 m) [hostOps1] c main_v9 = R9of dats c := by
  funext i
  obtain ⟨b, j, rfl⟩ : ∃ (b : Fin 16) (j : Fin 4096), i = ix2 b j := ⟨i 0, i 1, eq_ix2 i⟩
  exact res9_apply_of m dats c b j

end Tail

/-! ## The run with both results named -/

section Named

variable (m : (ℓ : Loc nD τ sig) → Buf (Elt F) ℓ) (ρ : Dev nD → PrngReg)

/-- From a run to the frame post of any data whose arrays are the region-entry contents: both results are the named
    functions of what the body left at each bag's last point, and the seven arguments end as launched. -/
theorem run_named_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ)
      (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_v8) = R8of dats c
      ∧ r.2.mem ((c.tc : Thread nD τ).loc main_v9) = R9of dats c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v8 (Pipeline.mem_restRefs_of main_v8 (by decide) (by decide))).trans (res8_eq_of m dats c),
      ((h c).2 main_v9 (Pipeline.mem_restRefs_of main_v9 (by decide) (by decide))).trans (res9_eq_of m dats c),
      ((h c).1 0).trans (((dats 0 c).arrAt_in 0 rfl _).trans ((hA c 0).trans (V_main_arg0 m c))),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c))⟩) h

end Named

/-! ## At the kernel's own proof data

The same facts for the data that records the running maximum, denominator and weighted sum point by point: the pooled
vector of bag b is the final weighted sum over the final denominator, and its attention weights are the bag's softmax
numerators against the final maximum over the final denominator, both read at the bag's last point. -/

section AtKernel

variable (m : (ℓ : Loc nD τ sig) → Buf (Elt F) ℓ) (ρ : Dev nD → PrngReg)

/-- The pooled-vector array after the run, as a function of its index: at (b, 0, d), entry (0, 0, d) of what the body
    left at point 4b + 3. -/
abbrev G7 (c : Dev nD) : S16x1x1024.Idx → Elt F .f32 := G7of (Hand.dats m 0 c)

/-- The attention-weights array after the run, as a function of its index: at (b, 0, j), entry (0, 0, j) of what the
    body left at point 4b + 3. -/
abbrev G8 (c : Dev nD) : S16x1x4096.Idx → Elt F .f32 := G8of (Hand.dats m 0 c)

theorem flushed_eq_7 (c : Dev nD) (t : Fin cfg0.N) (hf : (cfg0.win 7).flush t = true) :
    (Hand.dats m 0 c).flushed 7 t = ((cfg0.win 7).blk t).view.read (Elt F) (G7 m c) := flushed7_eq _ t hf

theorem flushed_eq_8 (c : Dev nD) (t : Fin cfg0.N) (hf : (cfg0.win 8).flush t = true) :
    (Hand.dats m 0 c).flushed 8 t = ((cfg0.win 8).blk t).view.read (Elt F) (G8 m c) := flushed8_eq _ t hf

theorem final_7 (c : Dev nD) : (Hand.dats m 0 c).arrAt 7 cfg0.N = G7 m c := final7 _

theorem final_8 (c : Dev nD) : (Hand.dats m 0 c).arrAt 8 cfg0.N = G8 m c := final8 _

theorem res8 (c : Dev nD) :
    Pipeline.afterTail₀ cfgs (Hand.dats m) 0 (V0 m) [hostOps1] c main_v8
      = shapeCast S16x1024 ((Hand.dats m 0 c).arrAt 7 cfg0.N) shapeCasts_S16x1x1024_S16x1024 := res8_of m (Hand.dats m) c

theorem res9 (c : Dev nD) :
    Pipeline.afterTail₀ cfgs (Hand.dats m) 0 (V0 m) [hostOps1] c main_v9
      = shapeCast S16x4096 ((Hand.dats m 0 c).arrAt 8 cfg0.N) shapeCasts_S16x1x4096_S16x4096 := res9_of m (Hand.dats m) c

/-- The first result at (b, d) is the pooled-vector array at (b, 0, d). -/
theorem res8_apply (c : Dev nD) (b : Fin 16) (d : Fin 1024) :
    Pipeline.afterTail₀ cfgs (Hand.dats m) 0 (V0 m) [hostOps1] c main_v8 (ix2 b d) = G7 m c (ix3 b (0 : Fin 1) d) :=
  res8_apply_of m (Hand.dats m) c b d

/-- The second result at (b, j) is the attention-weights array at (b, 0, j). -/
theorem res9_apply (c : Dev nD) (b : Fin 16) (j : Fin 4096) :
    Pipeline.afterTail₀ cfgs (Hand.dats m) 0 (V0 m) [hostOps1] c main_v9 (ix2 b j) = G8 m c (ix3 b (0 : Fin 1) j) :=
  res9_apply_of m (Hand.dats m) c b j

/-- The first result at (b, d), in the body's own terms: the final weighted sum over the final denominator. -/
theorem res8_pay (c : Dev nD) (b : Fin 16) (d : Fin 1024) :
    Pipeline.afterTail₀ cfgs (Hand.dats m) 0 (V0 m) [hostOps1] c main_v8 (ix2 b d)
      = k0_pay9 (Hand.tripAt m c (lastPt b).val (lastPt b).isLt).2.1 (Hand.tripAt m c (lastPt b).val (lastPt b).isLt).2.2
          (ix3 (0 : Fin 1) (0 : Fin 1) d) := by
  rw [res8_apply_of, Hand.after_7]

/-- The second result at (b, j), in the body's own terms: the bag's numerators against the final maximum, over the
    final denominator. -/
theorem res9_pay (c : Dev nD) (b : Fin 16) (j : Fin 4096) :
    Pipeline.afterTail₀ cfgs (Hand.dats m) 0 (V0 m) [hostOps1] c main_v9 (ix2 b j)
      = k0_pay10 (Hand.tripAt m c (lastPt b).val (lastPt b).isLt).2.1 (Hand.bagLogits m c (lastPt b))
          (Hand.tripAt m c (lastPt b).val (lastPt b).isLt).1 (ix3 (0 : Fin 1) (0 : Fin 1) j) := by
  rw [res9_apply_of, Hand.after_8]

/-- The kernel's run with both results named and the arguments unchanged, from its run to the frame post. -/
theorem run_named_at
    (h : θ_run defs (onTc (τ := τ) (main (F := F))) (s₀ m ρ)
      (Pipeline.FramePost cfgs (Hand.dats m) 0 (Pipeline.afterTail₀ cfgs (Hand.dats m) 0 (V0 m) [hostOps1]))) :
    θ_run defs (onTc (τ := τ) (main (F := F))) ⟨m, fun _ => 0, ρ⟩ (fun r => ∀ c : Dev nD,
      r.2.mem ((c.tc : Thread nD τ).loc main_v8) = R8of (Hand.dats m) c
      ∧ r.2.mem ((c.tc : Thread nD τ).loc main_v9) = R9of (Hand.dats m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_named_of m ρ (Hand.dats m) (Hand.A_eq m) h

end AtKernel

end Cert.KernelIdeal.PoolArrays

end
-- ==== Proof.Spec.lean ====
/-
  Gated attention pooling over one bag of 4096 instances with 1024 features each, stated index by index on the
  extended reals: the hidden gate tanh(x·Wv + bv) · σ(x·Wu + bu), the attention logit of an instance, the softmax of
  the logits over the instances, and the pooled feature vector. Two presentations of the softmax are given: the direct
  one (subtract the bag's maximum, exponentiate, divide by the sum), and the streaming one, which visits the instances
  in four tiles of 1024 and carries a running maximum, a running denominator and a running weighted sum, rescaling the
  latter two by exp(old maximum − new maximum) at each tile.
-/
import Idealize.ShloMosaic.PureOps.Ideal
import Idealize.ShloMosaic.PureOps.Ideal.Laws

noncomputable section

namespace GatedPool

open Idealize.ShloMosaic

/-! ## The logits -/

section Logits

variable (X : Fin 4096 → Fin 1024 → EReal) (Wv Wu : Fin 1024 → Fin 256 → EReal) (bv bu Ww : Fin 256 → EReal) (bw : EReal)

/-- The gated hidden activation of instance `j` at hidden unit `h`. -/
def gate (j : Fin 4096) (h : Fin 256) : EReal :=
  Ideal.tanh ((∑ d, X j d * Wv d h) + bv h) * Ideal.logistic ((∑ d, X j d * Wu d h) + bu h)

/-- The attention logit of instance `j`. -/
def logit (j : Fin 4096) : EReal := (∑ h, gate X Wv Wu bv bu j h * Ww h) + bw

end Logits

/-! ## The softmax over the bag and the pooled features, directly -/

section Direct

variable (L : Fin 4096 → EReal) (X : Fin 4096 → Fin 1024 → EReal)

/-- The bag's largest logit. -/
def top : EReal := max ⊥ (Finset.univ.fold max ⊥ L)

/-- The softmax numerator of instance `j`. -/
def num (j : Fin 4096) : EReal := Ideal.exp (L j - top L)

/-- The softmax denominator. -/
def den : EReal := 0 + ∑ j, num L j

/-- The attention weight of instance `j`. -/
def weight (j : Fin 4096) : EReal := Ideal.div (num L j) (den L)

/-- Feature `d` of the pooled vector. -/
def pooled (d : Fin 1024) : EReal := 0 + ∑ j, X j d * weight L j

end Direct

/-! ## The same, streamed over four tiles -/

section Streamed

/-- Slot `j` of tile `k` is instance `1024·k + j`. -/
def inst (k : Fin 4) (j : Fin 1024) : Fin 4096 := ⟨1024 * k.val + j.val, by have := k.isLt; have := j.isLt; omega⟩

/-- One tile's update of the running maximum, the running denominator and the running weighted sum, from the tile's
    logits `x` and features `f`. -/
def step (x : Fin 1024 → EReal) (f : Fin 1024 → Fin 1024 → EReal) (s : EReal × EReal × (Fin 1024 → EReal)) :
    EReal × EReal × (Fin 1024 → EReal) :=
  (max s.1 (Finset.univ.fold max ⊥ x),
   Ideal.exp (s.1 - max s.1 (Finset.univ.fold max ⊥ x)) * s.2.1 + ∑ j, Ideal.exp (x j - max s.1 (Finset.univ.fold max ⊥ x)),
   fun d => Ideal.exp (s.1 - max s.1 (Finset.univ.fold max ⊥ x)) * s.2.2 d
              + ∑ j, Ideal.exp (x j - max s.1 (Finset.univ.fold max ⊥ x)) * f j d)

variable (L : Fin 4096 → EReal) (X : Fin 4096 → Fin 1024 → EReal)

/-- The running triple after the first `n` tiles (all four once `n ≥ 4`), from (−∞, 0, 0). -/
def run : ℕ → EReal × EReal × (Fin 1024 → EReal)
  | 0 => (⊥, 0, fun _ => 0)
  | n + 1 => if h : n < 4 then step (fun j => L (inst ⟨n, h⟩ j)) (fun j d => X (inst ⟨n, h⟩ j) d) (run n) else run n

/-- The streamed attention weight of instance `j`: its numerator against the final maximum, times the reciprocal of the
    final denominator. -/
def weightS (j : Fin 4096) : EReal := Ideal.exp (L j - (run L X 4).1) * Ideal.div 1 (run L X 4).2.1

/-- Feature `d` of the streamed pooled vector. -/
def pooledS (d : Fin 1024) : EReal := (run L X 4).2.2 d * Ideal.div 1 (run L X 4).2.1

end Streamed

end GatedPool

end
-- ==== Proof.PayloadAt.lean ====
/-
  The arithmetic of the streamed gated-attention-pooling kernel, read one element at a time on the extended reals.
  Each value the kernel's body stores or carries is a pure term of the vectors it has loaded; here every such term is
  evaluated at an index given by coordinates: the tile's features with the unit batch axis dropped, the tile's attention
  logits (two bias-added products of the features with the hidden weights, through tanh and the logistic function, then
  the product with the output weights plus its bias), the running maximum, the rescaled running denominator and weighted
  sum, and at the last tile the reciprocal of the denominator applied to the weighted sum and to the stored logits'
  exponentials. Layout operations (shape casts, broadcasts of a [1,1] vector along a row) are read through first.
-/
import proofs.«129396_j54546084659650_2_alg».proof.Proof.Gen.KernelIdeal.Skeleton
import proofs.«129396_j54546084659650_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx

/-! ## Two bit patterns -/

/-- The pattern `0x3F800000` is the real number one. -/
theorem one_f32 : Ideal.ofBits .f32 0x3F800000#32 = 1 := IdealRules.sign_bit.ideal_onePat .f32

/-- The pattern `0xFF800000` (sign set, exponent all ones, fraction zero) is minus infinity. -/
theorem negInf_f32 : Ideal.ofBits .f32 0xFF800000#32 = ⊥ := by
  simp [Ideal.ofBits, Ideal.ieee]

/-! ## Layout operations and one-axis reductions of a single row, read at coordinates -/

/-- A `[1, 1]` vector broadcast along a row reads its one element everywhere. -/
theorem broadcastTo_11_1n_apply {α : Type} {n : ℕ} (v : (⟨2, ![1, 1]⟩ : Shape).Idx → α)
    (h : (⟨2, ![1, 1]⟩ : Shape).Broadcasts ⟨2, ![1, n]⟩) (u : Fin 1) (c : Fin n) :
    broadcastTo ⟨2, ![1, n]⟩ v h (ix2 u c) = v (ix2 (0 : Fin 1) (0 : Fin 1)) := by
  refine broadcastTo_apply v h (ix2 u c) (ix2 (0 : Fin 1) (0 : Fin 1)) fun ax => ?_
  match ax with
  | ⟨0, _⟩ => rfl
  | ⟨1, _⟩ => rfl

/-- The maximum of a `[1, n]` row over its lanes, from minus infinity: the fold of `max` over the lane coordinate. -/
theorem rowMax_apply {n : ℕ} (v : FVec Ideal ⟨2, ![1, n]⟩ .f32) (h : (⟨2, ![1, n]⟩ : Shape).Reduces [1] ⟨1, ![1]⟩)
    (hφ : FKind.Formats .f32) (hacc : (0xFF800000#32 : BitVec 32) = FKind.maximumf.neutral .f32 hφ) :
    multiReduction (F := Ideal) .maximumf [1] ⟨1, ![1]⟩ v 0xFF800000#32 h hφ hacc (ix1 (0 : Fin 1))
      = Finset.univ.fold max ⊥ fun j : Fin n => v (ix2 (0 : Fin 1) j) := by
  refine (Ideal.multiReduction_maximumf_single v _ h hφ hacc (ix1 (0 : Fin 1))).trans ?_
  show (Finset.univ : Finset (Fin n)).fold max (Ideal.ofBits .f32 0xFF800000#32) (v ∘ h.lift (ix1 (0 : Fin 1))) = _
  rw [negInf_f32]
  refine congrArg (fun f => (Finset.univ : Finset (Fin n)).fold max ⊥ f) (funext fun k => ?_)
  exact congrArg v (funext fun a => Fin.ext (by match a with | ⟨0, _⟩ => rfl | ⟨1, _⟩ => rfl))

/-- The sum of a `[1, n]` row over its lanes: the sum over the lane coordinate. -/
theorem rowSum_apply {n : ℕ} (v : FVec Ideal ⟨2, ![1, n]⟩ .f32) (h : (⟨2, ![1, n]⟩ : Shape).Reduces [1] ⟨1, ![1]⟩)
    (hφ : FKind.Formats .f32) (hacc : (0x00000000#32 : BitVec 32) = FKind.add.neutral .f32 hφ) :
    multiReduction (F := Ideal) .add [1] ⟨1, ![1]⟩ v 0x00000000#32 h hφ hacc (ix1 (0 : Fin 1))
      = ∑ j : Fin n, v (ix2 (0 : Fin 1) j) := by
  refine (Ideal.multiReduction_add_single v _ h hφ hacc (ix1 (0 : Fin 1))).trans ?_
  refine Finset.sum_congr rfl fun k _ => ?_
  exact congrArg v (funext fun a => Fin.ext (by match a with | ⟨0, _⟩ => rfl | ⟨1, _⟩ => rfl))

/-! ## The tile's features and the values the first tile initialises -/

/-- The tile's features with the unit batch axis dropped. -/
theorem pay14_apply (x0 : Vec Ideal S1x1024x1024 .f32) (j d : Fin 1024) :
    k0_pay14 x0 (ix2 j d) = x0 (ix3 (0 : Fin 1) j d) := by
  unfold k0_pay14
  exact shapeCast_1ab_ab_apply x0 _ j d

/-- The running maximum starts at minus infinity. -/
theorem pay11_apply : k0_pay11 (F := Ideal) (ix2 (0 : Fin 1) (0 : Fin 1)) = ⊥ := by
  unfold k0_pay11
  refine (congrFun (shapeCast_self _ _) _).trans ?_
  exact negInf_f32

/-- The running denominator starts at zero. -/
theorem pay12_apply : k0_pay12 (F := Ideal) (ix2 (0 : Fin 1) (0 : Fin 1)) = 0 := by
  unfold k0_pay12
  refine (congrFun (shapeCast_self _ _) _).trans ?_
  exact Ideal.ofBits_zero_f32

/-- The running weighted sum starts at zero. -/
theorem pay13_apply (d : Fin 1024) : k0_pay13 (F := Ideal) (ix2 (0 : Fin 1) d) = 0 := by
  unfold k0_pay13
  refine (congrFun (shapeCast_self _ _) _).trans ?_
  exact Ideal.ofBits_zero_f32

/-! ## One tile's update of the running maximum and denominator -/

/-- The stored logits of the tile are the logits. -/
theorem pay1_apply (LG : FVec Ideal S1x1024 .f32) (j : Fin 1024) :
    k0_pay1 LG (ix2 (0 : Fin 1) j) = LG (ix2 (0 : Fin 1) j) := by
  unfold k0_pay1
  exact congrFun (shapeCast_self _ _) _

/-- The new running maximum: the old one against the largest logit of the tile. -/
def mx (LG : FVec Ideal S1x1024 .f32) (m : Vec Ideal S1x1 .f32) : EReal :=
  max (m (ix2 (0 : Fin 1) (0 : Fin 1))) (Finset.univ.fold max ⊥ fun j : Fin 1024 => LG (ix2 (0 : Fin 1) j))

theorem pay2_apply (LG : FVec Ideal S1x1024 .f32) (m : Vec Ideal S1x1 .f32) :
    k0_pay2 LG m (ix2 (0 : Fin 1) (0 : Fin 1)) = mx LG m := by
  unfold k0_pay2 mx
  refine congrArg (max (m (ix2 (0 : Fin 1) (0 : Fin 1)))) ?_
  refine (shapeCast_a_1a_apply _ _ (0 : Fin 1) (0 : Fin 1)).trans ?_
  exact rowMax_apply LG _ _ _

theorem pay5_apply (LG : FVec Ideal S1x1024 .f32) (m : Vec Ideal S1x1 .f32) :
    k0_pay5 LG m (ix2 (0 : Fin 1) (0 : Fin 1)) = mx LG m := by
  unfold k0_pay5
  exact (congrFun (shapeCast_self _ _) _).trans (pay2_apply LG m)

/-- The factor that rescales what was accumulated against the old maximum. -/
theorem pay3_apply (LG : FVec Ideal S1x1024 .f32) (m : Vec Ideal S1x1 .f32) :
    k0_pay3 LG m (ix2 (0 : Fin 1) (0 : Fin 1)) = Ideal.exp (m (ix2 (0 : Fin 1) (0 : Fin 1)) - mx LG m) := by
  unfold k0_pay3
  exact congrArg (fun t => Ideal.exp (m (ix2 (0 : Fin 1) (0 : Fin 1)) - t)) (pay2_apply LG m)

/-- The tile's softmax numerators against the new maximum. -/
theorem pay4_apply (LG : FVec Ideal S1x1024 .f32) (m : Vec Ideal S1x1 .f32) (j : Fin 1024) :
    k0_pay4 LG m (ix2 (0 : Fin 1) j) = Ideal.exp (LG (ix2 (0 : Fin 1) j) - mx LG m) := by
  unfold k0_pay4
  refine congrArg (fun t => Ideal.exp (LG (ix2 (0 : Fin 1) j) - t)) ?_
  exact (broadcastTo_11_1n_apply _ _ (0 : Fin 1) j).trans (pay2_apply LG m)

/-- The new running denominator. -/
theorem pay6_apply (LG : FVec Ideal S1x1024 .f32) (m l : Vec Ideal S1x1 .f32) :
    k0_pay6 LG m l (ix2 (0 : Fin 1) (0 : Fin 1))
      = Ideal.exp (m (ix2 (0 : Fin 1) (0 : Fin 1)) - mx LG m) * l (ix2 (0 : Fin 1) (0 : Fin 1))
        + ∑ j : Fin 1024, Ideal.exp (LG (ix2 (0 : Fin 1) j) - mx LG m) := by
  unfold k0_pay6
  refine (congrFun (shapeCast_self _ _) _).trans ?_
  refine congrArg₂ (· + ·) (congrArg (· * l (ix2 (0 : Fin 1) (0 : Fin 1))) (pay3_apply LG m)) ?_
  refine (shapeCast_a_1a_apply _ _ (0 : Fin 1) (0 : Fin 1)).trans ?_
  refine (rowSum_apply (k0_pay4 LG m) _ _ _).trans ?_
  exact Finset.sum_congr rfl fun j _ => pay4_apply LG m j

/-! ## The last tile's normalisation -/

/-- The reciprocal of the final denominator. -/
theorem pay8_apply (l : Vec Ideal S1x1 .f32) :
    k0_pay8 l (ix2 (0 : Fin 1) (0 : Fin 1)) = Ideal.div (Ideal.ofBits .f32 0x3F800000#32) (l (ix2 (0 : Fin 1) (0 : Fin 1))) := rfl

/-- The pooled features: the final weighted sum times that reciprocal. -/
theorem pay9_apply (l : Vec Ideal S1x1 .f32) (a : Vec Ideal S1x1024 .f32) (d : Fin 1024) :
    k0_pay9 l a (ix3 (0 : Fin 1) (0 : Fin 1) d)
      = a (ix2 (0 : Fin 1) d) * Ideal.div (Ideal.ofBits .f32 0x3F800000#32) (l (ix2 (0 : Fin 1) (0 : Fin 1))) := by
  unfold k0_pay9
  refine (shapeCast_ab_1ab_apply _ _ (0 : Fin 1) (0 : Fin 1) d).trans ?_
  refine congrArg (a (ix2 (0 : Fin 1) d) * ·) ?_
  exact (broadcastTo_11_1n_apply _ _ (0 : Fin 1) d).trans (pay8_apply l)

/-- The attention weights: each stored logit's exponential against the final maximum, times that reciprocal. -/
theorem pay10_apply (l : Vec Ideal S1x1 .f32) (buf : Vec Ideal S1x4096 .f32) (m : Vec Ideal S1x1 .f32) (j : Fin 4096) :
    k0_pay10 l buf m (ix3 (0 : Fin 1) (0 : Fin 1) j)
      = Ideal.exp (buf (ix2 (0 : Fin 1) j) - m (ix2 (0 : Fin 1) (0 : Fin 1)))
        * Ideal.div (Ideal.ofBits .f32 0x3F800000#32) (l (ix2 (0 : Fin 1) (0 : Fin 1))) := by
  unfold k0_pay10
  refine (shapeCast_ab_1ab_apply _ _ (0 : Fin 1) (0 : Fin 1) j).trans ?_
  refine congrArg₂ (· * ·) ?_ ?_
  · exact congrArg (fun t => Ideal.exp (buf (ix2 (0 : Fin 1) j) - t)) (broadcastTo_11_1n_apply _ _ (0 : Fin 1) j)
  · exact (broadcastTo_11_1n_apply _ _ (0 : Fin 1) j).trans (pay8_apply l)

/-! ## The three matrix products, read at an index

Each has one contracted axis; the contraction index is re-indexed through that axis's coordinate, and the operands'
indices at an output index and a contraction coordinate are written out by coordinates. First, on each operand's
axis that is not contracted, the operand's coordinate is the output's. -/

theorem feat_lhs (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem feat_rhs (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

theorem out_lhs (i : S1x1024.Idx) (q : dot_S1x256_S1024x256_S1x1024_1_1_0_0_n_n.contr.Idx) :
    (dot_S1x256_S1024x256_S1x1024_1_1_0_0_n_n.lhsIdx i q 0).val = (i 0).val := by
  unfold DotDims.lhsIdx
  rw [dif_neg (show ¬(0 : Fin S1x256.rank) ∈ dot_S1x256_S1024x256_S1x1024_1_1_0_0_n_n.lhsBatch by decide), dif_pos (show (0 : Fin S1x256.rank) ∈ dot_S1x256_S1024x256_S1x1024_1_1_0_0_n_n.lhsNonContracting by decide)]
  rfl
theorem out_rhs (i : S1x1024.Idx) (q : dot_S1x256_S1024x256_S1x1024_1_1_0_0_n_n.contr.Idx) :
    (dot_S1x256_S1024x256_S1x1024_1_1_0_0_n_n.rhsIdx i q 0).val = (i 1).val := by
  unfold DotDims.rhsIdx
  rw [dif_neg (show ¬(0 : Fin S1024x256.rank) ∈ dot_S1x256_S1024x256_S1x1024_1_1_0_0_n_n.rhsBatch by decide), dif_pos (show (0 : Fin S1024x256.rank) ∈ dot_S1x256_S1024x256_S1x1024_1_1_0_0_n_n.rhsNonContracting by decide)]
  rfl

theorem pool_lhs (i : S1x1024.Idx) (q : dot_S1x1024_S1024x1024_S1x1024_1_0_0_1_n_n.contr.Idx) :
    (dot_S1x1024_S1024x1024_S1x1024_1_0_0_1_n_n.lhsIdx i q 0).val = (i 0).val := by
  unfold DotDims.lhsIdx
  rw [dif_neg (show ¬(0 : Fin S1x1024.rank) ∈ dot_S1x1024_S1024x1024_S1x1024_1_0_0_1_n_n.lhsBatch by decide), dif_pos (show (0 : Fin S1x1024.rank) ∈ dot_S1x1024_S1024x1024_S1x1024_1_0_0_1_n_n.lhsNonContracting by decide)]
  rfl
theorem pool_rhs (i : S1x1024.Idx) (q : dot_S1x1024_S1024x1024_S1x1024_1_0_0_1_n_n.contr.Idx) :
    (dot_S1x1024_S1024x1024_S1x1024_1_0_0_1_n_n.rhsIdx i q 1).val = (i 1).val := by
  unfold DotDims.rhsIdx
  rw [dif_neg (show ¬(1 : Fin S1024x1024.rank) ∈ dot_S1x1024_S1024x1024_S1x1024_1_0_0_1_n_n.rhsBatch by decide), dif_pos (show (1 : Fin S1024x1024.rank) ∈ dot_S1x1024_S1024x1024_S1x1024_1_0_0_1_n_n.rhsNonContracting by decide)]
  rfl

/-- A `[1024, 1024]` matrix times a `[1024, 256]` matrix, into zero. -/
theorem matmulFeat_apply {φ₁ φ₂ : FTy} (prec : Option ContractPrecision) (A : FVec Ideal S1024x1024 φ₁) (B : FVec Ideal S1024x256 φ₂)
    (j : Fin 1024) (h : Fin 256) :
    matmul dot_S1024x1024_S1024x256_S1024x256_1_0_0_1_n_n prec A B (constant (F := Ideal) S1024x256 .f32 0x00000000#32) (ix2 j h)
      = ∑ d : Fin 1024, A (ix2 j d) * B (ix2 d h) := by
  simp only [matmul]
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 j h) ((contrEquiv1 dot_S1024x1024_S1024x256_S1024x256_1_0_0_1_n_n 1024 rfl rfl).symm k) = ix2 j k := funext fun a => Fin.ext (by
    match a with
    | ⟨0, _⟩ => exact feat_lhs _ _
    | ⟨1, _⟩ => exact (dot_S1024x1024_S1024x256_S1024x256_1_0_0_1_n_n.lhsIdx_val_of_single rfl _ _).trans hk)
  have er : dot_S1024x1024_S1024x256_S1024x256_1_0_0_1_n_n.rhsIdx (ix2 j h) ((contrEquiv1 dot_S1024x1024_S1024x256_S1024x256_1_0_0_1_n_n 1024 rfl rfl).symm k) = ix2 k h := funext fun a => Fin.ext (by
    match a with
    | ⟨0, _⟩ => exact (dot_S1024x1024_S1024x256_S1024x256_1_0_0_1_n_n.rhsIdx_val_of_single rfl _ _).trans hk
    | ⟨1, _⟩ => exact feat_rhs _ _)
  rw [el, er]

/-- A `[1, 256]` row against the rows of a `[1024, 256]` matrix (both contracted along their second axis), into zero. -/
theorem matmulOut_apply {φ₁ φ₂ : FTy} (prec : Option ContractPrecision) (A : FVec Ideal S1x256 φ₁) (B : FVec Ideal S1024x256 φ₂)
    (j : Fin 1024) :
    matmul dot_S1x256_S1024x256_S1x1024_1_1_0_0_n_n prec A B (constant (F := Ideal) S1x1024 .f32 0x00000000#32) (ix2 (0 : Fin 1) j)
      = ∑ h : Fin 256, A (ix2 (0 : Fin 1) h) * B (ix2 j h) := by
  simp only [matmul]
  rw [Ideal.matmul_constant_zero_apply, ← Equiv.sum_comp (contrEquiv1 dot_S1x256_S1024x256_S1x1024_1_1_0_0_n_n 256 rfl rfl).symm]
  refine Finset.sum_congr rfl fun k _ => ?_
  have hk := contrEquiv1_symm_val dot_S1x256_S1024x256_S1x1024_1_1_0_0_n_n 256 rfl rfl k
  have el : dot_S1x256_S1024x256_S1x1024_1_1_0_0_n_n.lhsIdx (ix2 (0 : Fin 1) j) ((contrEquiv1 dot_S1x256_S1024x256_S1x1024_1_1_0_0_n_n 256 rfl rfl).symm k) = ix2 (0 : Fin 1) k := funext fun a => Fin.ext (by
    match a with
    | ⟨0, _⟩ => exact out_lhs _ _
    | ⟨1, _⟩ => exact (dot_S1x256_S1024x256_S1x1024_1_1_0_0_n_n.lhsIdx_val_of_single rfl _ _).trans hk)
  have er : dot_S1x256_S1024x256_S1x1024_1_1_0_0_n_n.rhsIdx (ix2 (0 : Fin 1) j) ((contrEquiv1 dot_S1x256_S1024x256_S1x1024_1_1_0_0_n_n 256 rfl rfl).symm k) = ix2 j k := funext fun a => Fin.ext (by
    match a with
    | ⟨0, _⟩ => exact out_rhs _ _
    | ⟨1, _⟩ => exact (dot_S1x256_S1024x256_S1x1024_1_1_0_0_n_n.rhsIdx_val_of_single rfl _ _).trans hk)
  rw [el, er]

/-- A `[1, 1024]` row times a `[1024, 1024]` matrix, into zero. -/
theorem matmulPool_apply {φ₁ φ₂ : FTy} (prec : Option ContractPrecision) (A : FVec Ideal S1x1024 φ₁) (B : FVec Ideal S1024x1024 φ₂)
    (d : Fin 1024) :
    matmul dot_S1x1024_S1024x1024_S1x1024_1_0_0_1_n_n prec A B (constant (F := Ideal) S1x1024 .f32 0x00000000#32) (ix2 (0 : Fin 1) d)
      = ∑ j : Fin 1024, A (ix2 (0 : Fin 1) j) * B (ix2 j d) := by
  simp only [matmul]
  rw [Ideal.matmul_constant_zero_apply, ← Equiv.sum_comp (contrEquiv1 dot_S1x1024_S1024x1024_S1x1024_1_0_0_1_n_n 1024 rfl rfl).symm]
  refine Finset.sum_congr rfl fun k _ => ?_
  have hk := contrEquiv1_symm_val dot_S1x1024_S1024x1024_S1x1024_1_0_0_1_n_n 1024 rfl rfl k
  have el : dot_S1x1024_S1024x1024_S1x1024_1_0_0_1_n_n.lhsIdx (ix2 (0 : Fin 1) d) ((contrEquiv1 dot_S1x1024_S1024x1024_S1x1024_1_0_0_1_n_n 1024 rfl rfl).symm k) = ix2 (0 : Fin 1) k := funext fun a => Fin.ext (by
    match a with
    | ⟨0, _⟩ => exact pool_lhs _ _
    | ⟨1, _⟩ => exact (dot_S1x1024_S1024x1024_S1x1024_1_0_0_1_n_n.lhsIdx_val_of_single rfl _ _).trans hk)
  have er : dot_S1x1024_S1024x1024_S1x1024_1_0_0_1_n_n.rhsIdx (ix2 (0 : Fin 1) d) ((contrEquiv1 dot_S1x1024_S1024x1024_S1x1024_1_0_0_1_n_n 1024 rfl rfl).symm k) = ix2 k d := funext fun a => Fin.ext (by
    match a with
    | ⟨0, _⟩ => exact (dot_S1x1024_S1024x1024_S1x1024_1_0_0_1_n_n.rhsIdx_val_of_single rfl _ _).trans hk
    | ⟨1, _⟩ => exact pool_rhs _ _)
  rw [el, er]

/-! ## The new running weighted sum, and the tile's logits -/

/-- The new running weighted sum. -/
theorem pay7_apply (F4 : FVec Ideal S1024x1024 .f32) (LG : FVec Ideal S1x1024 .f32) (m : Vec Ideal S1x1 .f32)
    (a : Vec Ideal S1x1024 .f32) (d : Fin 1024) :
    k0_pay7 F4 LG m a (ix2 (0 : Fin 1) d)
      = Ideal.exp (m (ix2 (0 : Fin 1) (0 : Fin 1)) - mx LG m) * a (ix2 (0 : Fin 1) d)
        + ∑ j : Fin 1024, Ideal.exp (LG (ix2 (0 : Fin 1) j) - mx LG m) * F4 (ix2 j d) := by
  unfold k0_pay7
  refine (congrFun (shapeCast_self _ _) _).trans ?_
  refine congrArg₂ (· + ·) ?_ ?_
  · refine congrArg (· * a (ix2 (0 : Fin 1) d)) ?_
    exact (broadcastTo_11_1n_apply _ _ (0 : Fin 1) d).trans (pay3_apply LG m)
  · refine (matmulPool_apply (some .fp32) (k0_pay4 LG m) F4 d).trans ?_
    exact Finset.sum_congr rfl fun j _ => congrArg (· * F4 (ix2 j d)) (pay4_apply LG m j)

/-- One hidden pre-activation: a row of the features against a column of the weights, plus the bias. -/
theorem hidden_apply (X : FVec Ideal S1024x1024 .bf16) (W : FVec Ideal S1024x256 .bf16) (b : FVec Ideal S1x256 .f32)
    (j : Fin 1024) (h : Fin 256) :
    addf (matmul dot_S1024x1024_S1024x256_S1024x256_1_0_0_1_n_n none X W (constant (F := Ideal) S1024x256 .f32 0x00000000#32))
        (broadcastTo S1024x256 b broadcasts_S1x256_S1024x256) (ix2 j h)
      = (∑ d : Fin 1024, X (ix2 j d) * W (ix2 d h)) + b (ix2 (0 : Fin 1) h) :=
  congrArg₂ (· + ·) (matmulFeat_apply none X W j h) (broadcastTo_1b_ab_apply b _ j h)

/-- The gated hidden activation, after the narrowing that is the identity on the extended reals. -/
theorem gate_apply (X : FVec Ideal S1024x1024 .bf16) (W1 W2 : FVec Ideal S1024x256 .bf16) (b1 b2 : FVec Ideal S1x256 .f32)
    (j : Fin 1024) (h : Fin 256) :
    truncf .bf16
        (mulf
          (tanh (addf (matmul dot_S1024x1024_S1024x256_S1024x256_1_0_0_1_n_n none X W1 (constant (F := Ideal) S1024x256 .f32 0x00000000#32))
            (broadcastTo S1024x256 b1 broadcasts_S1x256_S1024x256)))
          (logistic (addf (matmul dot_S1024x1024_S1024x256_S1024x256_1_0_0_1_n_n none X W2 (constant (F := Ideal) S1024x256 .f32 0x00000000#32))
            (broadcastTo S1024x256 b2 broadcasts_S1x256_S1024x256))))
        bitsLt_bf16_f32 (ix2 j h)
      = Ideal.tanh ((∑ d : Fin 1024, X (ix2 j d) * W1 (ix2 d h)) + b1 (ix2 (0 : Fin 1) h))
          * Ideal.logistic ((∑ d : Fin 1024, X (ix2 j d) * W2 (ix2 d h)) + b2 (ix2 (0 : Fin 1) h)) :=
  congrArg₂ (fun s t => Ideal.tanh s * Ideal.logistic t) (hidden_apply X W1 b1 j h) (hidden_apply X W2 b2 j h)

/-- The attention logit of slot `j` of the tile. -/
theorem pay15_apply (x0 : Vec Ideal S1x1024x1024 .f32) (x1 : Vec Ideal S1024x256 .bf16) (x2 : Vec Ideal S1x256 .f32)
    (x3 : Vec Ideal S1024x256 .bf16) (x4 : Vec Ideal S1x256 .f32) (x5 : Vec Ideal S1x256 .bf16) (x6 : Vec Ideal S1x1 .f32)
    (j : Fin 1024) :
    k0_pay15 x0 x1 x2 x3 x4 x5 x6 (ix2 (0 : Fin 1) j)
      = (∑ h : Fin 256, x5 (ix2 (0 : Fin 1) h)
            * (Ideal.tanh ((∑ d : Fin 1024, x0 (ix3 (0 : Fin 1) j d) * x1 (ix2 d h)) + x2 (ix2 (0 : Fin 1) h))
                * Ideal.logistic ((∑ d : Fin 1024, x0 (ix3 (0 : Fin 1) j d) * x3 (ix2 d h)) + x4 (ix2 (0 : Fin 1) h))))
        + x6 (ix2 (0 : Fin 1) (0 : Fin 1)) := by
  unfold k0_pay15
  refine congrArg₂ (· + ·) ?_ ((broadcastTo_11_1n_apply _ _ (0 : Fin 1) j).trans (congrFun (shapeCast_self _ _) _))
  refine (matmulOut_apply none _ _ j).trans ?_
  refine Finset.sum_congr rfl fun h _ => ?_
  refine congrArg₂ (· * ·) (congrFun (shapeCast_self _ _) _) ?_
  refine (gate_apply _ _ _ _ _ j h).trans ?_
  simp only [shapeCast_self, truncf_apply, pay14_apply]

end Cert.KernelIdeal.PayValue

end
-- ==== Proof.BlockRead.lean ====
/-
  Where the pooling kernel's input blocks come from. The region finds each input array either as launched (the features)
  or as a host operation left it just before: the two hidden-layer weight matrices and the attention vector narrowed in
  format (the identity on the extended reals), the attention vector first transposed from a column to a row, and the three
  biases reshaped from vectors to one-row matrices. Point t of the 16 × 4 grid is tile t mod 4 of bag t / 4: its block
  of the features is rows 1024·(t mod 4) … 1024·(t mod 4) + 1023 of bag t / 4, and its block of every other input is the
  whole array. Here each block is read at an index as an entry of an argument array.
-/
import proofs.«129396_j54546084659650_2_alg».proof.Proof.Gen.KernelIdeal.Frame
import Idealize.ShloMosaic.Lib.ValueIdx
import Idealize.ShloMosaic.Lib.ValueLayout
import Idealize.ShloMosaic.Lib.Pipeline.Value
import proofs.«129396_j54546084659650_2_alg».proof.Proof.Spec

set_option maxRecDepth 16384

noncomputable section

namespace Cert.KernelIdeal.PoolBridge

open Cert.KernelIdeal Cert.KernelIdeal.Gen
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (c : Dev nD)

/-! ## The grid -/

/-- A point's number is below 64. -/
theorem pt_lt (t : Fin cfg0.N) : t.val < 64 := lt_of_lt_of_eq t.isLt N_0

/-- The bag a point belongs to. -/
def bagOf (t : Fin cfg0.N) : Fin 16 := ⟨t.val / 4, by have := pt_lt t; omega⟩

/-- The tile of its bag a point visits. -/
def tileOf (t : Fin cfg0.N) : Fin 4 := ⟨t.val % 4, Nat.mod_lt _ (by norm_num)⟩

/-- The printed index maps, decided over the grid: the features' block index is (bag, tile, 0); every other input's
    is (0, 0). -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The arrays the region finds, from the arguments -/

theorem V_v0 : (V m c main_v0 : S1024x256.Idx → EReal)
    = truncf (F := Ideal) .bf16 (m ((c : Thread nD τ).loc main_arg1)) bitsLt_bf16_f32 := by
  show StableHlo.after hostOps0 (fun b => m (c, b)) (Proc.devRef .tc main_v0) = _
  after_results

theorem V_v1 : (V m c main_v1 : S1024x256.Idx → EReal)
    = truncf (F := Ideal) .bf16 (m ((c : Thread nD τ).loc main_arg3)) bitsLt_bf16_f32 := by
  show StableHlo.after hostOps0 (fun b => m (c, b)) (Proc.devRef .tc main_v1) = _
  after_results

theorem V_v3 : (V m c main_v3 : S1x256.Idx → EReal)
    = truncf (F := Ideal) .bf16 (transpose S1x256 [1, 0] (m ((c : Thread nD τ).loc main_arg5)) transposes_S256x1_S1x256_1_0) bitsLt_bf16_f32 := by
  show StableHlo.after hostOps0 (fun b => m (c, b)) (Proc.devRef .tc main_v3) = _
  after_results

theorem V_v4 : (V m c main_v4 : S1x256.Idx → EReal)
    = shapeCast S1x256 (m ((c : Thread nD τ).loc main_arg2)) shapeCasts_S256_S1x256 := by
  show StableHlo.after hostOps0 (fun b => m (c, b)) (Proc.devRef .tc main_v4) = _
  after_results
  rfl

theorem V_v5 : (V m c main_v5 : S1x256.Idx → EReal)
    = shapeCast S1x256 (m ((c : Thread nD τ).loc main_arg4)) shapeCasts_S256_S1x256 := by
  show StableHlo.after hostOps0 (fun b => m (c, b)) (Proc.devRef .tc main_v5) = _
  after_results
  rfl

theorem V_v6 : (V m c main_v6 : S1x1.Idx → EReal)
    = shapeCast S1x1 (m ((c : Thread nD τ).loc main_arg6)) shapeCasts_S1_S1x1 := by
  show StableHlo.after hostOps0 (fun b => m (c, b)) (Proc.devRef .tc main_v6) = _
  after_results
  rfl

/-! ## Each input block at an index -/

/-- The features' block: slot `j` of the tile is instance `1024·(t mod 4) + j` of bag `t / 4`. -/
theorem iblk0_apply (t : Fin cfg0.N) (j d : Fin 1024) :
    iblk m c 0 t (ix3 (0 : Fin 1) j d) = m ((c : Thread nD τ).loc main_arg0) (ix3 (bagOf t) (GatedPool.inst (tileOf t) j) d) := by
  obtain ⟨e0, e1, e2, -⟩ := idx_facts t
  show V m c main_arg0 (((cfg0.win 0).blk t).view.emb (ix3 (0 : Fin 1) j d)) = _
  rw [V_main_arg0]
  refine congrArg (m ((c : Thread nD τ).loc main_arg0)) (funext fun a => Fin.ext ?_)
  match a with
  | ⟨0, _⟩ => show win0_0.index t (0 : Fin 3) * 1 + 1 * 0 = t.val / 4; omega
  | ⟨1, _⟩ => show win0_0.index t (1 : Fin 3) * 1024 + 1 * j.val = 1024 * (t.val % 4) + j.val; omega
  | ⟨2, _⟩ => show win0_0.index t (2 : Fin 3) * 1024 + 1 * d.val = d.val; omega

/-- The tanh branch's weights. -/
theorem iblk1_apply (t : Fin cfg0.N) (d : Fin 1024) (h : Fin 256) :
    iblk m c 1 t (ix2 d h) = m ((c : Thread nD τ).loc main_arg1) (ix2 d h) := by
  obtain ⟨-, -, -, e0, e1, -⟩ := idx_facts t
  show V m c main_v0 (((cfg0.win 1).blk t).view.emb (ix2 d h)) = _
  rw [V_v0]
  refine congrArg (m ((c : Thread nD τ).loc main_arg1)) (funext fun a => Fin.ext ?_)
  match a with
  | ⟨0, _⟩ => show win0_1.index t (0 : Fin 2) * 1024 + 1 * d.val = d.val; omega
  | ⟨1, _⟩ => show win0_1.index t (1 : Fin 2) * 256 + 1 * h.val = h.val; omega

/-- The tanh branch's bias. -/
theorem iblk2_apply (t : Fin cfg0.N) (h : Fin 256) :
    iblk m c 2 t (ix2 (0 : Fin 1) h) = m ((c : Thread nD τ).loc main_arg2) (ix1 h) := by
  obtain ⟨-, -, -, -, -, e0, e1, -⟩ := idx_facts t
  show V m c main_v4 (((cfg0.win 2).blk t).view.emb (ix2 (0 : Fin 1) h)) = _
  rw [V_v4]
  refine Eq.trans (congrArg _ (funext fun a => Fin.ext ?_)) (shapeCast_a_1a_apply _ _ (0 : Fin 1) h)
  match a with
  | ⟨0, _⟩ => show win0_2.index t (0 : Fin 2) * 1 + 1 * 0 = 0; omega
  | ⟨1, _⟩ => show win0_2.index t (1 : Fin 2) * 256 + 1 * h.val = h.val; omega

/-- The sigmoid branch's weights. -/
theorem iblk3_apply (t : Fin cfg0.N) (d : Fin 1024) (h : Fin 256) :
    iblk m c 3 t (ix2 d h) = m ((c : Thread nD τ).loc main_arg3) (ix2 d h) := by
  obtain ⟨-, -, -, -, -, -, -, e0, e1, -⟩ := idx_facts t
  show V m c main_v1 (((cfg0.win 3).blk t).view.emb (ix2 d h)) = _
  rw [V_v1]
  refine congrArg (m ((c : Thread nD τ).loc main_arg3)) (funext fun a => Fin.ext ?_)
  match a with
  | ⟨0, _⟩ => show win0_3.index t (0 : Fin 2) * 1024 + 1 * d.val = d.val; omega
  | ⟨1, _⟩ => show win0_3.index t (1 : Fin 2) * 256 + 1 * h.val = h.val; omega

/-- The sigmoid branch's bias. -/
theorem iblk4_apply (t : Fin cfg0.N) (h : Fin 256) :
    iblk m c 4 t (ix2 (0 : Fin 1) h) = m ((c : Thread nD τ).loc main_arg4) (ix1 h) := by
  obtain ⟨-, -, -, -, -, -, -, -, -, e0, e1, -⟩ := idx_facts t
  show V m c main_v5 (((cfg0.win 4).blk t).view.emb (ix2 (0 : Fin 1) h)) = _
  rw [V_v5]
  refine Eq.trans (congrArg _ (funext fun a => Fin.ext ?_)) (shapeCast_a_1a_apply _ _ (0 : Fin 1) h)
  match a with
  | ⟨0, _⟩ => show win0_4.index t (0 : Fin 2) * 1 + 1 * 0 = 0; omega
  | ⟨1, _⟩ => show win0_4.index t (1 : Fin 2) * 256 + 1 * h.val = h.val; omega

/-- The attention vector, a column of the argument read as a row. -/
theorem iblk5_apply (t : Fin cfg0.N) (h : Fin 256) :
    iblk m c 5 t (ix2 (0 : Fin 1) h) = m ((c : Thread nD τ).loc main_arg5) (ix2 h (0 : Fin 1)) := by
  obtain ⟨-, -, -, -, -, -, -, -, -, -, -, e0, e1, -⟩ := idx_facts t
  show V m c main_v3 (((cfg0.win 5).blk t).view.emb (ix2 (0 : Fin 1) h)) = _
  rw [V_v3]
  refine Eq.trans (congrArg _ (funext fun a => Fin.ext ?_)) (transpose_ix2_apply _ _ (0 : Fin 1) h)
  match a with
  | ⟨0, _⟩ => show win0_5.index t (0 : Fin 2) * 1 + 1 * 0 = 0; omega
  | ⟨1, _⟩ => show win0_5.index t (1 : Fin 2) * 256 + 1 * h.val = h.val; omega

/-- The logit's bias. -/
theorem iblk6_apply (t : Fin cfg0.N) :
    iblk m c 6 t (ix2 (0 : Fin 1) (0 : Fin 1)) = m ((c : Thread nD τ).loc main_arg6) (ix1 (0 : Fin 1)) := by
  obtain ⟨-, -, -, -, -, -, -, -, -, -, -, -, -, e0, e1⟩ := idx_facts t
  show V m c main_v6 (((cfg0.win 6).blk t).view.emb (ix2 (0 : Fin 1) (0 : Fin 1))) = _
  rw [V_v6]
  refine Eq.trans (congrArg _ (funext fun a => Fin.ext ?_)) (shapeCast_a_1a_apply _ _ (0 : Fin 1) (0 : Fin 1))
  match a with
  | ⟨0, _⟩ => show win0_6.index t (0 : Fin 2) * 1 + 1 * 0 = 0; omega
  | ⟨1, _⟩ => show win0_6.index t (1 : Fin 2) * 1 + 1 * 0 = 0; omega

end Cert.KernelIdeal.PoolBridge

end
-- ==== Proof.PoolBridge.lean ====
/-
  From what the pooling kernel tracks to the streamed softmax of the specification. With the argument arrays read bag
  by bag (features, the two hidden-layer weight matrices and biases, the attention vector and its bias), the logits the
  kernel computes for the tile of a point are the bag's attention logits at the tile's instances; the running maximum,
  denominator and weighted sum after tile k of a bag are the specification's running triple after k + 1 tiles, by
  induction over the bag's four tiles; the logits buffer after the last tile holds the bag's 4096 logits; hence what the
  kernel writes back at a bag's last tile is the streamed pooled vector and the streamed attention weights of the bag.
-/
import proofs.«129396_j54546084659650_2_alg».proof.Proof.IdealState
import proofs.«129396_j54546084659650_2_alg».proof.Proof.PayloadAt
import proofs.«129396_j54546084659650_2_alg».proof.Proof.BlockRead
import proofs.«129396_j54546084659650_2_alg».proof.Proof.Spec
import Idealize.ShloMosaic.Lib.ValueIdx

set_option maxRecDepth 16384

noncomputable section

namespace Cert.KernelIdeal.PoolBridge

open Cert.KernelIdeal Cert.KernelIdeal.Gen Cert.KernelIdeal.Hand Cert.KernelIdeal.PayValue
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (c : Dev nD)

/-! ## The argument arrays read bag by bag -/

/-- The features of bag `b`: entry (j, d) is feature d of instance j. -/
abbrev Xb (b : Fin 16) : Fin 4096 → Fin 1024 → EReal := fun j d => m ((c : Thread nD τ).loc main_arg0) (ix3 b j d)
/-- The tanh branch's weights. -/
abbrev Wv' : Fin 1024 → Fin 256 → EReal := fun d h => m ((c : Thread nD τ).loc main_arg1) (ix2 d h)
/-- The sigmoid branch's weights. -/
abbrev Wu' : Fin 1024 → Fin 256 → EReal := fun d h => m ((c : Thread nD τ).loc main_arg3) (ix2 d h)
/-- The tanh branch's bias. -/
abbrev bv' : Fin 256 → EReal := fun h => m ((c : Thread nD τ).loc main_arg2) (ix1 h)
/-- The sigmoid branch's bias. -/
abbrev bu' : Fin 256 → EReal := fun h => m ((c : Thread nD τ).loc main_arg4) (ix1 h)
/-- The attention vector. -/
abbrev Ww' : Fin 256 → EReal := fun h => m ((c : Thread nD τ).loc main_arg5) (ix2 h (0 : Fin 1))
/-- The logit's bias. -/
abbrev bw' : EReal := m ((c : Thread nD τ).loc main_arg6) (ix1 (0 : Fin 1))
/-- The attention logits of bag `b`. -/
abbrev Lb (b : Fin 16) : Fin 4096 → EReal :=
  GatedPool.logit (Xb m c b) (Wv' m c) (Wu' m c) (bv' m c) (bu' m c) (Ww' m c) (bw' m c)

/-! ## The grid: point 4·b + k is tile k of bag b -/

/-- Tile `k` of bag `b`, as a point. -/
def pt (b : Fin 16) (k : Fin 4) : Fin cfg0.N :=
  ⟨4 * b.val + k.val, lt_of_lt_of_eq (by have := b.isLt; have := k.isLt; omega : 4 * b.val + k.val < 64) N_0.symm⟩

theorem bagOf_pt (b : Fin 16) (k : Fin 4) : bagOf (pt b k) = b := Fin.ext (by show (4 * b.val + k.val) / 4 = b.val; omega)
theorem tileOf_pt (b : Fin 16) (k : Fin 4) : tileOf (pt b k) = k := Fin.ext (by show (4 * b.val + k.val) % 4 = k.val; omega)

/-! ## A tile's logits and features -/

/-- The logits computed at point `t` are the bag's attention logits at the tile's instances. -/
theorem logitsAt_apply (t : Fin cfg0.N) (j : Fin 1024) :
    logitsAt m c t (ix2 (0 : Fin 1) j) = Lb m c (bagOf t) (GatedPool.inst (tileOf t) j) := by
  unfold logitsAt
  refine (pay15_apply _ _ _ _ _ _ _ j).trans ?_
  show _ = (∑ h, GatedPool.gate (Xb m c (bagOf t)) (Wv' m c) (Wu' m c) (bv' m c) (bu' m c) (GatedPool.inst (tileOf t) j) h * Ww' m c h) + bw' m c
  refine congrArg₂ (· + ·) (Finset.sum_congr rfl fun h _ => ?_) (iblk6_apply m c t)
  rw [mul_comm]
  refine congrArg₂ (· * ·) ?_ (iblk5_apply m c t h)
  refine congrArg₂ (fun s u => Ideal.tanh s * Ideal.logistic u) ?_ ?_
  · exact congrArg₂ (· + ·)
      (Finset.sum_congr rfl fun d _ => congrArg₂ (· * ·) (iblk0_apply m c t j d) (iblk1_apply m c t d h)) (iblk2_apply m c t h)
  · exact congrArg₂ (· + ·)
      (Finset.sum_congr rfl fun d _ => congrArg₂ (· * ·) (iblk0_apply m c t j d) (iblk3_apply m c t d h)) (iblk4_apply m c t h)

/-- The tile's features are the bag's features at the tile's instances. -/
theorem featAt_apply (t : Fin cfg0.N) (j d : Fin 1024) :
    featAt m c t (ix2 j d) = Xb m c (bagOf t) (GatedPool.inst (tileOf t) j) d := by
  unfold featAt
  exact (pay14_apply _ j d).trans (iblk0_apply m c t j d)

/-! ## One tile's update -/

/-- The kernel's running triple, read at its entries, is the specification's. -/
def Agree (T : Vec Ideal S1x1 .f32 × Vec Ideal S1x1 .f32 × Vec Ideal S1x1024 .f32)
    (s : EReal × EReal × (Fin 1024 → EReal)) : Prop :=
  T.1 (ix2 (0 : Fin 1) (0 : Fin 1)) = s.1 ∧ T.2.1 (ix2 (0 : Fin 1) (0 : Fin 1)) = s.2.1
    ∧ ∀ d : Fin 1024, T.2.2 (ix2 (0 : Fin 1) d) = s.2.2 d

/-- The body's update of an agreeing triple by a tile's logits and features is the specification's step. -/
theorem agree_step (LG : FVec Ideal S1x1024 .f32) (F4 : FVec Ideal S1024x1024 .f32)
    (mv lv : Vec Ideal S1x1 .f32) (av : Vec Ideal S1x1024 .f32)
    (x : Fin 1024 → EReal) (f : Fin 1024 → Fin 1024 → EReal) (s : EReal × EReal × (Fin 1024 → EReal))
    (hx : ∀ j, LG (ix2 (0 : Fin 1) j) = x j) (hf : ∀ j d, F4 (ix2 j d) = f j d)
    (hs : Agree (mv, lv, av) s) :
    Agree (k0_pay5 LG mv, k0_pay6 LG mv lv, k0_pay7 F4 LG mv av) (GatedPool.step x f s) := by
  obtain ⟨h1, h2, h3⟩ := hs
  have h1' : mv (ix2 (0 : Fin 1) (0 : Fin 1)) = s.1 := h1
  have h2' : lv (ix2 (0 : Fin 1) (0 : Fin 1)) = s.2.1 := h2
  have h3' : ∀ d : Fin 1024, av (ix2 (0 : Fin 1) d) = s.2.2 d := h3
  have hmx : mx LG mv = max s.1 (Finset.univ.fold max ⊥ x) := by
    unfold mx
    rw [h1', show (fun j : Fin 1024 => LG (ix2 (0 : Fin 1) j)) = x from funext hx]
  refine ⟨?_, ?_, fun d => ?_⟩
  · show k0_pay5 LG mv (ix2 (0 : Fin 1) (0 : Fin 1)) = max s.1 (Finset.univ.fold max ⊥ x)
    rw [pay5_apply, hmx]
  · show k0_pay6 LG mv lv (ix2 (0 : Fin 1) (0 : Fin 1))
        = Ideal.exp (s.1 - max s.1 (Finset.univ.fold max ⊥ x)) * s.2.1
          + ∑ j, Ideal.exp (x j - max s.1 (Finset.univ.fold max ⊥ x))
    rw [pay6_apply, hmx, h1', h2']
    simp only [hx]
  · show k0_pay7 F4 LG mv av (ix2 (0 : Fin 1) d)
        = Ideal.exp (s.1 - max s.1 (Finset.univ.fold max ⊥ x)) * s.2.2 d
          + ∑ j, Ideal.exp (x j - max s.1 (Finset.univ.fold max ⊥ x)) * f j d
    rw [pay7_apply, hmx, h1', h3' d]
    simp only [hx, hf]

/-! ## A bag's four tiles -/

/-- The specification's running triple advances by one step per tile. -/
theorem run_step (L : Fin 4096 → EReal) (X : Fin 4096 → Fin 1024 → EReal) {n : ℕ} (hn : n < 4) :
    GatedPool.run L X (n + 1)
      = GatedPool.step (fun j => L (GatedPool.inst ⟨n, hn⟩ j)) (fun j d => X (GatedPool.inst ⟨n, hn⟩ j) d) (GatedPool.run L X n) := by
  rw [GatedPool.run, dif_pos hn]

/-- The triple at equal positions is the same triple. -/
theorem tripAt_congr {n n' : ℕ} (h : n = n') (hn : n < cfg0.N) (hn' : n' < cfg0.N) :
    tripAt m c n hn = tripAt m c n' hn' := by subst h; rfl

/-- After tile `k` of bag `b` the kernel's running triple is the specification's after `k + 1` tiles. -/
theorem trip_run (b : Fin 16) : ∀ (k : ℕ) (hk : k < 4) (hn : 4 * b.val + k < cfg0.N),
    Agree (tripAt m c (4 * b.val + k) hn) (GatedPool.run (Lb m c b) (Xb m c b) (k + 1)) := by
  intro k
  induction k with
  | zero =>
    intro hk hn
    have ht : (pt b ⟨0, hk⟩).val % 4 = 0 := by show (4 * b.val + 0) % 4 = 0; omega
    have e := tripAt_first m c (pt b ⟨0, hk⟩) ht
    rw [show tripAt m c (4 * b.val + 0) hn = tripAt m c (pt b ⟨0, hk⟩).val (pt b ⟨0, hk⟩).isLt from rfl, e, run_step _ _ hk]
    refine agree_step _ _ _ _ _ _ _ _ (fun j => ?_) (fun j d => ?_) ⟨pay11_apply, pay12_apply, pay13_apply⟩
    · rw [logitsAt_apply, bagOf_pt, tileOf_pt]
    · rw [featAt_apply, bagOf_pt, tileOf_pt]
  | succ k ih =>
    intro hk hn
    have hk' : k < 4 := by omega
    have hn' : 4 * b.val + k < cfg0.N := by omega
    have ht : ¬ (pt b ⟨k + 1, hk⟩).val % 4 = 0 := by show ¬ (4 * b.val + (k + 1)) % 4 = 0; omega
    have e := tripAt_next m c (pt b ⟨k + 1, hk⟩) ht
    have eprev : tripAt m c ((pt b ⟨k + 1, hk⟩).val - 1) (Nat.lt_of_le_of_lt (Nat.sub_le _ _) (pt b ⟨k + 1, hk⟩).isLt)
        = tripAt m c (4 * b.val + k) hn' := tripAt_congr m c (by show 4 * b.val + (k + 1) - 1 = 4 * b.val + k; omega) _ _
    rw [eprev] at e
    rw [show tripAt m c (4 * b.val + (k + 1)) hn = tripAt m c (pt b ⟨k + 1, hk⟩).val (pt b ⟨k + 1, hk⟩).isLt from rfl, e, run_step _ _ hk]
    refine agree_step _ _ _ _ _ _ _ _ (fun j => ?_) (fun j d => ?_) (ih hk' hn')
    · rw [logitsAt_apply, bagOf_pt, tileOf_pt]
    · rw [featAt_apply, bagOf_pt, tileOf_pt]

/-! ## The logits buffer after a bag's last tile -/

/-- The bag's logits side by side are the bag's attention logits. -/
theorem bagLogits_apply (b : Fin 16) (k : Fin 4) (q : Fin 4096) :
    bagLogits m c (pt b k) (ix2 (0 : Fin 1) q) = Lb m c b q := by
  unfold bagLogits
  refine (logitsAt_apply m c _ _).trans ?_
  have hq := q.isLt
  refine congrArg₂ (Lb m c) (Fin.ext ?_) (Fin.ext ?_)
  · show (4 * ((4 * b.val + k.val) / 4) + q.val / 1024) / 4 = b.val; omega
  · show 1024 * ((4 * ((4 * b.val + k.val) / 4) + q.val / 1024) % 4) + q.val % 1024 = q.val; omega

/-! ## What a bag's last tile writes back -/

/-- The kernel's triple after a bag's last tile is the specification's final one. -/
theorem trip_last (b : Fin 16) :
    Agree (tripAt m c (pt b 3).val (pt b 3).isLt) (GatedPool.run (Lb m c b) (Xb m c b) 4) :=
  trip_run m c b 3 (by norm_num) (pt b 3).isLt

/-- The body's pooled-vector expression of the final triple is the streamed pooled vector. -/
theorem pooled_last (b : Fin 16) (d : Fin 1024) :
    k0_pay9 (tripAt m c (pt b 3).val (pt b 3).isLt).2.1 (tripAt m c (pt b 3).val (pt b 3).isLt).2.2
        (ix3 (0 : Fin 1) (0 : Fin 1) d)
      = GatedPool.pooledS (Lb m c b) (Xb m c b) d := by
  obtain ⟨-, h2, h3⟩ := trip_last m c b
  refine (pay9_apply _ _ d).trans ?_
  rw [h3 d, h2, one_f32]
  rfl

/-- The body's attention-weights expression of the final triple and the bag's logits is the streamed weights. -/
theorem weights_last (b : Fin 16) (j : Fin 4096) :
    k0_pay10 (tripAt m c (pt b 3).val (pt b 3).isLt).2.1 (bagLogits m c (pt b 3)) (tripAt m c (pt b 3).val (pt b 3).isLt).1
        (ix3 (0 : Fin 1) (0 : Fin 1) j)
      = GatedPool.weightS (Lb m c b) (Xb m c b) j := by
  obtain ⟨h1, h2, -⟩ := trip_last m c b
  refine (pay10_apply _ _ _ j).trans ?_
  rw [bagLogits_apply, h1, h2, one_f32]
  rfl

/-- The pooled-vector block written back at a bag's last tile is the streamed pooled vector. -/
theorem after7_apply (b : Fin 16) (d : Fin 1024) :
    (dats m 0 c).after 7 (pt b 3) (ix3 (0 : Fin 1) (0 : Fin 1) d) = GatedPool.pooledS (Lb m c b) (Xb m c b) d :=
  (congrFun (after_7 m c (pt b 3)) _).trans (pooled_last m c b d)

/-- The attention-weights block written back at a bag's last tile is the streamed attention weights. -/
theorem after8_apply (b : Fin 16) (j : Fin 4096) :
    (dats m 0 c).after 8 (pt b 3) (ix3 (0 : Fin 1) (0 : Fin 1) j) = GatedPool.weightS (Lb m c b) (Xb m c b) j :=
  (congrFun (after_8 m c (pt b 3)) _).trans (weights_last m c b j)

end Cert.KernelIdeal.PoolBridge

end
-- ==== Proof.Streaming.lean ====
/-
  The streamed softmax of a bag equals the direct one when every logit and every feature is a real number.

  After the first n tiles (1 ≤ n ≤ 4) the running triple is (M, ∑ exp(logit − M), d ↦ ∑ exp(logit − M) · feature),
  the sums over the instances of those tiles and M the largest of their logits; one more tile multiplies the two sums
  by exp(M − M'), M' the new maximum, which turns every exp(logit − M) into exp(logit − M'). After the four tiles M
  is the bag's maximum and the sums run over the whole bag, which are the direct softmax's maximum, denominator and
  (up to the division) pooled numerator. A maximum is handled through its characterisation: it bounds every element
  and is attained.
-/
import Idealize.ShloMosaic.PureOps.Ideal
import Idealize.ShloMosaic.PureOps.Ideal.Laws
import proofs.«129396_j54546084659650_2_alg».proof.Proof.Spec

noncomputable section

namespace GatedPool

open Idealize.ShloMosaic

/-! ## Reals inside the extended reals -/

/-- A finite sum of reals, taken in the extended reals, is the real sum. -/
theorem coe_sum {ι : Type*} (s : Finset ι) (g : ι → ℝ) :
    (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]

/-- The larger of two reals, taken in the extended reals. -/
theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-- The running maximum of finitely many reals (over a nonempty index type), folded from −∞ in the extended reals,
    is a real: it bounds every element and is one of them. -/
theorem fold_max_coe {ι : Type*} [Fintype ι] [Nonempty ι] (a : ι → ℝ) :
    ∃ m : ℝ, (Finset.univ.fold max ⊥ fun i => (a i : EReal)) = (m : EReal) ∧ (∀ i, a i ≤ m) ∧ ∃ i, a i = m := by
  obtain ⟨i₀, -, h⟩ := Finset.exists_max_image Finset.univ a Finset.univ_nonempty
  refine ⟨a i₀, le_antisymm ?_ ?_, fun i => h i (Finset.mem_univ i), i₀, rfl⟩
  · rw [Finset.fold_max_le]
    exact ⟨bot_le, fun i _ => EReal.coe_le_coe_iff.2 (h i (Finset.mem_univ i))⟩
  · rw [Finset.le_fold_max]
    exact Or.inr ⟨i₀, Finset.mem_univ _, le_rfl⟩

/-! ## One tile's update on real data -/

/-- The first tile: from (−∞, 0, 0) the update gives the tile's maximum and the tile's two sums against it. -/
theorem step_bot (a : Fin 1024 → ℝ) (f : Fin 1024 → Fin 1024 → ℝ) :
    ∃ mk : ℝ, (∀ j, a j ≤ mk) ∧ (∃ j, a j = mk) ∧
      step (fun j => (a j : EReal)) (fun j d => (f j d : EReal)) (⊥, 0, fun _ => 0)
        = ((mk : EReal), ((∑ j, Real.exp (a j - mk) : ℝ) : EReal),
            fun d => ((∑ j, Real.exp (a j - mk) * f j d : ℝ) : EReal)) := by
  obtain ⟨mk, hfold, hle, hex⟩ := fold_max_coe a
  refine ⟨mk, hle, hex, ?_⟩
  unfold step
  simp only [hfold, bot_le, max_eq_right, mul_zero, zero_add, ← EReal.coe_sub, Ideal.exp_coe, ← EReal.coe_mul, coe_sum]

/-- A later tile: from a real triple (m, S, P) the update gives the larger of m and the tile's maximum, and the two
    sums rescaled by exp(m − new maximum) plus the tile's own sums against the new maximum. -/
theorem step_real (a : Fin 1024 → ℝ) (f : Fin 1024 → Fin 1024 → ℝ) (m S : ℝ) (P : Fin 1024 → ℝ) :
    ∃ mk : ℝ, (∀ j, a j ≤ mk) ∧ (∃ j, a j = mk) ∧
      step (fun j => (a j : EReal)) (fun j d => (f j d : EReal)) ((m : EReal), (S : EReal), fun d => (P d : EReal))
        = (((max m mk : ℝ) : EReal),
            ((Real.exp (m - max m mk) * S + ∑ j, Real.exp (a j - max m mk) : ℝ) : EReal),
            fun d => ((Real.exp (m - max m mk) * P d + ∑ j, Real.exp (a j - max m mk) * f j d : ℝ) : EReal)) := by
  obtain ⟨mk, hfold, hle, hex⟩ := fold_max_coe a
  refine ⟨mk, hle, hex, ?_⟩
  unfold step
  simp only [hfold, ← coe_max, ← EReal.coe_sub, Ideal.exp_coe, ← EReal.coe_mul, coe_sum, ← EReal.coe_add]

/-! ## The four tiles -/

/-- Rescaling a sum of exponentials from one reference point to another. -/
theorem rescale {ι : Type*} (s : Finset ι) (g : ι → ℝ) (m m' : ℝ) :
    Real.exp (m - m') * ∑ i ∈ s, Real.exp (g i - m) = ∑ i ∈ s, Real.exp (g i - m') := by
  rw [Finset.mul_sum]
  refine Finset.sum_congr rfl fun i _ => ?_
  rw [← Real.exp_add]
  congr 1
  ring

/-- The same for a weighted sum. -/
theorem rescale_mul {ι : Type*} (s : Finset ι) (g w : ι → ℝ) (m m' : ℝ) :
    Real.exp (m - m') * ∑ i ∈ s, Real.exp (g i - m) * w i = ∑ i ∈ s, Real.exp (g i - m') * w i := by
  rw [Finset.mul_sum]
  refine Finset.sum_congr rfl fun i _ => ?_
  rw [← mul_assoc, ← Real.exp_add]
  congr 2
  ring

/-- Slot `j` of tile `k` for any natural `k`; only `k < 4` is ever visited (beyond that, tile 0 again). -/
def instN (k : ℕ) (j : Fin 1024) : Fin 4096 := if h : k < 4 then inst ⟨k, h⟩ j else inst 0 j

theorem instN_lt {k : ℕ} (h : k < 4) (j : Fin 1024) : instN k j = inst ⟨k, h⟩ j := dif_pos h

/-- Every instance is a slot of one of the four tiles. -/
theorem exists_tile (i : Fin 4096) : ∃ k < 4, ∃ j, instN k j = i := by
  have hi := i.isLt
  refine ⟨i.val / 1024, by omega, ⟨i.val % 1024, by omega⟩, ?_⟩
  rw [instN_lt (by omega)]
  apply Fin.ext
  simp only [inst]
  omega

/-- The instances, listed tile by tile. -/
def tileEquiv : Fin 4 × Fin 1024 ≃ Fin 4096 where
  toFun p := inst p.1 p.2
  invFun i := (⟨i.val / 1024, by have := i.isLt; omega⟩, ⟨i.val % 1024, by omega⟩)
  left_inv p := by
    have h1 := p.1.isLt
    have h2 := p.2.isLt
    apply Prod.ext <;> apply Fin.ext <;> simp only [inst] <;> omega
  right_inv i := by
    apply Fin.ext
    simp only [inst]
    omega

/-- A sum over the bag is the sum over the four tiles of the sums over their slots. -/
theorem sum_tiles (g : Fin 4096 → ℝ) : ∑ k ∈ Finset.range 4, ∑ j : Fin 1024, g (instN k j) = ∑ i, g i := by
  rw [Finset.sum_range (fun k => ∑ j : Fin 1024, g (instN k j))]
  have h : ∀ k : Fin 4, ∑ j : Fin 1024, g (instN k.val j) = ∑ j : Fin 1024, g (inst k j) := fun k =>
    Finset.sum_congr rfl fun j _ => by rw [instN_lt k.isLt]
  rw [Finset.sum_congr rfl fun k _ => h k, ← Fintype.sum_prod_type']
  exact Fintype.sum_equiv tileEquiv _ _ fun _ => rfl

section Tiles

variable (l : Fin 4096 → ℝ) (x : Fin 4096 → Fin 1024 → ℝ)

theorem run_succ (L : Fin 4096 → EReal) (X : Fin 4096 → Fin 1024 → EReal) {n : ℕ} (hn : n < 4) :
    run L X (n + 1) = step (fun j => L (inst ⟨n, hn⟩ j)) (fun j d => X (inst ⟨n, hn⟩ j) d) (run L X n) := by
  rw [run, dif_pos hn]

/-- After the first `n + 1` tiles the running triple is their largest logit `m` (a real, attained), the sum of
    `exp (logit − m)` over their instances, and feature by feature the sum of `exp (logit − m) · feature`. -/
theorem run_real (n : ℕ) (hn : n < 4) :
    ∃ m : ℝ, run (fun j => (l j : EReal)) (fun j d => (x j d : EReal)) (n + 1)
        = ((m : EReal), ((∑ k ∈ Finset.range (n + 1), ∑ j, Real.exp (l (instN k j) - m) : ℝ) : EReal),
           fun d => ((∑ k ∈ Finset.range (n + 1), ∑ j, Real.exp (l (instN k j) - m) * x (instN k j) d : ℝ) : EReal))
      ∧ (∀ k < n + 1, ∀ j, l (instN k j) ≤ m) ∧ ∃ k < n + 1, ∃ j, l (instN k j) = m := by
  induction n with
  | zero =>
    obtain ⟨mk, hle, ⟨j0, hj0⟩, hstep⟩ := step_bot (fun j => l (inst ⟨0, hn⟩ j)) (fun j d => x (inst ⟨0, hn⟩ j) d)
    refine ⟨mk, ?_, ?_, ⟨0, by omega, j0, by rw [instN_lt hn]; exact hj0⟩⟩
    · rw [run_succ _ _ hn]
      have h0 : run (fun j => (l j : EReal)) (fun j d => (x j d : EReal)) 0 = (⊥, 0, fun _ => 0) := rfl
      rw [h0, hstep]
      simp only [zero_add, Finset.range_one, Finset.sum_singleton, instN_lt hn]
    · intro k hk j
      obtain rfl : k = 0 := by omega
      rw [instN_lt hn]
      exact hle j
  | succ n ih =>
    obtain ⟨m, hrun, hle, k0, hk0, j0, hj0⟩ := ih (by omega)
    obtain ⟨mk, hle', ⟨j1, hj1⟩, hstep⟩ :=
      step_real (fun j => l (inst ⟨n + 1, hn⟩ j)) (fun j d => x (inst ⟨n + 1, hn⟩ j) d) m
        (∑ k ∈ Finset.range (n + 1), ∑ j, Real.exp (l (instN k j) - m))
        (fun d => ∑ k ∈ Finset.range (n + 1), ∑ j, Real.exp (l (instN k j) - m) * x (instN k j) d)
    refine ⟨max m mk, ?_, ?_, ?_⟩
    · rw [run_succ _ _ hn, hrun, hstep]
      have hS : Real.exp (m - max m mk) * ∑ k ∈ Finset.range (n + 1), ∑ j, Real.exp (l (instN k j) - m)
          = ∑ k ∈ Finset.range (n + 1), ∑ j, Real.exp (l (instN k j) - max m mk) := by
        rw [Finset.mul_sum]
        exact Finset.sum_congr rfl fun k _ => rescale _ _ _ _
      have hP : ∀ d, Real.exp (m - max m mk)
            * ∑ k ∈ Finset.range (n + 1), ∑ j, Real.exp (l (instN k j) - m) * x (instN k j) d
          = ∑ k ∈ Finset.range (n + 1), ∑ j, Real.exp (l (instN k j) - max m mk) * x (instN k j) d := by
        intro d
        rw [Finset.mul_sum]
        exact Finset.sum_congr rfl fun k _ => rescale_mul _ _ _ _ _
      simp only [hS, hP, Finset.sum_range_succ _ (n + 1), instN_lt hn]
    · intro k hk j
      rcases Nat.lt_succ_iff_lt_or_eq.1 hk with h | rfl
      · exact (hle k h j).trans (le_max_left _ _)
      · rw [instN_lt hn]
        exact (hle' j).trans (le_max_right _ _)
    · rcases le_total m mk with h | h
      · exact ⟨n + 1, by omega, j1, by rw [instN_lt hn, max_eq_right h]; exact hj1⟩
      · exact ⟨k0, by omega, j0, by rw [max_eq_left h]; exact hj0⟩

end Tiles

/-! ## The streamed softmax is the direct one -/

section Final

variable (l : Fin 4096 → ℝ) (x : Fin 4096 → Fin 1024 → ℝ)

/-- After all four tiles: the bag's largest logit `m` (attained), and the two sums over the whole bag against it. -/
theorem run_four :
    ∃ m : ℝ, run (fun j => (l j : EReal)) (fun j d => (x j d : EReal)) 4
        = ((m : EReal), ((∑ i, Real.exp (l i - m) : ℝ) : EReal),
           fun d => ((∑ i, Real.exp (l i - m) * x i d : ℝ) : EReal))
      ∧ (∀ i, l i ≤ m) ∧ ∃ i, l i = m := by
  obtain ⟨m, hrun, hle, k0, -, j0, hj0⟩ := run_real l x 3 (by norm_num)
  refine ⟨m, ?_, ?_, ⟨_, hj0⟩⟩
  · rw [sum_tiles (fun i => Real.exp (l i - m))] at hrun
    have hP : ∀ d, ∑ k ∈ Finset.range (3 + 1), ∑ j, Real.exp (l (instN k j) - m) * x (instN k j) d
        = ∑ i, Real.exp (l i - m) * x i d := fun d => sum_tiles (fun i => Real.exp (l i - m) * x i d)
    simp only [hP] at hrun
    exact hrun
  · intro i
    obtain ⟨k, hk, j, rfl⟩ := exists_tile i
    exact hle k hk j

/-- The direct softmax's maximum of real logits is the real that bounds them all and is attained. -/
theorem top_real {m : ℝ} (hle : ∀ i, l i ≤ m) (hex : ∃ i, l i = m) : top (fun j => (l j : EReal)) = (m : EReal) := by
  obtain ⟨m₀, hfold, hle₀, i₀, hi₀⟩ := fold_max_coe l
  obtain ⟨i₁, hi₁⟩ := hex
  have : m₀ = m := le_antisymm (hi₀ ▸ hle i₀) (hi₁ ▸ hle₀ i₁)
  rw [top, hfold, this, max_eq_right bot_le]

theorem streamed_eq_direct_real :
    (∀ j, weightS (fun j => (l j : EReal)) (fun j d => (x j d : EReal)) j = weight (fun j => (l j : EReal)) j)
      ∧ ∀ d, pooledS (fun j => (l j : EReal)) (fun j d => (x j d : EReal)) d
          = pooled (fun j => (l j : EReal)) (fun j d => (x j d : EReal)) d := by
  obtain ⟨m, hrun, hle, hex⟩ := run_four l x
  have htop := top_real l hle hex
  have hS : (0 : ℝ) < ∑ i, Real.exp (l i - m) := Finset.sum_pos (fun i _ => Real.exp_pos _) Finset.univ_nonempty
  have hden : den (fun j => (l j : EReal)) = ((∑ i, Real.exp (l i - m) : ℝ) : EReal) := by
    simp only [den, num, htop, ← EReal.coe_sub, Ideal.exp_coe, coe_sum, zero_add]
  have hw : ∀ j, weight (fun j => (l j : EReal)) j
      = ((Real.exp (l j - m) * (1 / ∑ i, Real.exp (l i - m)) : ℝ) : EReal) := by
    intro j
    rw [weight, hden, Ideal.div_coe hS.ne', num, htop, ← EReal.coe_sub, Ideal.exp_coe, ← EReal.coe_mul]
  refine ⟨fun j => ?_, fun d => ?_⟩
  · rw [hw, weightS, hrun]
    simp only [Ideal.div_coe hS.ne', one_mul, ← EReal.coe_sub, Ideal.exp_coe, ← EReal.coe_mul]
  · rw [pooled, pooledS, hrun]
    simp only [hw, Ideal.div_coe hS.ne', one_mul, ← EReal.coe_mul, coe_sum, zero_add]
    rw [Finset.sum_mul]
    refine congrArg (fun r : ℝ => (r : EReal)) (Finset.sum_congr rfl fun i _ => ?_)
    ring

end Final

/-- With every logit and every feature a real number, the streamed attention weights and pooled features are the
    direct ones. -/
theorem streamed_eq_direct (L : Fin 4096 → EReal) (X : Fin 4096 → Fin 1024 → EReal)
    (hL : ∀ j, ∃ r : ℝ, L j = r) (hX : ∀ j d, ∃ r : ℝ, X j d = r) :
    (∀ j, weightS L X j = weight L j) ∧ (∀ d, pooledS L X d = pooled L X d) := by
  choose l hl using hL
  choose x hx using hX
  obtain rfl : L = fun j => (l j : EReal) := funext hl
  obtain rfl : X = fun j d => (x j d : EReal) := funext fun j => funext (hx j)
  exact streamed_eq_direct_real l x

/-! ## The logits of real inputs are real -/

theorem real_add {a b : EReal} (ha : ∃ r : ℝ, a = r) (hb : ∃ r : ℝ, b = r) : ∃ r : ℝ, a + b = r := by
  obtain ⟨r, rfl⟩ := ha
  obtain ⟨s, rfl⟩ := hb
  exact ⟨r + s, (EReal.coe_add r s).symm⟩

theorem real_mul {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

theorem real_sum {ι : Type*} (s : Finset ι) {g : ι → EReal} (hg : ∀ i, ∃ r : ℝ, g i = r) :
    ∃ r : ℝ, ∑ i ∈ s, g i = r := by
  choose g' hg' using hg
  exact ⟨∑ i ∈ s, g' i, by rw [← coe_sum]; exact Finset.sum_congr rfl fun i _ => hg' i⟩

theorem real_tanh {a : EReal} (ha : ∃ r : ℝ, a = r) : ∃ r : ℝ, Ideal.tanh a = r := by
  obtain ⟨r, rfl⟩ := ha
  exact ⟨Real.tanh r, Ideal.tanh_coe r⟩

theorem real_logistic {a : EReal} (ha : ∃ r : ℝ, a = r) : ∃ r : ℝ, Ideal.logistic a = r := by
  obtain ⟨r, rfl⟩ := ha
  exact ⟨(1 + Real.exp (-r))⁻¹, Ideal.logistic_coe r⟩

/-- Real inputs and real parameters give real attention logits. -/
theorem logit_real (X : Fin 4096 → Fin 1024 → EReal) (Wv Wu : Fin 1024 → Fin 256 → EReal)
    (bv bu Ww : Fin 256 → EReal) (bw : EReal)
    (hX : ∀ j d, ∃ r : ℝ, X j d = r) (hWv : ∀ d h, ∃ r : ℝ, Wv d h = r) (hWu : ∀ d h, ∃ r : ℝ, Wu d h = r)
    (hbv : ∀ h, ∃ r : ℝ, bv h = r) (hbu : ∀ h, ∃ r : ℝ, bu h = r) (hWw : ∀ h, ∃ r : ℝ, Ww h = r)
    (hbw : ∃ r : ℝ, bw = r) :
    ∀ j, ∃ r : ℝ, logit X Wv Wu bv bu Ww bw j = r := by
  intro j
  refine real_add (real_sum _ fun h => real_mul ?_ (hWw h)) hbw
  exact real_mul
    (real_tanh (real_add (real_sum _ fun d => real_mul (hX j d) (hWv d h)) (hbv h)))
    (real_logistic (real_add (real_sum _ fun d => real_mul (hX j d) (hWu d h)) (hbu h)))

end GatedPool

end
-- ==== Proof.PoolAlgebra.lean ====
/-
  Gated attention pooling on real data: the attention logits of real inputs and parameters are real, so the streamed
  softmax over them (four tiles, running maximum, rescaled running sums) gives the direct softmax's attention weights
  and pooled features.
-/
import proofs.«129396_j54546084659650_2_alg».proof.Proof.Streaming

noncomputable section

namespace GatedPool

open Idealize.ShloMosaic

/-! ## Both together -/

/-- For real inputs and real parameters, the streamed softmax of the attention logits is the direct one: the
    attention weights agree instance by instance and the pooled features agree feature by feature. -/
theorem pool_streamed_eq_direct (X : Fin 4096 → Fin 1024 → EReal) (Wv Wu : Fin 1024 → Fin 256 → EReal)
    (bv bu Ww : Fin 256 → EReal) (bw : EReal)
    (hX : ∀ j d, ∃ r : ℝ, X j d = r) (hWv : ∀ d h, ∃ r : ℝ, Wv d h = r) (hWu : ∀ d h, ∃ r : ℝ, Wu d h = r)
    (hbv : ∀ h, ∃ r : ℝ, bv h = r) (hbu : ∀ h, ∃ r : ℝ, bu h = r) (hWw : ∀ h, ∃ r : ℝ, Ww h = r)
    (hbw : ∃ r : ℝ, bw = r) :
    (∀ j, weightS (logit X Wv Wu bv bu Ww bw) X j = weight (logit X Wv Wu bv bu Ww bw) j)
      ∧ (∀ d, pooledS (logit X Wv Wu bv bu Ww bw) X d = pooled (logit X Wv Wu bv bu Ww bw) X d) :=
  streamed_eq_direct (logit X Wv Wu bv bu Ww bw) X (logit_real X Wv Wu bv bu Ww bw hX hWv hWu hbv hbu hWw hbw) hX

end GatedPool

end
-- ==== Proof.FiniteInputs.lean ====
/-
  From the finiteness precondition to real entries.

  The precondition of the seven argument arrays is one bit: for each array, "every entry's absolute value is strictly
  below +∞", reduced by and over all of the array's axes from 1, and the seven results joined by and. If that bit is 1,
  each of the seven reductions is 1, so each comparison is 1 at every index; and an extended real x with
  max(x, −x) < +∞ is neither infinity, hence a real number. So under the precondition every entry of every argument
  array is (the coercion of) a real.
-/
import proofs.«129396_j54546084659650_2_alg».proof.Pre_finite_inputs
import proofs.«129396_j54546084659650_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Pre_finite_inputs.Finite

open Cert.Pre_finite_inputs Cert.Pre_finite_inputs.Gen Idealize.ShloMosaic Idealize.ShloMosaic.ValueIdx

/-- The scalar shape has one index. -/
instance subsingleton_scalarIdx : Subsingleton S_.Idx := ⟨fun _ _ => funext fun d => d.elim0⟩

/-- The word 0x7F800000 is +∞. -/
theorem ofBits_posInf : Ideal.ofBits .f32 0x7F800000#32 = ⊤ := by
  simp [Ideal.ofBits, Ideal.ieee]

/-- An extended real whose absolute value max(x, −x) is strictly below +∞ is a real: at either infinity the absolute
    value is +∞ itself. -/
theorem real_of_abs_lt_posInf (x : EReal)
    (h : Ideal.cmp .olt (max x (-x)) (Ideal.ofBits .f32 0x7F800000#32) = 1#1) : ∃ r : ℝ, x = r := by
  rw [ofBits_posInf] at h
  induction x using EReal.rec with
  | bot => simp [Ideal.cmp] at h
  | coe r => exact ⟨r, rfl⟩
  | top => simp [Ideal.cmp] at h

/-- A conjunction of two one-bit arrays, at an index. -/
theorem andi_apply {s : Shape} {w : Nat} (x y : IVec s w) (i : s.Idx) : andi x y i = IntOp.andi (x i) (y i) := rfl

/-- One array's share of the precondition: if "every |entry| is below +∞", reduced by and over all axes from 1, is 1,
    then every entry is a real. -/
theorem entries_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
      (constantI S_ 1 1#1) hr hu ix0 = 1#1) (i : s.Idx) : ∃ r : ℝ, a i = r := by
  have hi := Host.reduce_andi_all _ _ hr hu ix0 e i
  have hbc : broadcastInDim s ![] hb (constant (F := Ideal) S_ .f32 0x7F800000#32) i = Ideal.ofBits .f32 0x7F800000#32 :=
    broadcastInDim_apply _ hb _ i ix0 (fun a => a.elim0)
  refine real_of_abs_lt_posInf (a i) ?_
  have hc : cmpf .olt (Host.absf a) (broadcastInDim s ![] hb (constant (F := Ideal) S_ .f32 0x7F800000#32)) i
      = Ideal.cmp .olt (max (a i) (-(a i))) (broadcastInDim s ![] hb (constant (F := Ideal) S_ .f32 0x7F800000#32) i) := rfl
  rw [hc, hbc] at hi
  exact hi

/-- FROM THE PRECONDITION TO REAL ENTRIES: if the finiteness predicate of the seven argument arrays is all ones, every
    entry of every array is a real number. -/
theorem real_entries (a0 : FVec Ideal S16x4096x1024 .f32) (a1 : FVec Ideal S1024x256 .f32) (a2 : FVec Ideal S256 .f32)
    (a3 : FVec Ideal S1024x256 .f32) (a4 : FVec Ideal S256 .f32) (a5 : FVec Ideal S256x1 .f32) (a6 : FVec Ideal S1 .f32)
    (h : Cert.Pre_finite_inputs.fn (F := Ideal) a0 a1 a2 a3 a4 a5 a6 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) ∧ (∀ i, ∃ r : ℝ, a5 i = r) ∧ (∀ i, ∃ r : ℝ, a6 i = r) := by
  have h0 := congrFun h ix0
  dsimp only [fn, fn_part1] at h0
  simp only [andi_apply, IntOp.andi_eq_one] at h0
  obtain ⟨⟨⟨⟨⟨⟨e0, e1⟩, e2⟩, e3⟩, e4⟩, e5⟩, e6⟩ := h0
  exact ⟨entries_real a0 _ _ _ e0, entries_real a1 _ _ _ e1, entries_real a2 _ _ _ e2, entries_real a3 _ _ _ e3,
    entries_real a4 _ _ _ e4, entries_real a5 _ _ _ e5, entries_real a6 _ _ _ e6⟩

end Cert.Pre_finite_inputs.Finite

end
-- ==== Proof.RefSide.lean ====
/-
  The reference side of the gated attention pooling, read index by index on the extended reals.

  The reference computes, for each of 16 bags of 4096 instances with 1024 features: two affine maps of every instance
  into 256 hidden units, the gate tanh(·) · σ(·) with σ(x) written 1 / (1 + exp(−x)), the attention logit as the gate's
  inner product with one column plus a bias, the bag's maximum logit (a fold of max over the instances from −∞, taken
  once more against −∞), the exponentials of the logits less that maximum, their sum from 0, the quotient of each
  exponential by the sum, and the sum from 0 over the instances of each feature times its instance's quotient.

  Here each of these stages, at the coordinates (bag, instance, ·), is identified with the corresponding stage of the
  direct softmax presentation: gate, logit, top, num, den, weight, pooled. The two results follow: the array of weights at
  (b, j) is the weight of instance j in bag b, and the pooled array at (b, d) is feature d of bag b's pooled vector.
  Every stage but one reads one entry of each operand, or a sum over one axis; the maximum over the instances is a fold
  over an axis and is read separately, as the fold of max over the entries (b, k, 0).
-/
import proofs.«129396_j54546084659650_2_alg».proof.Proof.Gen.ReferenceIdeal.Read
import Idealize.ShloMosaic.Lib.ValueIdx
import Idealize.ShloMosaic.Lib.Pipeline.Value
import Idealize.ShloMosaic.PureOps.Ideal.Laws
import proofs.«129396_j54546084659650_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-! ## The argument arrays read bag by bag

Coordinates are in each array's own axis order: features are (bag, instance, feature), the two hidden-layer matrices
(feature, hidden unit), the attention vector a one-column matrix (hidden unit, 0), its bias a one-entry vector. -/

section Readings

variable (x0 : (⟨S16x4096x1024, .f32⟩ : BufTy).Contents (Elt Ideal))
  (x1 x3 : (⟨S1024x256, .f32⟩ : BufTy).Contents (Elt Ideal))
  (x2 x4 : (⟨S256, .f32⟩ : BufTy).Contents (Elt Ideal))
  (x5 : (⟨S256x1, .f32⟩ : BufTy).Contents (Elt Ideal))
  (x6 : (⟨S1, .f32⟩ : BufTy).Contents (Elt Ideal))

/-- The features of bag b: entry (j, d) is feature d of instance j. -/
abbrev Xb (b : Fin 16) : Fin 4096 → Fin 1024 → EReal := fun j d => x0 (ix3 b j d)
/-- The tanh branch's weights: entry (d, h) multiplies feature d into hidden unit h. -/
abbrev Wv' : Fin 1024 → Fin 256 → EReal := fun d h => x1 (ix2 d h)
/-- The sigmoid branch's weights: entry (d, h) multiplies feature d into hidden unit h. -/
abbrev Wu' : Fin 1024 → Fin 256 → EReal := fun d h => x3 (ix2 d h)
/-- The tanh branch's bias at hidden unit h. -/
abbrev bv' : Fin 256 → EReal := fun h => x2 (ix1 h)
/-- The sigmoid branch's bias at hidden unit h. -/
abbrev bu' : Fin 256 → EReal := fun h => x4 (ix1 h)
/-- The attention vector: the weight of hidden unit h in the logit. -/
abbrev Ww' : Fin 256 → EReal := fun h => x5 (ix2 h (0 : Fin 1))
/-- The logit's bias. -/
abbrev bw' : EReal := x6 (ix1 (0 : Fin 1))

end Readings

/-! ## The three float literals -/

/-- The word 0x3F800000 is the real 1. -/
theorem ofBits_one : Ideal.ofBits .f32 0x3F800000#32 = 1 := by
  simp [Ideal.ofBits, Ideal.ieee, -EReal.coe_mul]; norm_num

/-- The word 0xFF800000 is −∞. -/
theorem ofBits_negInf : Ideal.ofBits .f32 0xFF800000#32 = ⊥ := by
  simp [Ideal.ofBits, Ideal.ieee]

/-! ## Where each operation reads its operands, by coordinates -/

section Indices

variable (b : Fin 16) (j : Fin 4096)

theorem lidx0 (h : Fin 256) (k : Fin 1024) : lidx_main_v0 (ix3 b j h) k = ix3 b j k :=
  funext fun a => by match a with | ⟨0, _⟩ => rfl | ⟨1, _⟩ => rfl | ⟨2, _⟩ => rfl
theorem ridx0 (h : Fin 256) (k : Fin 1024) : ridx_main_v0 (ix3 b j h) k = ix2 k h :=
  funext fun a => by match a with | ⟨0, _⟩ => rfl | ⟨1, _⟩ => rfl
theorem bidx2 (h : Fin 256) : idx_main_v1 (idx_main_v2 (ix3 b j h)) = ix1 h :=
  funext fun a => by match a with | ⟨0, _⟩ => rfl
theorem lidx5 (h : Fin 256) (k : Fin 1024) : lidx_main_v5 (ix3 b j h) k = ix3 b j k :=
  funext fun a => by match a with | ⟨0, _⟩ => rfl | ⟨1, _⟩ => rfl | ⟨2, _⟩ => rfl
theorem ridx5 (h : Fin 256) (k : Fin 1024) : ridx_main_v5 (ix3 b j h) k = ix2 k h :=
  funext fun a => by match a with | ⟨0, _⟩ => rfl | ⟨1, _⟩ => rfl
theorem bidx7 (h : Fin 256) : idx_main_v6 (idx_main_v7 (ix3 b j h)) = ix1 h :=
  funext fun a => by match a with | ⟨0, _⟩ => rfl
theorem lidx16 (k : Fin 256) : lidx_main_v16 (ix3 b j (0 : Fin 1)) k = ix3 b j k :=
  funext fun a => by match a with | ⟨0, _⟩ => rfl | ⟨1, _⟩ => rfl | ⟨2, _⟩ => rfl
theorem ridx16 (k : Fin 256) : ridx_main_v16 (ix3 b j (0 : Fin 1)) k = ix2 k (0 : Fin 1) :=
  funext fun a => by match a with | ⟨0, _⟩ => rfl | ⟨1, _⟩ => rfl
theorem bidx18 : idx_main_v17 (idx_main_v18 (ix3 b j (0 : Fin 1))) = ix1 (0 : Fin 1) :=
  funext fun a => by match a with | ⟨0, _⟩ => rfl
theorem bidx24 : idx_main_v23 (idx_main_v24 (ix3 b j (0 : Fin 1))) = ix2 b (0 : Fin 1) :=
  funext fun a => by match a with | ⟨0, _⟩ => rfl | ⟨1, _⟩ => rfl
theorem idx27 (k : Fin 4096) : idx_main_v27 (ix2 b (0 : Fin 1)) k = ix3 b k (0 : Fin 1) :=
  funext fun a => by match a with | ⟨0, _⟩ => rfl | ⟨1, _⟩ => rfl | ⟨2, _⟩ => rfl
theorem bidx29 : idx_main_v28 (idx_main_v29 (ix3 b j (0 : Fin 1))) = ix2 b (0 : Fin 1) :=
  funext fun a => by match a with | ⟨0, _⟩ => rfl | ⟨1, _⟩ => rfl
theorem idx31 (d : Fin 1024) : idx_main_v31 (ix3 b j d) = ix3 b j (0 : Fin 1) :=
  funext fun a => by match a with | ⟨0, _⟩ => rfl | ⟨1, _⟩ => rfl | ⟨2, _⟩ => rfl
theorem idx33 (d : Fin 1024) (k : Fin 4096) : idx_main_v33 (ix2 b d) k = ix3 b k d :=
  funext fun a => by match a with | ⟨0, _⟩ => rfl | ⟨1, _⟩ => rfl | ⟨2, _⟩ => rfl
/-- Row-major position 4096·b + j of the flattened weights is instance j of bag b. -/
theorem idx34 : idx_main_v34 (ix2 b j) = ix3 b j (0 : Fin 1) :=
  funext fun a => Fin.ext (by
    have hb := b.isLt; have hj := j.isLt
    match a with
    | ⟨0, _⟩ => show (b.val * 4096 + j.val) / 4096 = b.val; omega
    | ⟨1, _⟩ => show (b.val * 4096 + j.val) / 1 % 4096 = j.val; omega
    | ⟨2, _⟩ => rfl)

end Indices

/-! ## The maximum over a bag's instances

The one operation that is a fold over an axis: at bag b it is the fold of max, from the initial value, over the
instances' entries (b, k, 0). -/

/-- The reduced index (b, 0) with instance k put back on the middle axis is (b, k, 0). -/
theorem lift_mid (h : S16x4096x1.Reduces [1] S16x1) (b : Fin 16) (k : Fin (S16x4096x1.size 1)) :
    h.lift (ix2 b (0 : Fin 1)) k = ix3 b (⟨k.val, k.isLt⟩ : Fin 4096) (0 : Fin 1) := by
  funext c; apply Fin.ext
  fin_cases c <;> rfl

/-- A max-reduce over the instance axis, read at bag b. -/
theorem reduce_max_mid (x : FVec Ideal S16x4096x1 .f32) (init : FVec Ideal S_ .f32)
    (h' : S16x4096x1.ReducesTo [1] S16x1) (hu : 0 < S_.numel) (b : Fin 16) :
    Host.reduce FloatOps.maximumf x init h' hu (ix2 b (0 : Fin 1))
      = (Finset.univ : Finset (Fin 4096)).fold max (init (Shape.Idx.first hu)) (fun k => x (ix3 b k (0 : Fin 1))) := by
  have h : S16x4096x1.Reduces [1] S16x1 := by decide
  rw [Host.reduce_eq_fold_single FloatOps.maximumf x init h' h hu]
  have hf : (x ∘ h.lift (ix2 b (0 : Fin 1))) = fun k : Fin 4096 => x (ix3 b k (0 : Fin 1)) :=
    funext fun k => congrArg x (lift_mid h b k)
  exact congrArg (fun f => Finset.fold max (init (Shape.Idx.first hu)) f (Finset.univ : Finset (Fin 4096))) hf

/-! ## The reference, stage by stage -/

section Stages

variable (x0 : (⟨S16x4096x1024, .f32⟩ : BufTy).Contents (Elt Ideal))
  (x1 : (⟨S1024x256, .f32⟩ : BufTy).Contents (Elt Ideal))
  (x2 : (⟨S256, .f32⟩ : BufTy).Contents (Elt Ideal))
  (x3 : (⟨S1024x256, .f32⟩ : BufTy).Contents (Elt Ideal))
  (x4 : (⟨S256, .f32⟩ : BufTy).Contents (Elt Ideal))
  (x5 : (⟨S256x1, .f32⟩ : BufTy).Contents (Elt Ideal))
  (x6 : (⟨S1, .f32⟩ : BufTy).Contents (Elt Ideal))

/-- The gated hidden activation: tanh of one affine map of the instance's features times the sigmoid of another, the
    sigmoid computed as 1 / (1 + exp(−·)). -/
theorem ref_gate (b : Fin 16) (j : Fin 4096) (h : Fin 256) :
    val_main_v15 (F := Ideal) x0 x1 x2 x3 x4 (ix3 b j h)
      = GatedPool.gate (Xb x0 b) (Wv' x1) (Wu' x3) (bv' x2) (bu' x4) j h := by
  rw [val_main_v15_apply, val_main_v4_apply, val_main_v3_apply, val_main_v0_apply, val_main_v2_apply, val_main_v1_apply,
    val_main_v14_apply, val_main_v13_apply, val_main_cst_0_apply, val_main_v12_apply, val_main_v11_apply, val_main_cst_apply,
    val_main_v10_apply, val_main_v9_apply, val_main_v8_apply, val_main_v5_apply, val_main_v7_apply, val_main_v6_apply]
  simp only [lidx0, ridx0, bidx2, lidx5, ridx5, bidx7, Ideal.mulf_def, Ideal.addf_def, Ideal.hostUnary_tanh_def,
    Ideal.hostUnary_exp_def, Ideal.hostDivf_def, Ideal.hostNegf_def, Ideal.negf_def, Ideal.ofBits_def, ofBits_one]
  rfl

/-- The attention logit of instance j of bag b. -/
theorem ref_logit (b : Fin 16) (j : Fin 4096) :
    val_main_v19 (F := Ideal) x0 x1 x2 x3 x4 x5 x6 (ix3 b j (0 : Fin 1))
      = GatedPool.logit (Xb x0 b) (Wv' x1) (Wu' x3) (bv' x2) (bu' x4) (Ww' x5) (bw' x6) j := by
  rw [val_main_v19_apply, val_main_v16_apply, val_main_v18_apply, val_main_v17_apply]
  simp only [lidx16, ridx16, bidx18, ref_gate, Ideal.addf_def]
  rfl

/-- The bag's largest logit: max of −∞ and the fold of max from −∞ over the instances. -/
theorem ref_top (b : Fin 16) :
    val_main_v22 (F := Ideal) x0 x1 x2 x3 x4 x5 x6 (ix2 b (0 : Fin 1))
      = GatedPool.top (GatedPool.logit (Xb x0 b) (Wv' x1) (Wu' x3) (bv' x2) (bu' x4) (Ww' x5) (bw' x6)) := by
  rw [val_main_v22_apply, val_main_v21_apply, val_main_cst_2_apply]
  unfold val_main_v20
  rw [reduce_max_mid]
  simp only [val_main_cst_1_apply, ref_logit, Ideal.maximumf_def, Ideal.ofBits_def, ofBits_negInf]
  rfl

/-- The softmax numerator of instance j. -/
theorem ref_num (b : Fin 16) (j : Fin 4096) :
    val_main_v26 (F := Ideal) x0 x1 x2 x3 x4 x5 x6 (ix3 b j (0 : Fin 1))
      = GatedPool.num (GatedPool.logit (Xb x0 b) (Wv' x1) (Wu' x3) (bv' x2) (bu' x4) (Ww' x5) (bw' x6)) j := by
  rw [val_main_v26_apply, val_main_v25_apply, val_main_v24_apply, val_main_v23_apply, bidx24, ref_top, ref_logit]
  simp only [Ideal.hostUnary_exp_def, Ideal.subf_def]
  rfl

/-- The softmax denominator of bag b. -/
theorem ref_den (b : Fin 16) :
    val_main_v27 (F := Ideal) x0 x1 x2 x3 x4 x5 x6 (ix2 b (0 : Fin 1))
      = GatedPool.den (GatedPool.logit (Xb x0 b) (Wv' x1) (Wu' x3) (bv' x2) (bu' x4) (Ww' x5) (bw' x6)) := by
  rw [val_main_v27_apply, val_main_cst_3_apply]
  simp only [idx27, ref_num, Ideal.ofBits_def, Ideal.ofBits_zero_f32]
  rfl

/-- The attention weight of instance j, before the final reshape. -/
theorem ref_weight3 (b : Fin 16) (j : Fin 4096) :
    val_main_v30 (F := Ideal) x0 x1 x2 x3 x4 x5 x6 (ix3 b j (0 : Fin 1))
      = GatedPool.weight (GatedPool.logit (Xb x0 b) (Wv' x1) (Wu' x3) (bv' x2) (bu' x4) (Ww' x5) (bw' x6)) j := by
  rw [val_main_v30_apply, val_main_v29_apply, val_main_v28_apply, bidx29, ref_num, ref_den]
  simp only [Ideal.hostDivf_def]
  rfl

/-- THE WEIGHTS: the reference's second result at (b, j) is the direct softmax weight of instance j of bag b. -/
theorem ref_weights (b : Fin 16) (j : Fin 4096) :
    val_main_v34 (F := Ideal) x0 x1 x2 x3 x4 x5 x6 (ix2 b j)
      = GatedPool.weight (GatedPool.logit (Xb x0 b) (Wv' x1) (Wu' x3) (bv' x2) (bu' x4) (Ww' x5) (bw' x6)) j := by
  rw [val_main_v34_apply, idx34, ref_weight3]

/-- THE POOLED FEATURES: the reference's first result at (b, d) is the weighted sum of feature d over bag b. -/
theorem ref_pooled (b : Fin 16) (d : Fin 1024) :
    val_main_v33 (F := Ideal) x0 x1 x2 x3 x4 x5 x6 (ix2 b d)
      = GatedPool.pooled (GatedPool.logit (Xb x0 b) (Wv' x1) (Wu' x3) (bv' x2) (bu' x4) (Ww' x5) (bw' x6)) (Xb x0 b) d := by
  rw [val_main_v33_apply, val_main_cst_4_apply]
  simp only [idx33, val_main_v32_apply, val_main_v31_apply, idx31, ref_weight3, Ideal.mulf_def, Ideal.ofBits_def,
    Ideal.ofBits_zero_f32]
  rfl

end Stages

end Cert.ReferenceIdeal.RefValue

end
-- ==== Proof.Assemble.lean ====
/-
  The algebraic claim assembled. At the ideal instance the pooling kernel and the reference, run from memories that
  agree on the seven argument arrays, end with equal results. Per device and per bag b: the kernel's results at (b, ·)
  are what its body left in the two output buffers at the bag's last tile, which are the streamed softmax's pooled
  vector and attention weights of the bag's logits; the precondition makes every argument entry a real number, so the
  logits are real and the streamed softmax is the direct one; and the reference's results at (b, ·), read stage by
  stage, are the direct softmax's pooled vector and attention weights of the same arrays.
-/
import proofs.«129396_j54546084659650_2_alg».proof.Defs
import proofs.«129396_j54546084659650_2_alg».proof.Proof.PoolBridge
import proofs.«129396_j54546084659650_2_alg».proof.Proof.PoolAlgebra
import proofs.«129396_j54546084659650_2_alg».proof.Proof.FiniteInputs
import proofs.«129396_j54546084659650_2_alg».proof.Proof.RefSide
import Idealize.ShloMosaic.Lib.ValueIdx

set_option maxRecDepth 16384

noncomputable section

namespace Cert.Proof.Pool

open Cert.KernelIdeal Cert.KernelIdeal.Gen Cert.KernelIdeal.Hand Cert.KernelIdeal.PoolBridge
open Idealize.ShloMosaic Idealize.ShloMosaic.TcCoe Idealize.ShloMosaic.ValueIdx
open Idealize.SL Idealize.SL.Sem

/-! ## The kernel's two results, bag by bag, are the direct softmax's -/

section KernelSide

variable (m : (ℓ : Loc nD τ sig) → Buf (Elt Ideal) ℓ) (c : Dev nD)

/-- Under the finiteness precondition, what the kernel writes back for bag `b` as its pooled vector is the direct
    softmax's pooled vector of the bag: the streamed one, which for real data is the direct one. -/
theorem kernel_pooled (hpre : Cert.Pre_KernelIdeal m) (b : Fin 16) (d : Fin 1024) :
    (dats m 0 c).after 7 (pt b 3) (ix3 (0 : Fin 1) (0 : Fin 1) d) = GatedPool.pooled (Lb m c b) (Xb m c b) d := by
  obtain ⟨h0, h1, h2, h3, h4, h5, h6⟩ := Cert.Pre_finite_inputs.Finite.real_entries _ _ _ _ _ _ _ (hpre c)
  rw [after7_apply]
  exact (GatedPool.pool_streamed_eq_direct (Xb m c b) (Wv' m c) (Wu' m c) (bv' m c) (bu' m c) (Ww' m c) (bw' m c)
    (fun j d => h0 (ix3 b j d)) (fun d h => h1 (ix2 d h)) (fun d h => h3 (ix2 d h)) (fun h => h2 (ix1 h))
    (fun h => h4 (ix1 h)) (fun h => h5 (ix2 h (0 : Fin 1))) (h6 (ix1 (0 : Fin 1)))).2 d

/-- Likewise the attention weights of bag `b`. -/
theorem kernel_weights (hpre : Cert.Pre_KernelIdeal m) (b : Fin 16) (j : Fin 4096) :
    (dats m 0 c).after 8 (pt b 3) (ix3 (0 : Fin 1) (0 : Fin 1) j) = GatedPool.weight (Lb m c b) j := by
  obtain ⟨h0, h1, h2, h3, h4, h5, h6⟩ := Cert.Pre_finite_inputs.Finite.real_entries _ _ _ _ _ _ _ (hpre c)
  rw [after8_apply]
  exact (GatedPool.pool_streamed_eq_direct (Xb m c b) (Wv' m c) (Wu' m c) (bv' m c) (bu' m c) (Ww' m c) (bw' m c)
    (fun j d => h0 (ix3 b j d)) (fun d h => h1 (ix2 d h)) (fun d h => h3 (ix2 d h)) (fun h => h2 (ix1 h))
    (fun h => h4 (ix1 h)) (fun h => h5 (ix2 h (0 : Fin 1))) (h6 (ix1 (0 : Fin 1)))).1 j

/-- The reference's pooled features of the kernel's argument arrays, at (b, d): the same direct pooled vector. -/
theorem ref_pooled_at (b : Fin 16) (d : Fin 1024) :
    Cert.ReferenceIdeal.Read.val_main_v33 (F := Ideal) (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
        (m ((c.tc : Thread nD τ).loc main_arg5)) (m ((c.tc : Thread nD τ).loc main_arg6)) (ix2 b d)
      = GatedPool.pooled (Lb m c b) (Xb m c b) d :=
  Cert.ReferenceIdeal.RefValue.ref_pooled _ _ _ _ _ _ _ b d

/-- The reference's attention weights of the kernel's argument arrays, at (b, j): the same direct weight. -/
theorem ref_weights_at (b : Fin 16) (j : Fin 4096) :
    Cert.ReferenceIdeal.Read.val_main_v34 (F := Ideal) (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
        (m ((c.tc : Thread nD τ).loc main_arg5)) (m ((c.tc : Thread nD τ).loc main_arg6)) (ix2 b j)
      = GatedPool.weight (Lb m c b) j :=
  Cert.ReferenceIdeal.RefValue.ref_weights _ _ _ _ _ _ _ b j

end KernelSide

/-! ## The claim -/

/-- The algebraic claim, from a run of the kernel that names its two results: if the kernel ends with its first
    result at `R8 m c` and its second at `R9 m c`, which at (b, ·) are the entries (0, 0, ·) of what the body left in the
    two output buffers at bag b's last tile, and with its arguments unchanged, then kernel and reference, from memories
    that agree on the arguments and satisfy the finiteness precondition, end with equal results: bag by bag both are
    the direct softmax's pooled vector and attention weights of the same real data. -/
theorem algebraic_of
    (R8 : ((ℓ : Loc nD τ sig) → Buf (Elt Ideal) ℓ) → Dev nD → S16x1024.Idx → Elt Ideal .f32)
    (R9 : ((ℓ : Loc nD τ sig) → Buf (Elt Ideal) ℓ) → Dev nD → S16x4096.Idx → Elt Ideal .f32)
    (hR8 : ∀ m c (b : Fin 16) (d : Fin 1024),
      R8 m c (ix2 b d) = (dats m 0 c).after 7 (pt b 3) (ix3 (0 : Fin 1) (0 : Fin 1) d))
    (hR9 : ∀ m c (b : Fin 16) (j : Fin 4096),
      R9 m c (ix2 b j) = (dats m 0 c).after 8 (pt b 3) (ix3 (0 : Fin 1) (0 : Fin 1) j))
    (h_named : ∀ (m : (ℓ : Loc nD τ sig) → Buf (Elt Ideal) ℓ) (ρ : Dev nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v8) = R8 m c
      ∧ r.2.mem ((c.tc : Thread Cert.KernelIdeal.nD Cert.KernelIdeal.τ).loc Cert.KernelIdeal.main_v9) = R9 m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))) :
    Cert.algebraic_KernelIdeal_ReferenceIdeal := by
  intro m ρ m' ρ' hpre hagree
  refine ⟨fun c => R8 m c, fun c => R9 m c, h_named m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6⟩ := hagree c
    rw [Cert.ReferenceIdeal.Read.val_main_v33_eq, a0, a1, a2, a3, a4, a5, a6]
    funext i
    obtain ⟨b, d, rfl⟩ : ∃ (b : Fin 16) (d : Fin 1024), i = ix2 b d := ⟨i 0, i 1, eq_ix2 i⟩
    exact (ref_pooled_at m c b d).trans ((kernel_pooled m c hpre b d).symm.trans (hR8 m c b d).symm)
  · obtain ⟨a0, a1, a2, a3, a4, a5, a6⟩ := hagree c
    rw [Cert.ReferenceIdeal.Read.val_main_v34_eq, a0, a1, a2, a3, a4, a5, a6]
    funext i
    obtain ⟨b, j, rfl⟩ : ∃ (b : Fin 16) (j : Fin 4096), i = ix2 b j := ⟨i 0, i 1, eq_ix2 i⟩
    exact (ref_weights_at m c b j).trans ((kernel_weights m c hpre b j).symm.trans (hR9 m c b j).symm)

end Cert.Proof.Pool

end
-- ==== Proof.lean ====
/-
  Gated attention pooling over 16 bags of 4096 instances with 1024 features: a streaming kernel against its direct
  reference.

  Both programs compute, per bag, the hidden gate tanh(x·Wv + bv) · σ(x·Wu + bu) of every instance, its attention logit
  gate · Ww + bw, the softmax of the logits over the bag, and the softmax-weighted sum of the instances' features. The
  reference does so directly: it subtracts the bag's largest logit, exponentiates, divides by the sum. The kernel visits
  a bag in four tiles of 1024 instances and carries a running maximum, a running denominator and a running weighted sum,
  rescaling the last two by exp(old maximum − new maximum) at every tile; it keeps the bag's logits in a buffer, one
  slice per tile, and at the bag's last tile emits the pooled vector (weighted sum times the reciprocal of the
  denominator) and the weights (exponentials against the final maximum, times that reciprocal).

  On the extended reals the two agree whenever every input is a real number (the precondition): the logits are then
  real, after the first tile every running quantity is real, the rescaling identity exp(M₀ − M₁) · ∑ exp(x − M₀) =
  ∑ exp(x − M₁) holds, and multiplying by 1/S is dividing by S for a real S > 0. A change of float format is the
  identity there, a matrix product into a zero accumulator is the plain sum, and the sigmoid is 1/(1 + exp(−x)) on both
  sides.

  The parts: the kernel's body run case by case (a bag's first tile, a middle tile, its last tile) with what each buffer
  ends holding as one pure term; the running triple and the logits buffer tracked point by point, which gives the
  pipeline's obligation and hence that every execution terminates with each staged array at what the write-backs leave
  — once at the word level and once on the extended reals, the same text; the two result arrays read off the last
  tile of every bag; the tracked quantities identified with the streaming specification through the body's arithmetic
  read at an index and the input blocks read off the argument arrays; the reference's operations read at an index as
  the direct specification; the streaming and the direct specification equal under real inputs; and real inputs from
  the precondition.
-/
import proofs.«129396_j54546084659650_2_alg».proof.Defs
import proofs.«129396_j54546084659650_2_alg».proof.Proof.Gen.Kernel
import proofs.«129396_j54546084659650_2_alg».proof.Proof.Gen.KernelIdeal
import proofs.«129396_j54546084659650_2_alg».proof.Proof.Gen.ReferenceIdeal
import proofs.«129396_j54546084659650_2_alg».proof.Proof.Gen.Pre_finite_inputs
import proofs.«129396_j54546084659650_2_alg».proof.Proof.Gen.ReferenceIdeal.Run
import proofs.«129396_j54546084659650_2_alg».proof.Proof.Gen.ReferenceIdeal.Read
import proofs.«129396_j54546084659650_2_alg».proof.Proof.WordBody
import proofs.«129396_j54546084659650_2_alg».proof.Proof.IdealBody
import proofs.«129396_j54546084659650_2_alg».proof.Proof.PoolArrays
import proofs.«129396_j54546084659650_2_alg».proof.Proof.Assemble
import Idealize.ShloMosaic.Adequacy
import Idealize.ShloMosaic.Init

noncomputable section

namespace Cert.Proof

open Idealize.ShloMosaic Idealize.SL.Sem

/-- The word-level kernel runs and leaves its arguments as launched. -/
theorem frame_word : Cert.frame_Kernel := fun m ρ _ => Cert.Kernel.Hand.frame (F := Bits) m ρ

/-- So does the kernel read on the extended reals. -/
theorem frame_ideal : Cert.frame_KernelIdeal := fun m ρ _ => Cert.KernelIdeal.Hand.frame (F := Ideal) m ρ

/-- The reference is host operations only: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Kernel and reference, from memories agreeing on the arguments, end with equal results on the extended reals. The
    kernel's run is taken with both results named: entry (b, ·) of each is what bag b's last tile left in the
    corresponding output buffer. -/
theorem algebraic : Cert.algebraic_KernelIdeal_ReferenceIdeal :=
  Cert.Proof.Pool.algebraic_of
    (fun m c => Cert.KernelIdeal.PoolArrays.R8of (Cert.KernelIdeal.Hand.dats m) c)
    (fun m c => Cert.KernelIdeal.PoolArrays.R9of (Cert.KernelIdeal.Hand.dats m) c)
    (fun m c b d => Cert.KernelIdeal.PoolArrays.after_congr (Cert.KernelIdeal.Hand.dats m 0 c) 7 (Fin.ext rfl) rfl)
    (fun m c b j => Cert.KernelIdeal.PoolArrays.after_congr (Cert.KernelIdeal.Hand.dats m 0 c) 8 (Fin.ext rfl) rfl)
    (fun m ρ => Cert.KernelIdeal.PoolArrays.run_named_of m ρ (Cert.KernelIdeal.Hand.dats m) (Cert.KernelIdeal.Hand.A_eq m)
      (Cert.KernelIdeal.Hand.run_main m ρ))

theorem claim : Cert.Claim :=
  ⟨Cert.Kernel.Gen.facts, Cert.KernelIdeal.Gen.facts, Cert.ReferenceIdeal.Gen.facts, Cert.Pre_finite_inputs.Gen.facts,
    frame_word, frame_ideal, frame_reference, preserves, algebraic⟩

end Cert.Proof

end
